-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S1340x128 : Shape := ⟨2, ![1340, 128]⟩
abbrev S128x128 : Shape := ⟨2, ![128, 128]⟩
abbrev S128 : Shape := ⟨1, ![128]⟩
abbrev S41x128 : Shape := ⟨2, ![41, 128]⟩
abbrev S41 : Shape := ⟨1, ![41]⟩
abbrev S_ : Shape := ⟨0, ![]⟩

class Facts : Prop where
  bcast_S_S1340x128 : S_.BroadcastsInDim S1340x128 (![] : Fin 0 → Fin S1340x128.rank)
  reducesTo_S1340x128_S_d0_1 : S1340x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S41x128 : S_.BroadcastsInDim S41x128 (![] : Fin 0 → Fin S41x128.rank)
  reducesTo_S41x128_S_d0_1 : S41x128.ReducesTo [0, 1] S_
  bcast_S_S41 : S_.BroadcastsInDim S41 (![] : Fin 0 → Fin S41.rank)
  reducesTo_S41_S_d0 : S41.ReducesTo [0] S_

variable [Facts]

def fn_part5 {F : FTy → Type} [FloatOps F] (main_arg11 : FVec F S128 .f32) (main_v83 : IVec S_ 1) (main_v84 : FVec F S128 .f32) : IVec S_ 1 :=
  let main_v85 : IVec S128 1 := cmpf .oge main_arg11 main_v84
  let main_c_33 : IVec S_ 1 := constantI S_ 1 1#1
  let main_v86 : IVec S_ 1 := (fun x v => Host.reduce IntOp.andi x v reducesTo_S128_S_d0 h_S_) main_v85 main_c_33
  let main_v87 : IVec S_ 1 := andi main_v83 main_v86
  main_v87

def fn_part4 {F : FTy → Type} [FloatOps F] (main_arg11 : FVec F S128 .f32) (main_arg17 : FVec F S128 .f32) (main_arg18 : FVec F S41x128 .f32) (main_arg19 : FVec F S41 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S41x128 .f32 := Host.absf main_arg18
  let main_cst_28 : FVec F S_ .f32 := constant S_ .f32 0x7F800000#32
  let main_v75 : FVec F S41x128 .f32 := broadcastInDim S41x128 ![] bcast_S_S41x128 main_cst_28
  let main_v76 : IVec S41x128 1 := cmpf .olt main_v74 main_v75
  let main_c_29 : IVec S_ 1 := constantI S_ 1 1#1
  let main_v77 : IVec S_ 1 := (fun x v => Host.reduce IntOp.andi x v reducesTo_S41x128_S_d0_1 h_S_) main_v76 main_c_29
  let main_v78 : IVec S_ 1 := andi main_v73 main_v77
  let main_v79 : FVec F S41 .f32 := Host.absf main_arg19
  let main_cst_30 : FVec F S_ .f32 := constant S_ .f32 0x7F800000#32
  let main_v80 : FVec F S41 .f32 := broadcastInDim S41 ![] bcast_S_S41 main_cst_30
  let main_v81 : IVec S41 1 := cmpf .olt main_v79 main_v80
  let main_c_31 : IVec S_ 1 := constantI S_ 1 1#1
  let main_v82 : IVec S_ 1 := (fun x v => Host.reduce IntOp.andi x v reducesTo_S41_S_d0 h_S_) main_v81 main_c_31
  let main_v83 : IVec S_ 1 := andi main_v78 main_v82
  let main_cst_32 : FVec F S_ .f32 := constant S_ .f32 0x00000000#32
  let main_v84 : FVec F S128 .f32 := broadcastInDim S128 ![] bcast_S_S128 main_cst_32
  fn_part5 (F := F) main_arg11 main_v83 main_v84

def fn_part3 {F : FTy → Type} [FloatOps F] (main_arg11 : FVec F S128 .f32) (main_arg14 : FVec F S128x128 .f32) (main_arg15 : FVec F S128 .f32) (main_arg16 : FVec F S128x128 .f32) (main_arg17 : FVec F S128 .f32) (main_arg18 : FVec F S41x128 .f32) (main_arg19 : FVec F S41 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg11 main_arg17 main_arg18 main_arg19 main_v63 main_v67

def fn_part2 {F : FTy → Type} [FloatOps F] (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S41x128 .f32) (main_arg19 : FVec F S41 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg11 main_arg14 main_arg15 main_arg16 main_arg17 main_arg18 main_arg19 main_v48 main_v49 main_v50

def fn_part1 {F : FTy → Type} [FloatOps F] (main_arg7 : FVec F S128 .f32) (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S41x128 .f32) (main_arg19 : FVec F S41 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : IVec S50000 32) (main_arg1 : IVec S2x800000 32) (main_arg2 : IVec S50000 32) (main_arg3 : FVec F S1340x128 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S41x128 .f32) (main_arg19 : FVec F S41 .f32) : IVec S_ 1 :=
  let main_v0 : FVec F S1340x128 .f32 := Host.absf main_arg3
  let main_cst : FVec F S_ .f32 := constant S_ .f32 0x7F800000#32
  let main_v1 : FVec F S1340x128 .f32 := broadcastInDim S1340x128 ![] bcast_S_S1340x128 main_cst
  let main_v2 : IVec S1340x128 1 := cmpf .olt main_v0 main_v1
  let main_c : IVec S_ 1 := constantI S_ 1 1#1
  let main_v3 : IVec S_ 1 := (fun x v => Host.reduce IntOp.andi x v reducesTo_S1340x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S50000 : Shape := ⟨1, ![50000]⟩
abbrev S2x800000 : Shape := ⟨2, ![2, 800000]⟩
abbrev S1340x128 : Shape := ⟨2, ![1340, 128]⟩
abbrev S128x128 : Shape := ⟨2, ![128, 128]⟩
abbrev S128 : Shape := ⟨1, ![128]⟩
abbrev S41x128 : Shape := ⟨2, ![41, 128]⟩
abbrev S41 : Shape := ⟨1, ![41]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x128 : Shape := ⟨2, ![50000, 128]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S1x41 : Shape := ⟨2, ![1, 41]⟩
abbrev S128x41 : Shape := ⟨2, ![128, 41]⟩

abbrev nBuf : Space → Nat
  | .hbm => 168
  | .vmem => 74
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S1340x128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S41x128, .f32⟩
  | 19 => ⟨S41, .f32⟩
  | 20 => ⟨S1x800000, .i32⟩
  | 21 => ⟨S800000, .i32⟩
  | 22 => ⟨S1x800000, .i32⟩
  | 23 => ⟨S800000, .i32⟩
  | 24 => ⟨S128x128, .bf16⟩
  | 25 => ⟨S128x128, .bf16⟩
  | 26 => ⟨S128x128, .bf16⟩
  | 27 => ⟨S128x128, .bf16⟩
  | 28 => ⟨S128x128, .bf16⟩
  | 29 => ⟨S41x128, .bf16⟩
  | 30 => ⟨S_, .i32⟩
  | 31 => ⟨S50000, .i32⟩
  | 32 => ⟨S50000, .i1⟩
  | 33 => ⟨S_, .i32⟩
  | 34 => ⟨S50000, .i32⟩
  | 35 => ⟨S50000, .i32⟩
  | 36 => ⟨S50000, .i32⟩
  | 37 => ⟨S50000x1, .i32⟩
  | 38 => ⟨S50000x128, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S50000x128, .f32⟩
  | 53 => ⟨S1x128, .f32⟩
  | 54 => ⟨S1x128, .f32⟩
  | 55 => ⟨S1x128, .f32⟩
  | 56 => ⟨S1x128, .f32⟩
  | 57 => ⟨S1x128, .f32⟩
  | 58 => ⟨S1x128, .f32⟩
  | 59 => ⟨S50000x128, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S50000x128, .f32⟩
  | 74 => ⟨S1x128, .f32⟩
  | 75 => ⟨S1x128, .f32⟩
  | 76 => ⟨S1x128, .f32⟩
  | 77 => ⟨S1x128, .f32⟩
  | 78 => ⟨S1x128, .f32⟩
  | 79 => ⟨S1x128, .f32⟩
  | 80 => ⟨S50000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S50000x128, .f32⟩
  | 95 => ⟨S1x128, .f32⟩
  | 96 => ⟨S1x128, .f32⟩
  | 97 => ⟨S1x128, .f32⟩
  | 98 => ⟨S1x128, .f32⟩
  | 99 => ⟨S1x128, .f32⟩
  | 100 => ⟨S1x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S50000x128, .f32⟩
  | 116 => ⟨S1x128, .f32⟩
  | 117 => ⟨S1x128, .f32⟩
  | 118 => ⟨S1x128, .f32⟩
  | 119 => ⟨S1x128, .f32⟩
  | 120 => ⟨S1x128, .f32⟩
  | 121 => ⟨S1x128, .f32⟩
  | 122 => ⟨S50000x128, .f32⟩
  | 123 => ⟨S_, .i32⟩
  | 124 => ⟨S800000, .i32⟩
  | 125 => ⟨S800000, .i1⟩
  | 126 => ⟨S_, .i32⟩
  | 127 => ⟨S800000, .i32⟩
  | _ => ⟨S50000, .i32⟩

abbrev hbmTy0_1 (i : Nat) : BufTy := match i % 128 with
  | 0 => ⟨S800000, .i32⟩
  | 1 => ⟨S800000, .i32⟩
  | 2 => ⟨S800000x1, .i32⟩
  | 3 => ⟨S800000x128, .f32⟩
  | 4 => ⟨S_, .f32⟩
  | 5 => ⟨S50000x128, .f32⟩
  | 6 => ⟨S800000x1, .i32⟩
  | 7 => ⟨S50000x128, .f32⟩
  | 8 => ⟨S50000x128, .f32⟩
  | 9 => ⟨S1x128, .f32⟩
  | 10 => ⟨S1x128, .f32⟩
  | 11 => ⟨S1x128, .f32⟩
  | 12 => ⟨S1x128, .f32⟩
  | 13 => ⟨S1x128, .f32⟩
  | 14 => ⟨S1x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000x128, .f32⟩
  | 30 => ⟨S1x128, .f32⟩
  | 31 => ⟨S1x128, .f32⟩
  | 32 => ⟨S50000x128, .f32⟩
  | 33 => ⟨S_, .f32⟩
  | 34 => ⟨S128x128, .f32⟩
  | 35 => ⟨S50000x1, .i32⟩
  | 36 => ⟨S128x128, .f32⟩
  | 37 => ⟨S1x128, .f32⟩
  | 38 => ⟨S1x41, .f32⟩
  | 39 => ⟨S128x41, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .bf16⟩
  | .local _ .vmem, ⟨27, _⟩ => ⟨S1x128, .f32⟩
  | .local _ .vmem, ⟨28, _⟩ => ⟨S128x128, .bf16⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .bf16⟩
  | .local _ .vmem, ⟨39, _⟩ => ⟨S1x128, .f32⟩
  | .local _ .vmem, ⟨40, _⟩ => ⟨S128x128, .bf16⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .bf16⟩
  | .local _ .vmem, ⟨51, _⟩ => ⟨S1x128, .f32⟩
  | .local _ .vmem, ⟨52, _⟩ => ⟨S128x128, .bf16⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S128x128, .bf16⟩
  | .local _ .vmem, ⟨63, _⟩ => ⟨S1x128, .f32⟩
  | .local _ .vmem, ⟨64, _⟩ => ⟨S128x128, .bf16⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S128x128, .f32⟩
  | .local _ .vmem, ⟨69, _⟩ => ⟨S128x128, .bf16⟩
  | .local _ .vmem, ⟨70, _⟩ => ⟨S1x128, .f32⟩
  | .local _ .vmem, ⟨71, _⟩ => ⟨S41x128, .bf16⟩
  | .local _ .vmem, ⟨72, _⟩ => ⟨S1x41, .f32⟩
  | .local _ .vmem, ⟨73, _⟩ => ⟨S128x41, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_1 : Ref sig .tc := ⟨.hbm, 39, rfl⟩
abbrev main_v17 : Ref sig .tc := ⟨.hbm, 40, rfl⟩
abbrev main_v18 : Ref sig .tc := ⟨.hbm, 41, rfl⟩
abbrev main_c_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_3 : Ref sig .tc := ⟨.hbm, 60, rfl⟩
abbrev main_v35 : Ref sig .tc := ⟨.hbm, 61, rfl⟩
abbrev main_v36 : Ref sig .tc := ⟨.hbm, 62, rfl⟩
abbrev main_c_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_6 : Ref sig .tc := ⟨.hbm, 81, rfl⟩
abbrev main_v53 : Ref sig .tc := ⟨.hbm, 82, rfl⟩
abbrev main_v54 : Ref sig .tc := ⟨.hbm, 83, rfl⟩
abbrev main_c_7 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_8 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_9 : Ref sig .tc := ⟨.hbm, 102, rfl⟩
abbrev main_v71 : Ref sig .tc := ⟨.hbm, 103, rfl⟩
abbrev main_v72 : Ref sig .tc := ⟨.hbm, 104, rfl⟩
abbrev main_c_10 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_11 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_12 : Ref sig .tc := ⟨.hbm, 123, rfl⟩
abbrev main_v89 : Ref sig .tc := ⟨.hbm, 124, rfl⟩
abbrev main_v90 : Ref sig .tc := ⟨.hbm, 125, rfl⟩
abbrev main_c_13 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_14 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_15 : Ref sig .tc := ⟨.hbm, 144, rfl⟩
abbrev main_v107 : Ref sig .tc := ⟨.hbm, 145, rfl⟩
abbrev main_v108 : Ref sig .tc := ⟨.hbm, 146, rfl⟩
abbrev main_c_16 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_17 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_18 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg9_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg8_0 : Ref sig .tc := ⟨.vmem, 57, rfl⟩
abbrev cc4_stg9_0 : Ref sig .tc := ⟨.vmem, 58, rfl⟩
abbrev cc4_stg9_1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg2_0 : Ref sig .tc := ⟨.vmem, 63, rfl⟩
abbrev cc5_stg3_0 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg5_1 : Ref sig .tc := ⟨.vmem, 67, rfl⟩
abbrev cc6_stg0_0 : Ref sig .tc := ⟨.vmem, 68, rfl⟩
abbrev cc6_stg1_0 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg5_0 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem9_0 : DmaSem sig := 46
abbrev cc3_sem9_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem8_0 : DmaSem sig := 57
abbrev cc4_sem9_0 : DmaSem sig := 58
abbrev cc4_sem9_1 : DmaSem sig := 59
abbrev cc5_sem0_0 : DmaSem sig := 60
abbrev cc5_sem0_1 : DmaSem sig := 61
abbrev cc5_sem1_0 : DmaSem sig := 62
abbrev cc5_sem2_0 : DmaSem sig := 63
abbrev cc5_sem3_0 : DmaSem sig := 64
abbrev cc5_sem4_0 : DmaSem sig := 65
abbrev cc5_sem5_0 : DmaSem sig := 66
abbrev cc5_sem5_1 : DmaSem sig := 67
abbrev cc6_sem0_0 : DmaSem sig := 68
abbrev cc6_sem1_0 : DmaSem sig := 69
abbrev cc6_sem2_0 : DmaSem sig := 70
abbrev cc6_sem3_0 : DmaSem sig := 71
abbrev cc6_sem4_0 : DmaSem sig := 72
abbrev cc6_sem5_0 : DmaSem sig := 73

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S128x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S41x128 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x41 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x41 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128x128 : S_.BroadcastsInDim S128x128 (![] : Fin 0 → Fin S128x128.rank)
  shapeCasts_S41_S1x41 : S41.ShapeCasts S1x41
  broadcasts_S1x128_S128x128 : S1x128.Broadcasts S128x128
  inb_S41x128_S41x128_0_0 : ∀ a, (![0, 0] : Fin 2 → Nat) a + S41x128.size a ≤ S41x128.size a
  h_S41x128 : 0 < S41x128.numel
  shapeCasts_S41x128_S41x128 : S41x128.ShapeCasts S41x128
  inb_S1x41_S1x41_0_0 : ∀ a, (![0, 0] : Fin 2 → Nat) a + S1x41.size a ≤ S1x41.size a
  h_S1x41 : 0 < S1x41.numel
  shapeCasts_S1x41_S1x41 : S1x41.ShapeCasts S1x41
  broadcasts_S1x41_S128x41 : S1x41.Broadcasts S128x41
  inb_S128x41_S128x41_0_0 : ∀ a, (![0, 0] : Fin 2 → Nat) a + S128x41.size a ≤ S128x41.size a
  h_S128x41 : 0 < S128x41.numel
  gather_S1340x128_S50000x1_S50000x128_1_0_n_n_0_1_1128_wf : GatherDims.WF S1340x128 S50000x1 S50000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_1_0_0_n_n_wf : DotDims.WF S5000x128 S128x128 S5000x128 [1] [1] [0] [0] [] []
  scatter_S128x128_S50000x1_S50000x128_1_0_0_1_wf : ScatterDims.WF S128x128 S50000x1 S50000x128 [1] [0] [0] 1
  dot_S128x128_S128x128_S128x128_1_1_0_0_n_n_wf : DotDims.WF S128x128 S128x128 S128x128 [1] [1] [0] [0] [] []
  dot_S128x128_S41x128_S128x41_1_1_0_0_n_n_wf : DotDims.WF S128x128 S41x128 S128x41 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S50000x128.size a
  hwx2_9 : ∀ i : grid2.Coords, EltTy.bits .f32 = 32 ∨ (Rect.block (s := S50000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S50000x128.size a
  hwx3_9 : ∀ i : grid3.Coords, EltTy.bits .f32 = 32 ∨ (Rect.block (s := S50000x128) S5000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x128.size a ≤ S50000x128.size a
  hwx4_9 : ∀ i : grid4.Coords, EltTy.bits .f32 = 32 ∨ (Rect.block (s := S50000x128) S5000x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .bf16 = 32 ∨ (Rect.block (s := S128x128) S128x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .bf16 = 32 ∨ (Rect.block (s := S128x128) S128x128.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S128x128.size a ≤ S128x128.size a
  hwx6_0 : ∀ i : grid6.Coords, EltTy.bits .f32 = 32 ∨ (Rect.block (s := S128x128) S128x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .bf16 = 32 ∨ (Rect.block (s := S128x128) S128x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S41x128.size a ≤ S41x128.size a
  hwx6_3 : ∀ i : grid6.Coords, EltTy.bits .bf16 = 32 ∨ (Rect.block (s := S41x128) S41x128.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x41.size a ≤ S1x41.size a
  hwx6_4 : ∀ i : grid6.Coords, EltTy.bits .f32 = 32 ∨ (Rect.block (s := S1x41) S1x41.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x41.size a ≤ S128x41.size a
  hwx6_5 : ∀ i : grid6.Coords, EltTy.bits .f32 = 32 ∨ (Rect.block (s := S128x41) S128x41.size (cc6_transform_5 i) (hinb6_5 i)).WholeWords (EltTy.packing .f32)

variable [Facts₀]

def gather_S1340x128_S50000x1_S50000x128_1_0_n_n_0_1_1128 : GatherDims S1340x128 S50000x1 S50000x128 where
  offsetDims := [1]
  collapsedSliceDims := [0]
  operandBatchingDims := []
  startIndicesBatchingDims := []
  startIndexMap := [0]
  indexVectorDim := 1
  sliceSizes := ![1, 128]
  wf := gather_S1340x128_S50000x1_S50000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_1_0_0_n_n : DotDims S128x128 S128x128 S128x128 where
  lhsContracting := [1]
  rhsContracting := [1]
  lhsNonContracting := [0]
  rhsNonContracting := [0]
  lhsBatch := []
  rhsBatch := []
  wf := dot_S128x128_S128x128_S128x128_1_1_0_0_n_n_wf
def dot_S128x128_S41x128_S128x41_1_1_0_0_n_n : DotDims S128x128 S41x128 S128x41 where
  lhsContracting := [1]
  rhsContracting := [1]
  lhsNonContracting := [0]
  rhsNonContracting := [0]
  lhsBatch := []
  rhsBatch := []
  wf := dot_S128x128_S41x128_S128x41_1_1_0_0_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v34) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v52) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v67) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v68) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v69) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v70) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v81) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v84) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v85) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v86) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v87) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v88) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v99) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v100) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v5) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v101) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v102) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v103) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v104) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v105) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v106) S5000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v117) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v6) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v118) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v7) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v119) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v120) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v123) S128x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v124) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v9) S41x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v125) S1x41.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v126) S128x41.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000 : Shape := ⟨1, ![50000]⟩
abbrev S2x800000 : Shape := ⟨2, ![2, 800000]⟩
abbrev S1340x128 : Shape := ⟨2, ![1340, 128]⟩
abbrev S128x128 : Shape := ⟨2, ![128, 128]⟩
abbrev S128 : Shape := ⟨1, ![128]⟩
abbrev S41x128 : Shape := ⟨2, ![41, 128]⟩
abbrev S41 : Shape := ⟨1, ![41]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x128 : Shape := ⟨2, ![50000, 128]⟩
abbrev S800000x1 : Shape := ⟨2, ![800000, 1]⟩
abbrev S800000x128 : Shape := ⟨2, ![800000, 128]⟩
abbrev S1x128 : Shape := ⟨2, ![1, 128]⟩
abbrev S128x41 : Shape := ⟨2, ![128, 41]⟩
abbrev S1x41 : Shape := ⟨2, ![1, 41]⟩

abbrev nBuf : Space → Nat
  | .hbm => 300
  | .vmem => 0
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S1340x128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S41x128, .f32⟩
  | 19 => ⟨S41, .f32⟩
  | 20 => ⟨S1x800000, .i32⟩
  | 21 => ⟨S800000, .i32⟩
  | 22 => ⟨S1x800000, .i32⟩
  | 23 => ⟨S800000, .i32⟩
  | 24 => ⟨S_, .i32⟩
  | 25 => ⟨S50000, .i32⟩
  | 26 => ⟨S50000, .i1⟩
  | 27 => ⟨S_, .i32⟩
  | 28 => ⟨S50000, .i32⟩
  | 29 => ⟨S50000, .i32⟩
  | 30 => ⟨S50000, .i32⟩
  | 31 => ⟨S50000x1, .i32⟩
  | 32 => ⟨S50000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S50000x128, .f32⟩
  | 47 => ⟨S128x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S128x128, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S128, .f32⟩
  | 68 => ⟨S128, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S50000x128, .f32⟩
  | 91 => ⟨S128x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S128x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S128, .f32⟩
  | 112 => ⟨S128, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000, .i32⟩

abbrev hbmTy0_1 (i : Nat) : BufTy := match i % 128 with
  | 0 => ⟨S800000x1, .i32⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S50000x128, .f32⟩
  | 7 => ⟨S128x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S128x128, .f32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S128, .f32⟩
  | 28 => ⟨S128, .f32⟩
  | 29 => ⟨S128, .f32⟩
  | 30 => ⟨S128, .f32⟩
  | 31 => ⟨S1x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S50000x128, .f32⟩
  | 51 => ⟨S128x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S128x128, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S128, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S50000x128, .f32⟩
  | 95 => ⟨S128x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S128x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S128, .f32⟩
  | 116 => ⟨S128, .f32⟩
  | 117 => ⟨S128, .f32⟩
  | 118 => ⟨S128, .f32⟩
  | 119 => ⟨S1x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .i32⟩
  | 126 => ⟨S800000, .i32⟩
  | 127 => ⟨S800000, .i1⟩
  | _ => ⟨S50000, .i32⟩

abbrev hbmTy0_2 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S50000x128, .f32⟩
  | 11 => ⟨S128x128, .f32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S128x128, .f32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S_, .f32⟩
  | 28 => ⟨S128x128, .f32⟩
  | 29 => ⟨S50000x1, .i32⟩
  | 30 => ⟨S128x128, .f32⟩
  | 31 => ⟨S128x128, .f32⟩
  | 32 => ⟨S128x128, .f32⟩
  | 33 => ⟨S1x128, .f32⟩
  | 34 => ⟨S128x128, .f32⟩
  | 35 => ⟨S128x128, .f32⟩
  | 36 => ⟨S_, .f32⟩
  | 37 => ⟨S128x128, .f32⟩
  | 38 => ⟨S128x128, .f32⟩
  | 39 => ⟨S128x41, .f32⟩
  | 40 => ⟨S128x41, .f32⟩
  | 41 => ⟨S1x41, .f32⟩
  | 42 => ⟨S128x41, .f32⟩
  | 43 => ⟨S128x41, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_6 : Ref sig .tc := ⟨.hbm, 77, rfl⟩
abbrev main_v49 : Ref sig .tc := ⟨.hbm, 78, rfl⟩
abbrev main_v50 : Ref sig .tc := ⟨.hbm, 79, rfl⟩
abbrev main_c_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_9 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_10 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_11 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_12 : Ref sig .tc := ⟨.hbm, 121, rfl⟩
abbrev main_v87 : Ref sig .tc := ⟨.hbm, 122, rfl⟩
abbrev main_v88 : Ref sig .tc := ⟨.hbm, 123, rfl⟩
abbrev main_c_13 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_14 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_15 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_16 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_17 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_c_18 : Ref sig .tc := ⟨.hbm, 165, rfl⟩
abbrev main_v125 : Ref sig .tc := ⟨.hbm, 166, rfl⟩
abbrev main_v126 : Ref sig .tc := ⟨.hbm, 167, rfl⟩
abbrev main_c_19 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_20 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_21 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_22 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_cst_23 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_c_24 : Ref sig .tc := ⟨.hbm, 209, rfl⟩
abbrev main_v163 : Ref sig .tc := ⟨.hbm, 210, rfl⟩
abbrev main_v164 : Ref sig .tc := ⟨.hbm, 211, rfl⟩
abbrev main_c_25 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_cst_26 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_cst_27 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_cst_28 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_cst_29 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_c_30 : Ref sig .tc := ⟨.hbm, 253, rfl⟩
abbrev main_v201 : Ref sig .tc := ⟨.hbm, 254, rfl⟩
abbrev main_v202 : Ref sig .tc := ⟨.hbm, 255, rfl⟩
abbrev main_c_31 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_cst_32 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_cst_33 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_cst_34 : Ref sig .tc := ⟨.hbm, 280, rfl⟩
abbrev main_v224 : Ref sig .tc := ⟨.hbm, 281, rfl⟩
abbrev main_v225 : Ref sig .tc := ⟨.hbm, 282, rfl⟩
abbrev main_cst_35 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_cst_36 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S128x128 : S_.BroadcastsInDim S128x128 (![] : Fin 0 → Fin S128x128.rank)
  bcast_S1x128_S128x128_0_1 : S1x128.BroadcastsInDim S128x128 (![0, 1] : Fin 2 → Fin S128x128.rank)
  transposes_S41x128_S128x41_1_0 : S41x128.Transposes [1, 0] S128x41
  bcast_S41_S1x41_1 : S41.BroadcastsInDim S1x41 (![1] : Fin 1 → Fin S1x41.rank)
  bcast_S1x41_S128x41_0_1 : S1x41.BroadcastsInDim S128x41 (![0, 1] : Fin 2 → Fin S128x41.rank)
  gather_S1340x128_S50000x1_S50000x128_1_0_n_n_0_1_1128_wf : GatherDims.WF S1340x128 S50000x1 S50000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  dot_S128x128_S128x41_S128x41_1_0_0_1_n_n_wf : DotDims.WF S128x128 S128x41 S128x41 [1] [0] [0] [1] [] []

variable [Facts₀]

def gather_S1340x128_S50000x1_S50000x128_1_0_n_n_0_1_1128 : GatherDims S1340x128 S50000x1 S50000x128 where
  offsetDims := [1]
  collapsedSliceDims := [0]
  operandBatchingDims := []
  startIndicesBatchingDims := []
  startIndexMap := [0]
  indexVectorDim := 1
  sliceSizes := ![1, 128]
  wf := gather_S1340x128_S50000x1_S50000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x41_S128x41_1_0_0_1_n_n : DotDims S128x128 S128x41 S128x41 where
  lhsContracting := [1]
  rhsContracting := [0]
  lhsNonContracting := [0]
  rhsNonContracting := [1]
  lhsBatch := []
  rhsBatch := []
  wf := dot_S128x128_S128x41_S128x41_1_0_0_1_n_n_wf

class Facts : Prop extends Facts₀ where

variable [Facts]
-- ==== Proof.KRun.lean ====
/-
  The idealized kernel's run with every buffer's final contents kept.

  @main is fourteen segments: a stretch of host operations, then a region, seven times over. The buffer contents at
  each boundary are a fold from the launch memory: a stretch applies its operations, a region replaces its arrays by
  what its write-backs leave and keeps every other buffer. Every weakly fair execution terminates without a fault,
  and in the final memory every unscoped buffer holds what the fold ends at. The frame claim keeps of this only that
  the arguments end as launched; the value claim needs the result buffer too, so the readings are kept whole here.
-/
import proofs.«135258_j66949950210693_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped buffer of every core ends
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The result buffer ends at the last boundary's contents, and the arguments end as launched. -/
theorem run_result : θ_run defs (onTc (τ := τ) (main (F := F))) ⟨m, fun _ => 0, ρ⟩ (fun r => ∀ c : Dev nD,
      r.2.mem ((c.tc : Thread nD τ).loc main_v126) = W14 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨h c _ (mem_uc main_v126 (by decide)),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c),
     (h c _ (mem_uc main_arg13 (by decide))).trans (W14_main_arg13 m ρ c),
     (h c _ (mem_uc main_arg14 (by decide))).trans (W14_main_arg14 m ρ c),
     (h c _ (mem_uc main_arg15 (by decide))).trans (W14_main_arg15 m ρ c),
     (h c _ (mem_uc main_arg16 (by decide))).trans (W14_main_arg16 m ρ c),
     (h c _ (mem_uc main_arg17 (by decide))).trans (W14_main_arg17 m ρ c),
     (h c _ (mem_uc main_arg18 (by decide))).trans (W14_main_arg18 m ρ c),
     (h c _ (mem_uc main_arg19 (by decide))).trans (W14_main_arg19 m ρ c)⟩)
    (run_all m ρ)

end Cert.KernelIdeal.Run

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.LibMatmulTransposedRhs.lean ====
/-
  A rows-by-rows matrix product into a zero accumulator, read at an index on the extended reals.

  For `A : [M, K]` and `B : [N, K]`, both contracted on their last axis, the product accumulated into the zero splat
  is, at `(i, j)`, the finite sum `∑ k, A (i, k) * B (j, k)`: the inner product of row `i` of `A` with row `j` of `B`.
  At the exact values no rounding and no chunk order is left, and the contraction index with its one axis is the
  coordinate `k`. Generic in the three extents and the two operand formats; nothing here needs finiteness.
-/
import Idealize.ShloMosaic.PureOps.Ideal
import Idealize.ShloMosaic.PureOps.Ideal.Laws
import Idealize.ShloMosaic.Lib.ValueIdx

noncomputable section

namespace Cert.LibMatmulTransposedRhs

open Idealize.ShloMosaic Idealize.ShloMosaic.ValueIdx

/-- The product `[M, K] × [N, K]ᵀ` into the zero accumulator at `(i, j)` is `∑ k, A (i, k) * B (j, k)`. -/
theorem matmul_zero_apply {M K N : ℕ} {φ₁ φ₂ : FTy} (prec : Option ContractPrecision)
    (A : FVec Ideal ⟨2, ![M, K]⟩ φ₁) (B : FVec Ideal ⟨2, ![N, K]⟩ φ₂) (i : Fin M) (j : Fin N) :
    FloatOps.matmul (DotDims.transposedRhs M K N) prec A B (constant ⟨2, ![M, N]⟩ .f32 0x00000000#32) (ix2 i j)
      = ∑ k : Fin K, A (ix2 i k) * B (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact ((DotDims.transposedRhs M K N).rhsIdx_val_of_single rfl _ _).trans hk)
  rw [el, er]

end Cert.LibMatmulTransposedRhs

end
-- ==== Proof.Layers.lean ====
/-
  One layer of the network on a single row of features, on the extended reals.

  A dense map sends a row x to (∑ k, x k · w (j, k)) + b j: the inner product of the row with row j of the weight
  matrix, plus a bias. The rectifier takes the larger of a value and the zero word's value. A layer's perceptron
  is dense, rectifier, dense; its output is rectified once more and, in the inner layers, normalised entry by
  entry as (y - mean) · scale + shift. A sum on the extended reals is a sum in a commutative monoid, so neither
  the order of a contraction nor its tiling matters, and nothing here needs an entry to be finite.

  The one law that is not bookkeeping: for a variance v ≥ 0 and an offset e > 0 the reciprocal square root of
  v + e times a factor is that factor divided by the square root of v + e. Both sides are the factor times the
  real (√(v + e))⁻¹; outside v + e > 0 the two spellings part ways, which is why the law carries its hypothesis.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«135258_j66949950210693_1_alg».proof.Proof.LibDense
import proofs.«135258_j66949950210693_1_alg».proof.Proof.LibBiasRows
import proofs.«135258_j66949950210693_1_alg».proof.Proof.LibMatmulTransposedRhs

noncomputable section

namespace Cert.Gin

open Idealize.ShloMosaic Idealize.ShloMosaic.ValueIdx

/-! ## The row form -/

/-- A dense map applied to one row: entry j is the row's inner product with row j of the weights, plus the bias. -/
def dense {K d : ℕ} (x : Fin K → EReal) (w : (⟨2, ![d, K]⟩ : Shape).Idx → EReal) (b : Fin d → EReal) (j : Fin d) : EReal :=
  (∑ k : Fin K, x k * w (ix2 j k)) + b j

/-- The rectifier: the larger of a value and the zero word's value. -/
def relu (z : EReal) : EReal := max z (Ideal.ofBits .f32 0x00000000#32)

/-- The perceptron of a layer on one row: dense, rectifier, dense. -/
def mlp {K H d : ℕ} (x : Fin K → EReal) (w1 : (⟨2, ![H, K]⟩ : Shape).Idx → EReal) (b1 : Fin H → EReal)
    (w2 : (⟨2, ![d, H]⟩ : Shape).Idx → EReal) (b2 : Fin d → EReal) (j : Fin d) : EReal :=
  dense (fun k => relu (dense x w1 b1 k)) w2 b2 j

/-- The normalisation of one entry: centred, scaled, shifted. -/
def norm (y mu sc be : EReal) : EReal := (y - mu) * sc + be

/-! ## The scale -/

/-- The offset both programs add to the variance denotes a positive real. -/
theorem eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- For a positive real z, a factor times the reciprocal square root of z is the factor divided by the square
    root of z: both are the factor times the real (√z)⁻¹. -/
theorem scale_eq (g : EReal) {z : ℝ} (hz : 0 < z) :
    g * Ideal.rsqrt (z : EReal) = Ideal.div g (Ideal.sqrt (z : EReal)) := by
  have hs : Real.sqrt z ≠ 0 := (Real.sqrt_pos.mpr hz).ne'
  rw [Ideal.rsqrt_coe, if_neg (not_lt.mpr hz.le), if_neg hz.ne', Ideal.sqrt_coe, if_neg (not_lt.mpr hz.le),
    Ideal.div_coe hs, one_div]

/-- The same at a variance v ≥ 0 plus the programs' offset. -/
theorem scale_var (g : EReal) {v : ℝ} (hv : 0 ≤ v) :
    g * Ideal.rsqrt ((v : EReal) + Ideal.ofBits .f32 0x3727C5AC#32)
      = Ideal.div g (Ideal.sqrt ((v : EReal) + Ideal.ofBits .f32 0x3727C5AC#32)) := by
  obtain ⟨e, he, hE⟩ := eps_pos
  rw [hE, ← EReal.coe_add]
  exact scale_eq g (by linarith)

/-! ## The vector unit's dense map, at an entry -/

/-- A rows-by-rows product into the zero accumulator plus a bias row broadcast down the rows, at entry (r, j), is
    the dense map of row r. -/
theorem vec_dense {n K d : ℕ} {φ₁ φ₂ : FTy} (D : DotDims ⟨2, ![n, K]⟩ ⟨2, ![d, K]⟩ ⟨2, ![n, d]⟩)
    (hD : D = DotDims.transposedRhs n K d) (x : FVec Ideal ⟨2, ![n, K]⟩ φ₁) (w : FVec Ideal ⟨2, ![d, K]⟩ φ₂)
    (b : FVec Ideal ⟨2, ![1, d]⟩ .f32) (hb : (⟨2, ![1, d]⟩ : Shape).Broadcasts ⟨2, ![n, d]⟩) (r : Fin n) (j : Fin d) :
    addf (matmul D none x w (constant ⟨2, ![n, d]⟩ .f32 0x00000000#32)) (broadcastTo ⟨2, ![n, d]⟩ b hb) (ix2 r j)
      = dense (fun k => x (ix2 r k)) w (fun j => b (ix2 ⟨0, Nat.one_pos⟩ j)) j := by
  subst hD
  show FloatOps.matmul (DotDims.transposedRhs n K d) none x w (constant ⟨2, ![n, d]⟩ .f32 0x00000000#32) (ix2 r j)
      + broadcastTo ⟨2, ![n, d]⟩ b hb (ix2 r j) = _
  rw [LibMatmulTransposedRhs.matmul_zero_apply, LibBiasRows.row_broadcast]
  rfl

/-! ## The host's dense map, at an entry -/

/-- A vector [d] laid out as a row [1, d] and broadcast down n rows, at entry (r, j), is the vector at j. -/
theorem host_bias {n d : ℕ} (b : (⟨1, ![d]⟩ : Shape).Idx → EReal)
    (h1 : (⟨1, ![d]⟩ : Shape).BroadcastsInDim ⟨2, ![1, d]⟩ ![1])
    (h2 : (⟨2, ![1, d]⟩ : Shape).BroadcastsInDim ⟨2, ![n, d]⟩ ![0, 1]) (r : Fin n) (j : Fin d) :
    broadcastInDim ⟨2, ![n, d]⟩ ![0, 1] h2 (broadcastInDim ⟨2, ![1, d]⟩ ![1] h1 b) (ix2 r j) = b (ix1 j) := by
  have hj : j.val < d := j.isLt
  refine (broadcastInDim_apply _ h2 _ (ix2 r j) (ix2 ⟨0, Nat.one_pos⟩ j) (fun a => ?_)).trans ?_
  · match a with
    | ⟨0, _⟩ => exact (if_pos rfl).symm
    | ⟨1, _⟩ =>
      show j.val = if d = 1 then 0 else j.val
      split
      · omega
      · rfl
  · refine broadcastInDim_apply _ h1 _ _ (ix1 j) (fun a => ?_)
    match a with
    | ⟨0, _⟩ =>
      show j.val = if d = 1 then 0 else j.val
      split
      · omega
      · rfl

/-- The host's product of [n, K] with the transpose of a [d, K] matrix plus a bias vector broadcast down the rows,
    at entry (r, j), is the dense map of row r. -/
theorem host_dense {n K d : ℕ} (D : DotDims ⟨2, ![n, K]⟩ ⟨2, ![K, d]⟩ ⟨2, ![n, d]⟩) (hD : D = DotDims.plain n K d)
    (sched : HostSchedule) (x : (⟨2, ![n, K]⟩ : Shape).Idx → EReal) (w : (⟨2, ![d, K]⟩ : Shape).Idx → EReal)
    (ht : (⟨2, ![d, K]⟩ : Shape).Transposes [1, 0] ⟨2, ![K, d]⟩) (b : (⟨1, ![d]⟩ : Shape).Idx → EReal)
    (h1 : (⟨1, ![d]⟩ : Shape).BroadcastsInDim ⟨2, ![1, d]⟩ ![1])
    (h2 : (⟨2, ![1, d]⟩ : Shape).BroadcastsInDim ⟨2, ![n, d]⟩ ![0, 1]) (r : Fin n) (j : Fin d) :
    addf (FloatOps.dotGeneral (F := Ideal) (φ₁ := .f32) (φ₂ := .f32) D none sched x (transpose ⟨2, ![K, d]⟩ [1, 0] w ht))
        (broadcastInDim ⟨2, ![n, d]⟩ ![0, 1] h2 (broadcastInDim ⟨2, ![1, d]⟩ ![1] h1 b)) (ix2 r j)
      = dense (fun k => x (ix2 r k)) w (fun j => b (ix1 j)) j := by
  subst hD
  show FloatOps.dotGeneral (F := Ideal) (φ₁ := .f32) (φ₂ := .f32) (DotDims.plain n K d) none sched x
        (transpose ⟨2, ![K, d]⟩ [1, 0] w ht) (ix2 r j)
      + broadcastInDim ⟨2, ![n, d]⟩ ![0, 1] h2 (broadcastInDim ⟨2, ![1, d]⟩ ![1] h1 b) (ix2 r j) = _
  rw [LibDense.dotGeneral_plain, host_bias]
  unfold LibDense.prod dense
  refine congrArg (· + b (ix1 j)) (Finset.sum_congr rfl fun k _ => ?_)
  show x (ix2 r k) * transpose ⟨2, ![K, d]⟩ [1, 0] w ht (ix2 k j) = x (ix2 r k) * w (ix2 j k)
  rw [transpose_ix2_apply]

end Cert.Gin

end
-- ==== Proof.Arrays.lean ====
/-
  The three kinds of layer as functions of whole arrays, row by row.

  An inner layer sends the array x of node rows to the array whose row i is the perceptron of row i of x, rectified
  and normalised column by column; the output layer stops after the rectifier; the head applies the perceptron to
  each pooled row. Each output row depends on the same row of x only, which is what lets a tiling of the rows into
  blocks compute the whole array block by block. The congruence lemmas record what an entry reads.
-/
import proofs.«135258_j66949950210693_1_alg».proof.Proof.Layers

noncomputable section

namespace Cert.Gin

open Idealize.ShloMosaic Idealize.ShloMosaic.ValueIdx

/-- An inner layer on an array of n rows: perceptron, rectifier, normalisation with per-column scale, shift, mean. -/
def innerArr {n K H d : ℕ} (x : (⟨2, ![n, K]⟩ : Shape).Idx → EReal) (w1 : (⟨2, ![H, K]⟩ : Shape).Idx → EReal)
    (w2 : (⟨2, ![d, H]⟩ : Shape).Idx → EReal) (b1 : Fin H → EReal) (b2 sc be mu : Fin d → EReal) :
    (⟨2, ![n, d]⟩ : Shape).Idx → EReal :=
  fun i => norm (relu (mlp (fun k => x (ix2 (i 0) k)) w1 b1 w2 b2 (i 1))) (mu (i 1)) (sc (i 1)) (be (i 1))

/-- The output layer on an array of n rows: perceptron, rectifier. -/
def outerArr {n K H d : ℕ} (x : (⟨2, ![n, K]⟩ : Shape).Idx → EReal) (w1 : (⟨2, ![H, K]⟩ : Shape).Idx → EReal)
    (w2 : (⟨2, ![d, H]⟩ : Shape).Idx → EReal) (b1 : Fin H → EReal) (b2 : Fin d → EReal) :
    (⟨2, ![n, d]⟩ : Shape).Idx → EReal :=
  fun i => relu (mlp (fun k => x (ix2 (i 0) k)) w1 b1 w2 b2 (i 1))

/-- The head on the pooled rows: the perceptron alone. -/
def headArr {n K H d : ℕ} (x : (⟨2, ![n, K]⟩ : Shape).Idx → EReal) (w1 : (⟨2, ![H, K]⟩ : Shape).Idx → EReal)
    (w2 : (⟨2, ![d, H]⟩ : Shape).Idx → EReal) (b1 : Fin H → EReal) (b2 : Fin d → EReal) :
    (⟨2, ![n, d]⟩ : Shape).Idx → EReal :=
  fun i => mlp (fun k => x (ix2 (i 0) k)) w1 b1 w2 b2 (i 1)

/-- An entry of a dense map reads the row, one row of the weights and one bias entry. -/
theorem dense_congr {K d : ℕ} {x x' : Fin K → EReal} {w w' : (⟨2, ![d, K]⟩ : Shape).Idx → EReal} {b b' : Fin d → EReal}
    (j : Fin d) (hx : ∀ k, x k = x' k) (hw : ∀ k, w (ix2 j k) = w' (ix2 j k)) (hb : b j = b' j) :
    dense x w b j = dense x' w' b' j := by
  unfold dense
  rw [hb, Finset.sum_congr rfl (fun k _ => congrArg₂ (· * ·) (hx k) (hw k))]

/-- An entry of the perceptron reads the row, all of the first weights and biases, one row of the second weights
    and one entry of the second bias. -/
theorem mlp_congr {K H d : ℕ} {x x' : Fin K → EReal} {w1 w1' : (⟨2, ![H, K]⟩ : Shape).Idx → EReal} {b1 b1' : Fin H → EReal}
    {w2 w2' : (⟨2, ![d, H]⟩ : Shape).Idx → EReal} {b2 b2' : Fin d → EReal} (j : Fin d)
    (hx : ∀ k, x k = x' k) (hw1 : ∀ a k, w1 (ix2 a k) = w1' (ix2 a k)) (hb1 : ∀ a, b1 a = b1' a)
    (hw2 : ∀ k, w2 (ix2 j k) = w2' (ix2 j k)) (hb2 : b2 j = b2' j) :
    mlp x w1 b1 w2 b2 j = mlp x' w1' b1' w2' b2' j := by
  unfold mlp
  exact dense_congr j (fun k => congrArg relu (dense_congr k hx (hw1 k) (hb1 k))) hw2 hb2

end Cert.Gin

end
-- ==== Proof.KBody.lean ====
/-
  What each of the kernel's three bodies leaves at one entry of its output block, at the exact values.

  The inner layers' body takes a block of rows x, two weight matrices, two bias rows and the four rows of the
  normalisation. Entry (r, j) of what it stores is the perceptron of row r, rectified, then centred by the mean,
  scaled by gamma times the reciprocal square root of the variance plus the offset, and shifted by beta. The output
  layer's body stops after the rectifier; the head's body is the perceptron alone. A change of float format is the
  identity at the exact values, and a cast of a block to its own shape is the block.
-/
import proofs.«135258_j66949950210693_1_alg».proof.Proof.Gen.KernelIdeal.Skeleton
import proofs.«135258_j66949950210693_1_alg».proof.Proof.Layers

noncomputable section

namespace Cert.KernelIdeal.Body

open Idealize.ShloMosaic Idealize.ShloMosaic.ValueIdx Cert.KernelIdeal Cert.KernelIdeal.Gen

/-- The one row of a [1, d] array. -/
abbrev o1 : Fin 1 := ⟨0, Nat.one_pos⟩

/-! ## The three dense maps the bodies contain -/

/-- A block of 5000 rows through a 128-by-128 dense map. -/
theorem dense_rows (x : FVec Ideal S5000x128 .bf16) (w : FVec Ideal S128x128 .bf16) (b : FVec Ideal S1x128 .f32)
    (r : Fin 5000) (j : Fin 128) :
    addf (matmul dot_S5000x128_S128x128_S5000x128_1_1_0_0_n_n none x w (constant (F := Ideal) S5000x128 .f32 0x00000000#32))
        (broadcastTo S5000x128 b broadcasts_S1x128_S5000x128) (ix2 r j)
      = Gin.dense (fun k => x (ix2 r k)) w (fun j => b (ix2 o1 j)) j :=
  Gin.vec_dense _ rfl x w b _ r j

/-- The 128 pooled rows through the head's first dense map. -/
theorem dense_pool (x : FVec Ideal S128x128 .bf16) (w : FVec Ideal S128x128 .bf16) (b : FVec Ideal S1x128 .f32)
    (r : Fin 128) (j : Fin 128) :
    addf (matmul dot_S128x128_S128x128_S128x128_1_1_0_0_n_n none x w (constant (F := Ideal) S128x128 .f32 0x00000000#32))
        (broadcastTo S128x128 b broadcasts_S1x128_S128x128) (ix2 r j)
      = Gin.dense (fun k => x (ix2 r k)) w (fun j => b (ix2 o1 j)) j :=
  Gin.vec_dense _ rfl x w b _ r j

/-- The 128 hidden rows through the head's second dense map, onto 41 classes. -/
theorem dense_cls (x : FVec Ideal S128x128 .bf16) (w : FVec Ideal S41x128 .bf16) (b : FVec Ideal S1x41 .f32)
    (r : Fin 128) (j : Fin 41) :
    addf (matmul dot_S128x128_S41x128_S128x41_1_1_0_0_n_n none x w (constant (F := Ideal) S128x41 .f32 0x00000000#32))
        (broadcastTo S128x41 b broadcasts_S1x41_S128x41) (ix2 r j)
      = Gin.dense (fun k => x (ix2 r k)) w (fun j => b (ix2 o1 j)) j :=
  Gin.vec_dense _ rfl x w b _ r j

/-! ## The bodies -/

/-- The first inner layer's body at entry (r, j): perceptron of row r, rectified, normalised with the scale
    gamma · rsqrt (var + offset). -/
theorem pay_inner0 (x0 : Vec Ideal S5000x128 .f32) (x1 : Vec Ideal S128x128 .bf16) (x2 : Vec Ideal S1x128 .f32)
    (x3 : Vec Ideal S128x128 .bf16) (x4 x5 x6 x7 x8 : Vec Ideal S1x128 .f32) (r : Fin 5000) (j : Fin 128) :
    k0_pay1 (F := Ideal) (k0_pay2 x6) (k0_pay3 x0 x1 x2 x3 x4 x7) (k0_pay4 x5 x8) (ix2 r j)
      = Gin.norm (Gin.relu (Gin.mlp (fun k => x0 (ix2 r k)) x1 (fun k => x2 (ix2 o1 k)) x3 (fun k => x4 (ix2 o1 k)) j))
          (x7 (ix2 o1 j)) (x5 (ix2 o1 j) * Ideal.rsqrt (x8 (ix2 o1 j) + Ideal.ofBits .f32 0x3727C5AC#32))
          (x6 (ix2 o1 j)) := by
  unfold k0_pay1 k0_pay2 k0_pay3 k0_pay4
  rw [addf_apply]
  simp only [shapeCast_self, mulf_apply, subf_apply, maximumf_apply, broadcast_apply, truncf_apply,
    LibBiasRows.row_broadcast, dense_rows]
  rfl

/-- The second inner layer's body at entry (r, j): perceptron of row r, rectified, normalised with the scale
    gamma · rsqrt (var + offset). -/
theorem pay_inner1 (x0 : Vec Ideal S5000x128 .f32) (x1 : Vec Ideal S128x128 .bf16) (x2 : Vec Ideal S1x128 .f32)
    (x3 : Vec Ideal S128x128 .bf16) (x4 x5 x6 x7 x8 : Vec Ideal S1x128 .f32) (r : Fin 5000) (j : Fin 128) :
    k1_pay1 (F := Ideal) (k1_pay2 x6) (k1_pay3 x0 x1 x2 x3 x4 x7) (k1_pay4 x5 x8) (ix2 r j)
      = Gin.norm (Gin.relu (Gin.mlp (fun k => x0 (ix2 r k)) x1 (fun k => x2 (ix2 o1 k)) x3 (fun k => x4 (ix2 o1 k)) j))
          (x7 (ix2 o1 j)) (x5 (ix2 o1 j) * Ideal.rsqrt (x8 (ix2 o1 j) + Ideal.ofBits .f32 0x3727C5AC#32))
          (x6 (ix2 o1 j)) := by
  unfold k1_pay1 k1_pay2 k1_pay3 k1_pay4
  rw [addf_apply]
  simp only [shapeCast_self, mulf_apply, subf_apply, maximumf_apply, broadcast_apply, truncf_apply,
    LibBiasRows.row_broadcast, dense_rows]
  rfl

/-- The third inner layer's body at entry (r, j): perceptron of row r, rectified, normalised with the scale
    gamma · rsqrt (var + offset). -/
theorem pay_inner2 (x0 : Vec Ideal S5000x128 .f32) (x1 : Vec Ideal S128x128 .bf16) (x2 : Vec Ideal S1x128 .f32)
    (x3 : Vec Ideal S128x128 .bf16) (x4 x5 x6 x7 x8 : Vec Ideal S1x128 .f32) (r : Fin 5000) (j : Fin 128) :
    k2_pay1 (F := Ideal) (k2_pay2 x6) (k2_pay3 x0 x1 x2 x3 x4 x7) (k2_pay4 x5 x8) (ix2 r j)
      = Gin.norm (Gin.relu (Gin.mlp (fun k => x0 (ix2 r k)) x1 (fun k => x2 (ix2 o1 k)) x3 (fun k => x4 (ix2 o1 k)) j))
          (x7 (ix2 o1 j)) (x5 (ix2 o1 j) * Ideal.rsqrt (x8 (ix2 o1 j) + Ideal.ofBits .f32 0x3727C5AC#32))
          (x6 (ix2 o1 j)) := by
  unfold k2_pay1 k2_pay2 k2_pay3 k2_pay4
  rw [addf_apply]
  simp only [shapeCast_self, mulf_apply, subf_apply, maximumf_apply, broadcast_apply, truncf_apply,
    LibBiasRows.row_broadcast, dense_rows]
  rfl

/-- The fourth inner layer's body at entry (r, j): perceptron of row r, rectified, normalised with the scale
    gamma · rsqrt (var + offset). -/
theorem pay_inner3 (x0 : Vec Ideal S5000x128 .f32) (x1 : Vec Ideal S128x128 .bf16) (x2 : Vec Ideal S1x128 .f32)
    (x3 : Vec Ideal S128x128 .bf16) (x4 x5 x6 x7 x8 : Vec Ideal S1x128 .f32) (r : Fin 5000) (j : Fin 128) :
    k3_pay1 (F := Ideal) (k3_pay2 x6) (k3_pay3 x0 x1 x2 x3 x4 x7) (k3_pay4 x5 x8) (ix2 r j)
      = Gin.norm (Gin.relu (Gin.mlp (fun k => x0 (ix2 r k)) x1 (fun k => x2 (ix2 o1 k)) x3 (fun k => x4 (ix2 o1 k)) j))
          (x7 (ix2 o1 j)) (x5 (ix2 o1 j) * Ideal.rsqrt (x8 (ix2 o1 j) + Ideal.ofBits .f32 0x3727C5AC#32))
          (x6 (ix2 o1 j)) := by
  unfold k3_pay1 k3_pay2 k3_pay3 k3_pay4
  rw [addf_apply]
  simp only [shapeCast_self, mulf_apply, subf_apply, maximumf_apply, broadcast_apply, truncf_apply,
    LibBiasRows.row_broadcast, dense_rows]
  rfl

/-- The fifth inner layer's body at entry (r, j): perceptron of row r, rectified, normalised with the scale
    gamma · rsqrt (var + offset). -/
theorem pay_inner4 (x0 : Vec Ideal S5000x128 .f32) (x1 : Vec Ideal S128x128 .bf16) (x2 : Vec Ideal S1x128 .f32)
    (x3 : Vec Ideal S128x128 .bf16) (x4 x5 x6 x7 x8 : Vec Ideal S1x128 .f32) (r : Fin 5000) (j : Fin 128) :
    k4_pay1 (F := Ideal) (k4_pay2 x6) (k4_pay3 x0 x1 x2 x3 x4 x7) (k4_pay4 x5 x8) (ix2 r j)
      = Gin.norm (Gin.relu (Gin.mlp (fun k => x0 (ix2 r k)) x1 (fun k => x2 (ix2 o1 k)) x3 (fun k => x4 (ix2 o1 k)) j))
          (x7 (ix2 o1 j)) (x5 (ix2 o1 j) * Ideal.rsqrt (x8 (ix2 o1 j) + Ideal.ofBits .f32 0x3727C5AC#32))
          (x6 (ix2 o1 j)) := by
  unfold k4_pay1 k4_pay2 k4_pay3 k4_pay4
  rw [addf_apply]
  simp only [shapeCast_self, mulf_apply, subf_apply, maximumf_apply, broadcast_apply, truncf_apply,
    LibBiasRows.row_broadcast, dense_rows]
  rfl

/-- The output layer's body at entry (r, j): perceptron of row r, rectified. -/
theorem pay_outer (x0 : Vec Ideal S5000x128 .f32) (x1 : Vec Ideal S128x128 .bf16) (x2 : Vec Ideal S1x128 .f32)
    (x3 : Vec Ideal S128x128 .bf16) (x4 : Vec Ideal S1x128 .f32) (r : Fin 5000) (j : Fin 128) :
    k5_pay1 (F := Ideal) x0 x1 x2 x3 x4 (ix2 r j)
      = Gin.relu (Gin.mlp (fun k => x0 (ix2 r k)) x1 (fun k => x2 (ix2 o1 k)) x3 (fun k => x4 (ix2 o1 k)) j) := by
  unfold k5_pay1
  rw [maximumf_apply]
  simp only [shapeCast_self, maximumf_apply, broadcast_apply, truncf_apply, dense_rows]
  rfl

/-- The head's body at entry (g, j): perceptron of pooled row g. -/
theorem pay_head (x0 : Vec Ideal S128x128 .f32) (x1 : Vec Ideal S128x128 .bf16) (x2 : Vec Ideal S1x128 .f32)
    (x3 : Vec Ideal S41x128 .bf16) (x4 : Vec Ideal S1x41 .f32) (g : Fin 128) (j : Fin 41) :
    k6_pay1 (F := Ideal) x0 x1 x2 x3 x4 (ix2 g j)
      = Gin.mlp (fun k => x0 (ix2 g k)) x1 (fun k => x2 (ix2 o1 k)) x3 (fun k => x4 (ix2 o1 k)) j := by
  unfold k6_pay1
  simp only [shapeCast_self, maximumf_apply, broadcast_apply, truncf_apply, dense_cls, dense_pool]
  rfl

end Cert.KernelIdeal.Body

end
-- ==== Proof.KC0.lean ====
/-
  The kernel's host stretches, named: the edge list's sources and destinations, the embedded features, the
  neighbourhood sum, the three kinds of layer on whole arrays, the pooling and the whole network; and, per stretch,
  that a buffer none of its operations writes keeps its contents across it.
-/
import proofs.«135258_j66949950210693_1_alg».proof.Proof.Gen.KernelIdeal.Frame
import proofs.«135258_j66949950210693_1_alg».proof.Proof.Arrays
import proofs.«135258_j66949950210693_1_alg».proof.Proof.KBody

set_option maxRecDepth 16384
set_option maxHeartbeats 2000000

noncomputable section

namespace Cert.KernelIdeal.Chain

open Idealize.ShloMosaic Idealize.ShloMosaic.ValueIdx Idealize.ShloMosaic.TcCoe Idealize.SL.Sem Idealize.ShloMosaic.StableHlo
open Cert.KernelIdeal Cert.KernelIdeal.Gen Cert.KernelIdeal.Body

variable (m : (ℓ : Loc nD τ sig) → Buf (Elt Ideal) ℓ) (ρ : Dev nD → PrngReg) (c : Dev nD)

/-! ## What the stretches compute, named -/

/-- The edges' sources. -/
def src : (⟨S800000, .i32⟩ : BufTy).Contents (Elt Ideal) :=
  shapeCast _ (extractStridedSlice S1x800000 ![0, 0] (m ((c : Thread nD τ).loc main_arg1)) slices_S2x800000_S1x800000_0_0) shapeCasts_S1x800000_S800000

/-- The edges' destinations. -/
def dst : (⟨S800000, .i32⟩ : BufTy).Contents (Elt Ideal) :=
  shapeCast _ (extractStridedSlice S1x800000 ![1, 0] (m ((c : Thread nD τ).loc main_arg1)) slices_S2x800000_S1x800000_1_0) shapeCasts_S1x800000_S800000

/-- The embedded node features. -/
def x0 : FVec Ideal S50000x128 .f32 :=
  Host.gather gather_S1340x128_S50000x1_S50000x128_1_0_n_n_0_1_1128 (m ((c : Thread nD τ).loc main_arg3)) (broadcastInDim S50000x1 ![0] bcast_S50000_S50000x1_0 (select (cmpi .slt (m ((c : Thread nD τ).loc main_arg0)) (broadcastInDim S50000 ![] bcast_S_S50000 (constantI S_ 32 0#32))) (addi (m ((c : Thread nD τ).loc main_arg0)) (broadcastInDim S50000 ![] bcast_S_S50000 (constantI S_ 32 1340#32))) (m ((c : Thread nD τ).loc main_arg0))))

/-- The features plus their neighbourhood sum. -/
def agg (X : FVec Ideal S50000x128 .f32) : FVec Ideal S50000x128 .f32 :=
  addf X (Host.scatterAdd scatter_S50000x128_S800000x1_S800000x128_1_0_0_1 (broadcastInDim S50000x128 ![] bcast_S_S50000x128 (constant S_ .f32 0x00000000#32)) (broadcastInDim S800000x1 ![0] bcast_S800000_S800000x1_0 (dst m c)) (Host.gather gather_S50000x128_S800000x1_S800000x128_1_0_n_n_0_1_1128 X (broadcastInDim S800000x1 ![0] bcast_S800000_S800000x1_0 (select (cmpi .slt (src m c) (broadcastInDim S800000 ![] bcast_S_S800000 (constantI S_ 32 0#32))) (addi (src m c) (broadcastInDim S800000 ![] bcast_S_S800000 (constantI S_ 32 50000#32))) (src m c)))))

/-- An inner layer on the features: neighbourhood sum, perceptron, rectifier, normalisation. -/
def layer (X : FVec Ideal S50000x128 .f32) : FVec Ideal S50000x128 .f32 :=
  Gin.innerArr (n := 50000) (K := 128) (H := 128) (d := 128) (agg m c X)
    (truncf (F := Ideal) .bf16 (m ((c : Thread nD τ).loc main_arg4)) bitsLt_bf16_f32) (truncf (F := Ideal) .bf16 (m ((c : Thread nD τ).loc main_arg6)) bitsLt_bf16_f32)
    (fun j => (shapeCast S1x128 (m ((c : Thread nD τ).loc main_arg5)) shapeCasts_S128_S1x128 : FVec Ideal S1x128 .f32) (ix2 o1 j))
    (fun j => (shapeCast S1x128 (m ((c : Thread nD τ).loc main_arg7)) shapeCasts_S128_S1x128 : FVec Ideal S1x128 .f32) (ix2 o1 j))
    (fun j => (shapeCast S1x128 (m ((c : Thread nD τ).loc main_arg8)) shapeCasts_S128_S1x128 : FVec Ideal S1x128 .f32) (ix2 o1 j)
      * Ideal.rsqrt ((shapeCast S1x128 (m ((c : Thread nD τ).loc main_arg11)) shapeCasts_S128_S1x128 : FVec Ideal S1x128 .f32) (ix2 o1 j) + Ideal.ofBits .f32 0x3727C5AC#32))
    (fun j => (shapeCast S1x128 (m ((c : Thread nD τ).loc main_arg9)) shapeCasts_S128_S1x128 : FVec Ideal S1x128 .f32) (ix2 o1 j))
    (fun j => (shapeCast S1x128 (m ((c : Thread nD τ).loc main_arg10)) shapeCasts_S128_S1x128 : FVec Ideal S1x128 .f32) (ix2 o1 j))

/-- The output layer on the features. -/
def outLayer (X : FVec Ideal S50000x128 .f32) : FVec Ideal S50000x128 .f32 :=
  Gin.outerArr (n := 50000) (K := 128) (H := 128) (d := 128) (agg m c X)
    (truncf (F := Ideal) .bf16 (m ((c : Thread nD τ).loc main_arg12)) bitsLt_bf16_f32) (truncf (F := Ideal) .bf16 (m ((c : Thread nD τ).loc main_arg14)) bitsLt_bf16_f32)
    (fun j => (shapeCast S1x128 (m ((c : Thread nD τ).loc main_arg13)) shapeCasts_S128_S1x128 : FVec Ideal S1x128 .f32) (ix2 o1 j))
    (fun j => (shapeCast S1x128 (m ((c : Thread nD τ).loc main_arg15)) shapeCasts_S128_S1x128 : FVec Ideal S1x128 .f32) (ix2 o1 j))

/-- The per-graph sum of the node rows. -/
def pool (Y : FVec Ideal S50000x128 .f32) : FVec Ideal S128x128 .f32 :=
  Host.scatterAdd scatter_S128x128_S50000x1_S50000x128_1_0_0_1 (broadcastInDim S128x128 ![] bcast_S_S128x128 (constant S_ .f32 0x00000000#32)) (broadcastInDim S50000x1 ![0] bcast_S50000_S50000x1_0 (m ((c : Thread nD τ).loc main_arg2))) Y

/-- The head on the pooled rows. -/
def headOf (Pl : FVec Ideal S128x128 .f32) : FVec Ideal S128x41 .f32 :=
  Gin.headArr (n := 128) (K := 128) (H := 128) (d := 41) Pl
    (truncf (F := Ideal) .bf16 (m ((c : Thread nD τ).loc main_arg16)) bitsLt_bf16_f32) (truncf (F := Ideal) .bf16 (m ((c : Thread nD τ).loc main_arg18)) bitsLt_bf16_f32)
    (fun j => (shapeCast S1x128 (m ((c : Thread nD τ).loc main_arg17)) shapeCasts_S128_S1x128 : FVec Ideal S1x128 .f32) (ix2 o1 j))
    (fun j => (shapeCast S1x41 (m ((c : Thread nD τ).loc main_arg19)) shapeCasts_S41_S1x41 : FVec Ideal S1x41 .f32) (ix2 o1 j))

/-- The whole network: five inner layers, the output layer, the pooling, the head. -/
def net : FVec Ideal S128x41 .f32 :=
  headOf m c (pool m c (outLayer m c (layer m c (layer m c (layer m c (layer m c (layer m c (x0 m c))))))))

/-! ## A stretch keeps what it does not write -/

abbrev written0 : List (Ref sig .tc) := [main_v0, main_v1, main_v2, main_v3, main_v4, main_v5, main_v6, main_v7, main_v8, main_v9, main_c, main_v10, main_v11, main_c_0, main_v12, main_v13, main_v14, main_v15, main_v16, main_c_1, main_v17, main_v18, main_c_2, main_v19, main_v20, main_v21, main_v22, main_v23, main_cst, main_v24, main_v25, main_v26, main_v27, main_v28, main_v29, main_v30, main_v31, main_v32, main_v33]

theorem writes0 : (hostOps0 : List (HloOp τ sig (Elt Ideal))).Forall fun op => op.writes ⊆ (written0.map (Proc.devRef (τ := τ) .tc)).toFinset := by
  simp only [hostOps0, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keepH0 (Wv : Valuation τ sig (Elt Ideal)) (b : Ref sig .tc) (h : b ∉ written0) :
    StableHlo.after hostOps0 Wv (Proc.devRef .tc b) = Wv (Proc.devRef .tc b) :=
  after_of_writes_sub hostOps0 Wv writes0 h

abbrev written1 : List (Ref sig .tc) := [main_c_3, main_v35, main_v36, main_c_4, main_v37, main_v38, main_v39, main_v40, main_v41, main_cst_5, main_v42, main_v43, main_v44, main_v45, main_v46, main_v47, main_v48, main_v49, main_v50, main_v51]

theorem writes1 : (hostOps1 : List (HloOp τ sig (Elt Ideal))).Forall fun op => op.writes ⊆ (written1.map (Proc.devRef (τ := τ) .tc)).toFinset := by
  simp only [hostOps1, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keepH1 (Wv : Valuation τ sig (Elt Ideal)) (b : Ref sig .tc) (h : b ∉ written1) :
    StableHlo.after hostOps1 Wv (Proc.devRef .tc b) = Wv (Proc.devRef .tc b) :=
  after_of_writes_sub hostOps1 Wv writes1 h

abbrev written2 : List (Ref sig .tc) := [main_c_6, main_v53, main_v54, main_c_7, main_v55, main_v56, main_v57, main_v58, main_v59, main_cst_8, main_v60, main_v61, main_v62, main_v63, main_v64, main_v65, main_v66, main_v67, main_v68, main_v69]

theorem writes2 : (hostOps2 : List (HloOp τ sig (Elt Ideal))).Forall fun op => op.writes ⊆ (written2.map (Proc.devRef (τ := τ) .tc)).toFinset := by
  simp only [hostOps2, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keepH2 (Wv : Valuation τ sig (Elt Ideal)) (b : Ref sig .tc) (h : b ∉ written2) :
    StableHlo.after hostOps2 Wv (Proc.devRef .tc b) = Wv (Proc.devRef .tc b) :=
  after_of_writes_sub hostOps2 Wv writes2 h

abbrev written3 : List (Ref sig .tc) := [main_c_9, main_v71, main_v72, main_c_10, main_v73, main_v74, main_v75, main_v76, main_v77, main_cst_11, main_v78, main_v79, main_v80, main_v81, main_v82, main_v83, main_v84, main_v85, main_v86, main_v87]

theorem writes3 : (hostOps3 : List (HloOp τ sig (Elt Ideal))).Forall fun op => op.writes ⊆ (written3.map (Proc.devRef (τ := τ) .tc)).toFinset := by
  simp only [hostOps3, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keepH3 (Wv : Valuation τ sig (Elt Ideal)) (b : Ref sig .tc) (h : b ∉ written3) :
    StableHlo.after hostOps3 Wv (Proc.devRef .tc b) = Wv (Proc.devRef .tc b) :=
  after_of_writes_sub hostOps3 Wv writes3 h

abbrev written4 : List (Ref sig .tc) := [main_c_12, main_v89, main_v90, main_c_13, main_v91, main_v92, main_v93, main_v94, main_v95, main_cst_14, main_v96, main_v97, main_v98, main_v99, main_v100, main_v101, main_v102, main_v103, main_v104, main_v105]

theorem writes4 : (hostOps4 : List (HloOp τ sig (Elt Ideal))).Forall fun op => op.writes ⊆ (written4.map (Proc.devRef (τ := τ) .tc)).toFinset := by
  simp only [hostOps4, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keepH4 (Wv : Valuation τ sig (Elt Ideal)) (b : Ref sig .tc) (h : b ∉ written4) :
    StableHlo.after hostOps4 Wv (Proc.devRef .tc b) = Wv (Proc.devRef .tc b) :=
  after_of_writes_sub hostOps4 Wv writes4 h

abbrev written5 : List (Ref sig .tc) := [main_c_15, main_v107, main_v108, main_c_16, main_v109, main_v110, main_v111, main_v112, main_v113, main_cst_17, main_v114, main_v115, main_v116, main_v117, main_v118, main_v119]

theorem writes5 : (hostOps5 : List (HloOp τ sig (Elt Ideal))).Forall fun op => op.writes ⊆ (written5.map (Proc.devRef (τ := τ) .tc)).toFinset := by
  simp only [hostOps5, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keepH5 (Wv : Valuation τ sig (Elt Ideal)) (b : Ref sig .tc) (h : b ∉ written5) :
    StableHlo.after hostOps5 Wv (Proc.devRef .tc b) = Wv (Proc.devRef .tc b) :=
  after_of_writes_sub hostOps5 Wv writes5 h

abbrev written6 : List (Ref sig .tc) := [main_cst_18, main_v121, main_v122, main_v123, main_v124, main_v125]

theorem writes6 : (hostOps6 : List (HloOp τ sig (Elt Ideal))).Forall fun op => op.writes ⊆ (written6.map (Proc.devRef (τ := τ) .tc)).toFinset := by
  simp only [hostOps6, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keepH6 (Wv : Valuation τ sig (Elt Ideal)) (b : Ref sig .tc) (h : b ∉ written6) :
    StableHlo.after hostOps6 Wv (Proc.devRef .tc b) = Wv (Proc.devRef .tc b) :=
  after_of_writes_sub hostOps6 Wv writes6 h

end Cert.KernelIdeal.Chain

end
-- ==== Proof.KC1.lean ====
/-
  The first boundary: what the first stretch of host operations leaves in the buffers later segments read: the
  sources and destinations, the six cast weight matrices.
-/
import proofs.«135258_j66949950210693_1_alg».proof.Proof.KC0

set_option maxRecDepth 16384
set_option maxHeartbeats 2000000

noncomputable section

namespace Cert.KernelIdeal.Chain

open Idealize.ShloMosaic Idealize.ShloMosaic.ValueIdx Idealize.ShloMosaic.TcCoe Idealize.SL.Sem Idealize.ShloMosaic.StableHlo
open Cert.KernelIdeal Cert.KernelIdeal.Gen Cert.KernelIdeal.Body

variable (m : (ℓ : Loc nD τ sig) → Buf (Elt Ideal) ℓ) (ρ : Dev nD → PrngReg) (c : Dev nD)

/-! ## The first boundary: what the first stretch leaves -/

theorem b1_src : W1 m ρ c (Proc.devRef .tc main_v1) = src m c := by
  show StableHlo.after hostOps0 (W0 m ρ c) (Proc.devRef .tc main_v1) = _
  simp only [hostOps0]
  after_results_simp
  all_goals rfl

theorem b1_dst : W1 m ρ c (Proc.devRef .tc main_v3) = dst m c := by
  show StableHlo.after hostOps0 (W0 m ρ c) (Proc.devRef .tc main_v3) = _
  simp only [hostOps0]
  after_results_simp
  all_goals rfl

theorem b1_main_v4 : W1 m ρ c (Proc.devRef .tc main_v4) = truncf (F := Ideal) .bf16 (m ((c : Thread nD τ).loc main_arg4)) bitsLt_bf16_f32 := by
  show StableHlo.after hostOps0 (W0 m ρ c) (Proc.devRef .tc main_v4) = _
  simp only [hostOps0]
  after_results_simp
  all_goals rfl

theorem b1_main_v5 : W1 m ρ c (Proc.devRef .tc main_v5) = truncf (F := Ideal) .bf16 (m ((c : Thread nD τ).loc main_arg6)) bitsLt_bf16_f32 := by
  show StableHlo.after hostOps0 (W0 m ρ c) (Proc.devRef .tc main_v5) = _
  simp only [hostOps0]
  after_results_simp
  all_goals rfl

theorem b1_main_v6 : W1 m ρ c (Proc.devRef .tc main_v6) = truncf (F := Ideal) .bf16 (m ((c : Thread nD τ).loc main_arg12)) bitsLt_bf16_f32 := by
  show StableHlo.after hostOps0 (W0 m ρ c) (Proc.devRef .tc main_v6) = _
  simp only [hostOps0]
  after_results_simp
  all_goals rfl

theorem b1_main_v7 : W1 m ρ c (Proc.devRef .tc main_v7) = truncf (F := Ideal) .bf16 (m ((c : Thread nD τ).loc main_arg14)) bitsLt_bf16_f32 := by
  show StableHlo.after hostOps0 (W0 m ρ c) (Proc.devRef .tc main_v7) = _
  simp only [hostOps0]
  after_results_simp
  all_goals rfl

theorem b1_main_v8 : W1 m ρ c (Proc.devRef .tc main_v8) = truncf (F := Ideal) .bf16 (m ((c : Thread nD τ).loc main_arg16)) bitsLt_bf16_f32 := by
  show StableHlo.after hostOps0 (W0 m ρ c) (Proc.devRef .tc main_v8) = _
  simp only [hostOps0]
  after_results_simp
  all_goals rfl

theorem b1_main_v9 : W1 m ρ c (Proc.devRef .tc main_v9) = truncf (F := Ideal) .bf16 (m ((c : Thread nD τ).loc main_arg18)) bitsLt_bf16_f32 := by
  show StableHlo.after hostOps0 (W0 m ρ c) (Proc.devRef .tc main_v9) = _
  simp only [hostOps0]
  after_results_simp
  all_goals rfl

end Cert.KernelIdeal.Chain

end
-- ==== Proof.KReg0.lean ====
/-
  Inner layer 1 of 5: from the blocks its grid points write back to the whole output array.

  The grid has ten points; point t takes rows 5000·t … 5000·t + 4999 of the node array through its first window and
  writes the same rows of the output through its last; every other window is a whole small array, the same at every
  point. What point t writes back is therefore the layer's row function on its 5000 rows, and since the ten row
  blocks tile the 50000 rows the output array ends as the layer's function of the arrays the region finds.
-/
import proofs.«135258_j66949950210693_1_alg».proof.Proof.Gen.KernelIdeal.Frame
import proofs.«135258_j66949950210693_1_alg».proof.Proof.KBody
import proofs.«135258_j66949950210693_1_alg».proof.Proof.Arrays

set_option maxRecDepth 16384

noncomputable section

namespace Cert.KernelIdeal.Reg0

open Idealize.ShloMosaic Idealize.ShloMosaic.ValueIdx Idealize.ShloMosaic.TcCoe Idealize.SL.Sem
open Cert.KernelIdeal Cert.KernelIdeal.Gen Cert.KernelIdeal.Body
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the ten points -/

theorem t_lt : ∀ t : Fin cfg0.N, t.val < 10 := (by decide +kernel : ∀ t : Fin grid0.N, _)

theorem idx_in : ∀ t : Fin cfg0.N, win0_0.index t (0 : Fin 2) = t.val ∧ win0_0.index t (1 : Fin 2) = 0 :=
  (by decide +kernel : ∀ t : Fin grid0.N, _)

theorem idx_out : ∀ t : Fin cfg0.N, win0_9.index t (0 : Fin 2) = t.val ∧ win0_9.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem row_lt (t : Fin cfg0.N) (p : Fin 5000) : t.val * 5000 + p.val < 50000 := by
  have := t_lt t
  have := p.isLt
  omega

/-! ## The arrays the region finds, at their literal types -/

abbrev a0 (c : Dev nD) : S50000x128.Idx → EReal := V c (Pipeline.arrRef spec0 0)
abbrev a1 (c : Dev nD) : S128x128.Idx → EReal := V c (Pipeline.arrRef spec0 1)
abbrev a2 (c : Dev nD) : S1x128.Idx → EReal := V c (Pipeline.arrRef spec0 2)
abbrev a3 (c : Dev nD) : S128x128.Idx → EReal := V c (Pipeline.arrRef spec0 3)
abbrev a4 (c : Dev nD) : S1x128.Idx → EReal := V c (Pipeline.arrRef spec0 4)
abbrev a5 (c : Dev nD) : S1x128.Idx → EReal := V c (Pipeline.arrRef spec0 5)
abbrev a6 (c : Dev nD) : S1x128.Idx → EReal := V c (Pipeline.arrRef spec0 6)
abbrev a7 (c : Dev nD) : S1x128.Idx → EReal := V c (Pipeline.arrRef spec0 7)
abbrev a8 (c : Dev nD) : S1x128.Idx → EReal := V c (Pipeline.arrRef spec0 8)

/-! ## Each window's block at a point, read off the array the region finds -/

/-- The row window: entry (p, k) of point t's block is entry (5000·t + p, k) of the node array. -/
theorem blk0 (c : Dev nD) (t : Fin cfg0.N) (p : Fin 5000) (k : Fin 128) :
    iblk0 V c 0 t (ix2 p k)
      = a0 V c (ix2 ⟨t.val * 5000 + p.val, row_lt t p⟩ k) := by
  show V c (Pipeline.arrRef spec0 0) (((cfg0.win 0).blk t).view.emb (ix2 p k)) = _
  obtain ⟨e0, e1⟩ := idx_in t
  refine congrArg (V c (Pipeline.arrRef spec0 0)) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Window 1 is a whole array at every point. -/
theorem blk1 (c : Dev nD) (t : Fin cfg0.N) (y : S128x128.Idx) :
    iblk0 V c 1 t y = a1 V c y := by
  show V c (Pipeline.arrRef spec0 1) (((cfg0.win 1).blk t).view.emb y) = _
  obtain ⟨e0, e1⟩ := idx1 t
  refine congrArg (V c (Pipeline.arrRef spec0 1)) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Window 2 is a whole array at every point. -/
theorem blk2 (c : Dev nD) (t : Fin cfg0.N) (y : S1x128.Idx) :
    iblk0 V c 2 t y = a2 V c y := by
  show V c (Pipeline.arrRef spec0 2) (((cfg0.win 2).blk t).view.emb y) = _
  obtain ⟨e0, e1⟩ := idx2 t
  refine congrArg (V c (Pipeline.arrRef spec0 2)) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 3 is a whole array at every point. -/
theorem blk3 (c : Dev nD) (t : Fin cfg0.N) (y : S128x128.Idx) :
    iblk0 V c 3 t y = a3 V c y := by
  show V c (Pipeline.arrRef spec0 3) (((cfg0.win 3).blk t).view.emb y) = _
  obtain ⟨e0, e1⟩ := idx3 t
  refine congrArg (V c (Pipeline.arrRef spec0 3)) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 is a whole array at every point. -/
theorem blk4 (c : Dev nD) (t : Fin cfg0.N) (y : S1x128.Idx) :
    iblk0 V c 4 t y = a4 V c y := by
  show V c (Pipeline.arrRef spec0 4) (((cfg0.win 4).blk t).view.emb y) = _
  obtain ⟨e0, e1⟩ := idx4 t
  refine congrArg (V c (Pipeline.arrRef spec0 4)) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5 is a whole array at every point. -/
theorem blk5 (c : Dev nD) (t : Fin cfg0.N) (y : S1x128.Idx) :
    iblk0 V c 5 t y = a5 V c y := by
  show V c (Pipeline.arrRef spec0 5) (((cfg0.win 5).blk t).view.emb y) = _
  obtain ⟨e0, e1⟩ := idx5 t
  refine congrArg (V c (Pipeline.arrRef spec0 5)) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6 is a whole array at every point. -/
theorem blk6 (c : Dev nD) (t : Fin cfg0.N) (y : S1x128.Idx) :
    iblk0 V c 6 t y = a6 V c y := by
  show V c (Pipeline.arrRef spec0 6) (((cfg0.win 6).blk t).view.emb y) = _
  obtain ⟨e0, e1⟩ := idx6 t
  refine congrArg (V c (Pipeline.arrRef spec0 6)) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7 is a whole array at every point. -/
theorem blk7 (c : Dev nD) (t : Fin cfg0.N) (y : S1x128.Idx) :
    iblk0 V c 7 t y = a7 V c y := by
  show V c (Pipeline.arrRef spec0 7) (((cfg0.win 7).blk t).view.emb y) = _
  obtain ⟨e0, e1⟩ := idx7 t
  refine congrArg (V c (Pipeline.arrRef spec0 7)) (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Window 8 is a whole array at every point. -/
theorem blk8 (c : Dev nD) (t : Fin cfg0.N) (y : S1x128.Idx) :
    iblk0 V c 8 t y = a8 V c y := by
  show V c (Pipeline.arrRef spec0 8) (((cfg0.win 8).blk t).view.emb y) = _
  obtain ⟨e0, e1⟩ := idx8 t
  refine congrArg (V c (Pipeline.arrRef spec0 8)) (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Entry (p, q) of point t's output block sits at (5000·t + p, q) of the output array. -/
theorem out_emb (t : Fin cfg0.N) (p : Fin 5000) (q : Fin 128) :
    ((cfg0.win 9).blk t).view.emb (ix2 p q) = (ix2 ⟨t.val * 5000 + p.val, row_lt t p⟩ q : S50000x128.Idx) := by
  obtain ⟨e0, e1⟩ := idx_out t
  funext a
  apply Fin.ext
  match a with
  | ⟨0, _⟩ => show win0_9.index t (0 : Fin 2) * 5000 + 1 * p.val = t.val * 5000 + p.val; omega
  | ⟨1, _⟩ => show win0_9.index t (1 : Fin 2) * 128 + 1 * q.val = q.val; omega

/-! ## The output array -/

/-- What the layer's output array holds, as a function of the arrays the region finds: the node rows through the
    perceptron, rectified, normalised with scale gamma · rsqrt (var + offset). -/
def arr (c : Dev nD) : S50000x128.Idx → EReal :=
  Gin.innerArr (n := 50000) (K := 128) (H := 128) (d := 128)
    (a0 V c) (a1 V c) (a3 V c) (fun j => a2 V c (ix2 o1 j)) (fun j => a4 V c (ix2 o1 j))
    (fun j => a5 V c (ix2 o1 j) * Ideal.rsqrt (a8 V c (ix2 o1 j) + Ideal.ofBits .f32 0x3727C5AC#32))
    (fun j => a6 V c (ix2 o1 j)) (fun j => a7 V c (ix2 o1 j))

/-- What point t writes back is block t of that array. -/
theorem flushed_eq (c : Dev nD) (t : Fin cfg0.N) :
    (dat0 V c).flushed 9 t = ((cfg0.win 9).blk t).view.read (Elt Ideal) (arr V c) := by
  show (cfg0.win 9).cut (grid0.coords t) ((dat0 V c).after 9 t) = _
  rw [after0_9]
  unfold out0_9
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k0_pay1 (k0_pay2 (iblk0 V c 6 t)) (k0_pay3 (iblk0 V c 0 t) (iblk0 V c 1 t) (iblk0 V c 2 t) (iblk0 V c 3 t) (iblk0 V c 4 t) (iblk0 V c 7 t)) (k0_pay4 (iblk0 V c 5 t) (iblk0 V c 8 t)) (ix2 p q)
      = arr V c (((cfg0.win 9).blk t).view.emb (ix2 p q))
  rw [out_emb t p q]
  refine (pay_inner0 (iblk0 V c 0 t) (iblk0 V c 1 t) (iblk0 V c 2 t) (iblk0 V c 3 t) (iblk0 V c 4 t) (iblk0 V c 5 t) (iblk0 V c 6 t) (iblk0 V c 7 t) (iblk0 V c 8 t) p q).trans ?_
  rw [blk5 V c t (ix2 o1 q), blk6 V c t (ix2 o1 q), blk7 V c t (ix2 o1 q), blk8 V c t (ix2 o1 q),
    Gin.mlp_congr (x' := fun k => a0 V c (ix2 ⟨t.val * 5000 + p.val, row_lt t p⟩ k)) (w1' := a1 V c)
      (b1' := fun a => a2 V c (ix2 o1 a)) (w2' := a3 V c) (b2' := fun a => a4 V c (ix2 o1 a)) q (fun k => blk0 V c t p k) (fun a k => blk1 V c t (ix2 a k)) (fun a => blk2 V c t (ix2 o1 a))
      (fun k => blk3 V c t (ix2 q k)) (blk4 V c t (ix2 o1 q))]
  rfl

/-- The ten row blocks tile the output array. -/
theorem cover (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  obtain ⟨t, ht⟩ : ∃ t : Fin cfg0.N, t.val = (i 0).val / 5000 :=
    (by decide +kernel : ∀ n : Fin 10, ∃ t : Fin grid0.N, t.val = n.val) ⟨(i 0).val / 5000, by omega⟩
  obtain ⟨e0, e1⟩ := idx_out t
  refine ⟨t, flush0_9 t, ?_⟩
  show i ∈ ((View.whole (Pipeline.arrRef spec0 9)).slice (win0_9.rect t)).set
  rw [View.set_slice_whole, Rect.mem_set_unit]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- The output array after the region. -/
theorem final (c : Dev nD) : (dat0 V c).arrAt 9 cfg0.N = arr V c :=
  (dat0 V c).arrAt_eq_of_cover 9 (arr V c) (fun t _ => flushed_eq V c t) (cover)

end Cert.KernelIdeal.Reg0

end
-- ==== Proof.KC2.lean ====
/-
  Inner layer 1: what its region finds in its windows after the first stretch, and what it leaves.
-/
import proofs.«135258_j66949950210693_1_alg».proof.Proof.KC1
import proofs.«135258_j66949950210693_1_alg».proof.Proof.KReg0

set_option maxRecDepth 16384
set_option maxHeartbeats 2000000

noncomputable section

namespace Cert.KernelIdeal.Chain

open Idealize.ShloMosaic Idealize.ShloMosaic.ValueIdx Idealize.ShloMosaic.TcCoe Idealize.SL.Sem Idealize.ShloMosaic.StableHlo
open Cert.KernelIdeal Cert.KernelIdeal.Gen Cert.KernelIdeal.Body

variable (m : (ℓ : Loc nD τ sig) → Buf (Elt Ideal) ℓ) (ρ : Dev nD → PrngReg) (c : Dev nD)

/-- A one-row array read at its row. -/
abbrev rowAt (f : FVec Ideal S1x128 .f32) (q : Fin 128) : EReal := f (ix2 o1 q)

/-! ## Inner layer 1: its entry (boundary 1) and what it leaves -/

theorem in0_x : W1 m ρ c (Proc.devRef .tc main_v27) = agg m c (x0 m c) := by
  show StableHlo.after hostOps0 (W0 m ρ c) (Proc.devRef .tc main_v27) = _
  simp only [hostOps0]
  after_results_simp
  all_goals rfl

theorem in0_w1 : W1 m ρ c (Proc.devRef .tc main_v4) = truncf (F := Ideal) .bf16 (m ((c : Thread nD τ).loc main_arg4)) bitsLt_bf16_f32 := b1_main_v4 m ρ c

theorem in0_w2 : W1 m ρ c (Proc.devRef .tc main_v5) = truncf (F := Ideal) .bf16 (m ((c : Thread nD τ).loc main_arg6)) bitsLt_bf16_f32 := b1_main_v5 m ρ c

theorem in0_r2 : W1 m ρ c (Proc.devRef .tc main_v28) = shapeCast S1x128 (m ((c : Thread nD τ).loc main_arg5)) shapeCasts_S128_S1x128 := by
  show StableHlo.after hostOps0 (W0 m ρ c) (Proc.devRef .tc main_v28) = _
  simp only [hostOps0]
  after_results_simp
  all_goals rfl

theorem in0_r4 : W1 m ρ c (Proc.devRef .tc main_v29) = shapeCast S1x128 (m ((c : Thread nD τ).loc main_arg7)) shapeCasts_S128_S1x128 := by
  show StableHlo.after hostOps0 (W0 m ρ c) (Proc.devRef .tc main_v29) = _
  simp only [hostOps0]
  after_results_simp
  all_goals rfl

theorem in0_r5 : W1 m ρ c (Proc.devRef .tc main_v30) = shapeCast S1x128 (m ((c : Thread nD τ).loc main_arg8)) shapeCasts_S128_S1x128 := by
  show StableHlo.after hostOps0 (W0 m ρ c) (Proc.devRef .tc main_v30) = _
  simp only [hostOps0]
  after_results_simp
  all_goals rfl

theorem in0_r6 : W1 m ρ c (Proc.devRef .tc main_v31) = shapeCast S1x128 (m ((c : Thread nD τ).loc main_arg9)) shapeCasts_S128_S1x128 := by
  show StableHlo.after hostOps0 (W0 m ρ c) (Proc.devRef .tc main_v31) = _
  simp only [hostOps0]
  after_results_simp
  all_goals rfl

theorem in0_r7 : W1 m ρ c (Proc.devRef .tc main_v32) = shapeCast S1x128 (m ((c : Thread nD τ).loc main_arg10)) shapeCasts_S128_S1x128 := by
  show StableHlo.after hostOps0 (W0 m ρ c) (Proc.devRef .tc main_v32) = _
  simp only [hostOps0]
  after_results_simp
  all_goals rfl

theorem in0_r8 : W1 m ρ c (Proc.devRef .tc main_v33) = shapeCast S1x128 (m ((c : Thread nD τ).loc main_arg11)) shapeCasts_S128_S1x128 := by
  show StableHlo.after hostOps0 (W0 m ρ c) (Proc.devRef .tc main_v33) = _
  simp only [hostOps0]
  after_results_simp
  all_goals rfl

theorem out0 : (W2 m ρ c (Proc.devRef .tc main_v34) : FVec Ideal S50000x128 .f32) = layer m c (x0 m c) := by
  refine (W2_arr m ρ c 9).trans ((Reg0.final (V1 m ρ) c).trans ?_)
  show Gin.innerArr (n := 50000) (K := 128) (H := 128) (d := 128) (W1 m ρ c (Proc.devRef .tc main_v27) : FVec Ideal S50000x128 .f32) (W1 m ρ c (Proc.devRef .tc main_v4) : FVec Ideal S128x128 .f32) (W1 m ρ c (Proc.devRef .tc main_v5) : FVec Ideal S128x128 .f32)
      (fun q => (W1 m ρ c (Proc.devRef .tc main_v28) : FVec Ideal S1x128 .f32) (ix2 o1 q)) (fun q => (W1 m ρ c (Proc.devRef .tc main_v29) : FVec Ideal S1x128 .f32) (ix2 o1 q))
      (fun q => rowAt (W1 m ρ c (Proc.devRef .tc main_v30) : FVec Ideal S1x128 .f32) q * Ideal.rsqrt (rowAt (W1 m ρ c (Proc.devRef .tc main_v33) : FVec Ideal S1x128 .f32) q + Ideal.ofBits .f32 0x3727C5AC#32))
      (fun q => (W1 m ρ c (Proc.devRef .tc main_v31) : FVec Ideal S1x128 .f32) (ix2 o1 q)) (fun q => (W1 m ρ c (Proc.devRef .tc main_v32) : FVec Ideal S1x128 .f32) (ix2 o1 q)) = _
  rw [in0_x, in0_w1, in0_w2, in0_r2, in0_r4, in0_r5, in0_r8, in0_r6, in0_r7]
  rfl

/-- Region 0 only reads main_v4 (an input window): it leaves it as it found it. -/
theorem keepIn0_1 : W2 m ρ c (Proc.devRef .tc main_v4) = W1 m ρ c (Proc.devRef .tc main_v4) := by
  refine (W2_arr m ρ c 1).trans ?_
  funext i
  refine ((dat0 (V1 m ρ) c).arrAt_apply_of_forall_not_mem 1 cfg0.N i (fun t _ hf => absurd hf ?_)).trans ?_
  · exact (by decide +kernel : ∀ t : Fin grid0.N, ¬ (cfg0.win 1).flush t = true) t
  · exact congrFun (A_eq0 (V1 m ρ) c 1) i

/-- Region 0 only reads main_v5 (an input window): it leaves it as it found it. -/
theorem keepIn0_3 : W2 m ρ c (Proc.devRef .tc main_v5) = W1 m ρ c (Proc.devRef .tc main_v5) := by
  refine (W2_arr m ρ c 3).trans ?_
  funext i
  refine ((dat0 (V1 m ρ) c).arrAt_apply_of_forall_not_mem 3 cfg0.N i (fun t _ hf => absurd hf ?_)).trans ?_
  · exact (by decide +kernel : ∀ t : Fin grid0.N, ¬ (cfg0.win 3).flush t = true) t
  · exact congrFun (A_eq0 (V1 m ρ) c 3) i

end Cert.KernelIdeal.Chain

end
-- ==== Proof.KReg1.lean ====
/-
  Inner layer 2 of 5: from the blocks its grid points write back to the whole output array.

  The grid has ten points; point t takes rows 5000·t … 5000·t + 4999 of the node array through its first window and
  writes the same rows of the output through its last; every other window is a whole small array, the same at every
  point. What point t writes back is therefore the layer's row function on its 5000 rows, and since the ten row
  blocks tile the 50000 rows the output array ends as the layer's function of the arrays the region finds.
-/
import proofs.«135258_j66949950210693_1_alg».proof.Proof.Gen.KernelIdeal.Frame
import proofs.«135258_j66949950210693_1_alg».proof.Proof.KBody
import proofs.«135258_j66949950210693_1_alg».proof.Proof.Arrays

set_option maxRecDepth 16384

noncomputable section

namespace Cert.KernelIdeal.Reg1

open Idealize.ShloMosaic Idealize.ShloMosaic.ValueIdx Idealize.ShloMosaic.TcCoe Idealize.SL.Sem
open Cert.KernelIdeal Cert.KernelIdeal.Gen Cert.KernelIdeal.Body
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the ten points -/

theorem t_lt : ∀ t : Fin cfg1.N, t.val < 10 := (by decide +kernel : ∀ t : Fin grid1.N, _)

theorem idx_in : ∀ t : Fin cfg1.N, win1_0.index t (0 : Fin 2) = t.val ∧ win1_0.index t (1 : Fin 2) = 0 :=
  (by decide +kernel : ∀ t : Fin grid1.N, _)

theorem idx_out : ∀ t : Fin cfg1.N, win1_9.index t (0 : Fin 2) = t.val ∧ win1_9.index t (1 : Fin 2) = 0 :=
  (by decide +kernel : ∀ t : Fin grid1.N, _)

theorem idx1 : ∀ t : Fin cfg1.N, win1_1.index t (0 : Fin 2) = 0 ∧ win1_1.index t (1 : Fin 2) = 0 :=
  (by decide +kernel : ∀ t : Fin grid1.N, _)

theorem idx2 : ∀ t : Fin cfg1.N, win1_2.index t (0 : Fin 2) = 0 ∧ win1_2.index t (1 : Fin 2) = 0 :=
  (by decide +kernel : ∀ t : Fin grid1.N, _)

theorem idx3 : ∀ t : Fin cfg1.N, win1_3.index t (0 : Fin 2) = 0 ∧ win1_3.index t (1 : Fin 2) = 0 :=
  (by decide +kernel : ∀ t : Fin grid1.N, _)

theorem idx4 : ∀ t : Fin cfg1.N, win1_4.index t (0 : Fin 2) = 0 ∧ win1_4.index t (1 : Fin 2) = 0 :=
  (by decide +kernel : ∀ t : Fin grid1.N, _)

theorem idx5 : ∀ t : Fin cfg1.N, win1_5.index t (0 : Fin 2) = 0 ∧ win1_5.index t (1 : Fin 2) = 0 :=
  (by decide +kernel : ∀ t : Fin grid1.N, _)

theorem idx6 : ∀ t : Fin cfg1.N, win1_6.index t (0 : Fin 2) = 0 ∧ win1_6.index t (1 : Fin 2) = 0 :=
  (by decide +kernel : ∀ t : Fin grid1.N, _)

theorem idx7 : ∀ t : Fin cfg1.N, win1_7.index t (0 : Fin 2) = 0 ∧ win1_7.index t (1 : Fin 2) = 0 :=
  (by decide +kernel : ∀ t : Fin grid1.N, _)

theorem idx8 : ∀ t : Fin cfg1.N, win1_8.index t (0 : Fin 2) = 0 ∧ win1_8.index t (1 : Fin 2) = 0 :=
  (by decide +kernel : ∀ t : Fin grid1.N, _)

theorem row_lt (t : Fin cfg1.N) (p : Fin 5000) : t.val * 5000 + p.val < 50000 := by
  have := t_lt t
  have := p.isLt
  omega

/-! ## The arrays the region finds, at their literal types -/

abbrev a0 (c : Dev nD) : S50000x128.Idx → EReal := V c (Pipeline.arrRef spec1 0)
abbrev a1 (c : Dev nD) : S128x128.Idx → EReal := V c (Pipeline.arrRef spec1 1)
abbrev a2 (c : Dev nD) : S1x128.Idx → EReal := V c (Pipeline.arrRef spec1 2)
abbrev a3 (c : Dev nD) : S128x128.Idx → EReal := V c (Pipeline.arrRef spec1 3)
abbrev a4 (c : Dev nD) : S1x128.Idx → EReal := V c (Pipeline.arrRef spec1 4)
abbrev a5 (c : Dev nD) : S1x128.Idx → EReal := V c (Pipeline.arrRef spec1 5)
abbrev a6 (c : Dev nD) : S1x128.Idx → EReal := V c (Pipeline.arrRef spec1 6)
abbrev a7 (c : Dev nD) : S1x128.Idx → EReal := V c (Pipeline.arrRef spec1 7)
abbrev a8 (c : Dev nD) : S1x128.Idx → EReal := V c (Pipeline.arrRef spec1 8)

/-! ## Each window's block at a point, read off the array the region finds -/

/-- The row window: entry (p, k) of point t's block is entry (5000·t + p, k) of the node array. -/
theorem blk0 (c : Dev nD) (t : Fin cfg1.N) (p : Fin 5000) (k : Fin 128) :
    iblk1 V c 0 t (ix2 p k)
      = a0 V c (ix2 ⟨t.val * 5000 + p.val, row_lt t p⟩ k) := by
  show V c (Pipeline.arrRef spec1 0) (((cfg1.win 0).blk t).view.emb (ix2 p k)) = _
  obtain ⟨e0, e1⟩ := idx_in t
  refine congrArg (V c (Pipeline.arrRef spec1 0)) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Window 1 is a whole array at every point. -/
theorem blk1 (c : Dev nD) (t : Fin cfg1.N) (y : S128x128.Idx) :
    iblk1 V c 1 t y = a1 V c y := by
  show V c (Pipeline.arrRef spec1 1) (((cfg1.win 1).blk t).view.emb y) = _
  obtain ⟨e0, e1⟩ := idx1 t
  refine congrArg (V c (Pipeline.arrRef spec1 1)) (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- Window 2 is a whole array at every point. -/
theorem blk2 (c : Dev nD) (t : Fin cfg1.N) (y : S1x128.Idx) :
    iblk1 V c 2 t y = a2 V c y := by
  show V c (Pipeline.arrRef spec1 2) (((cfg1.win 2).blk t).view.emb y) = _
  obtain ⟨e0, e1⟩ := idx2 t
  refine congrArg (V c (Pipeline.arrRef spec1 2)) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Window 3 is a whole array at every point. -/
theorem blk3 (c : Dev nD) (t : Fin cfg1.N) (y : S128x128.Idx) :
    iblk1 V c 3 t y = a3 V c y := by
  show V c (Pipeline.arrRef spec1 3) (((cfg1.win 3).blk t).view.emb y) = _
  obtain ⟨e0, e1⟩ := idx3 t
  refine congrArg (V c (Pipeline.arrRef spec1 3)) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Window 4 is a whole array at every point. -/
theorem blk4 (c : Dev nD) (t : Fin cfg1.N) (y : S1x128.Idx) :
    iblk1 V c 4 t y = a4 V c y := by
  show V c (Pipeline.arrRef spec1 4) (((cfg1.win 4).blk t).view.emb y) = _
  obtain ⟨e0, e1⟩ := idx4 t
  refine congrArg (V c (Pipeline.arrRef spec1 4)) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5 is a whole array at every point. -/
theorem blk5 (c : Dev nD) (t : Fin cfg1.N) (y : S1x128.Idx) :
    iblk1 V c 5 t y = a5 V c y := by
  show V c (Pipeline.arrRef spec1 5) (((cfg1.win 5).blk t).view.emb y) = _
  obtain ⟨e0, e1⟩ := idx5 t
  refine congrArg (V c (Pipeline.arrRef spec1 5)) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6 is a whole array at every point. -/
theorem blk6 (c : Dev nD) (t : Fin cfg1.N) (y : S1x128.Idx) :
    iblk1 V c 6 t y = a6 V c y := by
  show V c (Pipeline.arrRef spec1 6) (((cfg1.win 6).blk t).view.emb y) = _
  obtain ⟨e0, e1⟩ := idx6 t
  refine congrArg (V c (Pipeline.arrRef spec1 6)) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Window 7 is a whole array at every point. -/
theorem blk7 (c : Dev nD) (t : Fin cfg1.N) (y : S1x128.Idx) :
    iblk1 V c 7 t y = a7 V c y := by
  show V c (Pipeline.arrRef spec1 7) (((cfg1.win 7).blk t).view.emb y) = _
  obtain ⟨e0, e1⟩ := idx7 t
  refine congrArg (V c (Pipeline.arrRef spec1 7)) (funext fun a => Fin.ext ?_)
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- Window 8 is a whole array at every point. -/
theorem blk8 (c : Dev nD) (t : Fin cfg1.N) (y : S1x128.Idx) :
    iblk1 V c 8 t y = a8 V c y := by
  show V c (Pipeline.arrRef spec1 8) (((cfg1.win 8).blk t).view.emb y) = _
  obtain ⟨e0, e1⟩ := idx8 t
  refine congrArg (V c (Pipeline.arrRef spec1 8)) (funext fun a => Fin.ext ?_)
  match a with
  | ⟨0, _⟩ => show win1_8.index t (0 : Fin 2) * 1 + 1 * (y 0).val = (y 0).val; omega
  | ⟨1, _⟩ => show win1_8.index t (1 : Fin 2) * 128 + 1 * (y 1).val = (y 1).val; omega

/-- Entry (p, q) of point t's output block sits at (5000·t + p, q) of the output array. -/
theorem out_emb (t : Fin cfg1.N) (p : Fin 5000) (q : Fin 128) :
    ((cfg1.win 9).blk t).view.emb (ix2 p q) = (ix2 ⟨t.val * 5000 + p.val, row_lt t p⟩ q : S50000x128.Idx) := by
  obtain ⟨e0, e1⟩ := idx_out t
  funext a
  apply Fin.ext
  match a with
  | ⟨0, _⟩ => show win1_9.index t (0 : Fin 2) * 5000 + 1 * p.val = t.val * 5000 + p.val; omega
  | ⟨1, _⟩ => show win1_9.index t (1 : Fin 2) * 128 + 1 * q.val = q.val; omega

/-! ## The output array -/

/-- What the layer's output array holds, as a function of the arrays the region finds: the node rows through the
    perceptron, rectified, normalised with scale gamma · rsqrt (var + offset). -/
def arr (c : Dev nD) : S50000x128.Idx → EReal :=
  Gin.innerArr (n := 50000) (K := 128) (H := 128) (d := 128)
    (a0 V c) (a1 V c) (a3 V c) (fun j => a2 V c (ix2 o1 j)) (fun j => a4 V c (ix2 o1 j))
    (fun j => a5 V c (ix2 o1 j) * Ideal.rsqrt (a8 V c (ix2 o1 j) + Ideal.ofBits .f32 0x3727C5AC#32))
    (fun j => a6 V c (ix2 o1 j)) (fun j => a7 V c (ix2 o1 j))

/-- What point t writes back is block t of that array. -/
theorem flushed_eq (c : Dev nD) (t : Fin cfg1.N) :
    (dat1 V c).flushed 9 t = ((cfg1.win 9).blk t).view.read (Elt Ideal) (arr V c) := by
  show (cfg1.win 9).cut (grid1.coords t) ((dat1 V c).after 9 t) = _
  rw [after1_9]
  unfold out1_9
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k1_pay1 (k1_pay2 (iblk1 V c 6 t)) (k1_pay3 (iblk1 V c 0 t) (iblk1 V c 1 t) (iblk1 V c 2 t) (iblk1 V c 3 t) (iblk1 V c 4 t) (iblk1 V c 7 t)) (k1_pay4 (iblk1 V c 5 t) (iblk1 V c 8 t)) (ix2 p q)
      = arr V c (((cfg1.win 9).blk t).view.emb (ix2 p q))
  rw [out_emb t p q]
  refine (pay_inner1 (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  rw [blk5 V c t (ix2 o1 q), blk6 V c t (ix2 o1 q), blk7 V c t (ix2 o1 q), blk8 V c t (ix2 o1 q),
    Gin.mlp_congr (x' := fun k => a0 V c (ix2 ⟨t.val * 5000 + p.val, row_lt t p⟩ k)) (w1' := a1 V c)
      (b1' := fun a => a2 V c (ix2 o1 a)) (w2' := a3 V c) (b2' := fun a => a4 V c (ix2 o1 a)) q (fun k => blk0 V c t p k) (fun a k => blk1 V c t (ix2 a k)) (fun a => blk2 V c t (ix2 o1 a))
      (fun k => blk3 V c t (ix2 q k)) (blk4 V c t (ix2 o1 q))]
  rfl

/-- The ten row blocks tile the output array. -/
theorem cover (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ : ∃ t : Fin cfg1.N, t.val = (i 0).val / 5000 :=
    (by decide +kernel : ∀ n : Fin 10, ∃ t : Fin grid1.N, t.val = n.val) ⟨(i 0).val / 5000, by omega⟩
  obtain ⟨e0, e1⟩ := idx_out t
  refine ⟨t, flush1_9 t, ?_⟩
  show i ∈ ((View.whole (Pipeline.arrRef spec1 9)).slice (win1_9.rect t)).set
  rw [View.set_slice_whole, Rect.mem_set_unit]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- The output array after the region. -/
theorem final (c : Dev nD) : (dat1 V c).arrAt 9 cfg1.N = arr V c :=
  (dat1 V c).arrAt_eq_of_cover 9 (arr V c) (fun t _ => flushed_eq V c t) (cover)

end Cert.KernelIdeal.Reg1

end
-- ==== Proof.KC3.lean ====
/-
  Inner layer 2: the buffers walked back to the first boundary, its windows' contents, and what it leaves.
-/
import proofs.«135258_j66949950210693_1_alg».proof.Proof.KC2
import proofs.«135258_j66949950210693_1_alg».proof.Proof.KReg1

set_option maxRecDepth 16384
set_option maxHeartbeats 2000000

noncomputable section

namespace Cert.KernelIdeal.Chain

open Idealize.ShloMosaic Idealize.ShloMosaic.ValueIdx Idealize.ShloMosaic.TcCoe Idealize.SL.Sem Idealize.ShloMosaic.StableHlo
open Cert.KernelIdeal Cert.KernelIdeal.Gen Cert.KernelIdeal.Body

variable (m : (ℓ : Loc nD τ sig) → Buf (Elt Ideal) ℓ) (ρ : Dev nD → PrngReg) (c : Dev nD)

/-! ## Inner layer 2: its entry (boundary 3) and what it leaves -/

theorem src2 : W2 m ρ c (Proc.devRef .tc main_v1) = src m c :=
  ((W2_of_ne m ρ c main_v1 (by decide)).trans rfl).trans (b1_src m ρ c)

theorem dst2 : W2 m ρ c (Proc.devRef .tc main_v3) = dst m c :=
  ((W2_of_ne m ρ c main_v3 (by decide)).trans rfl).trans (b1_dst m ρ c)

theorem arg5_2 : W2 m ρ c (Proc.devRef .tc main_arg5) = (m ((c : Thread nD τ).loc main_arg5)) :=
  (((W2_of_ne m ρ c main_arg5 (by decide)).trans rfl).trans ((keepH0 (W0 m ρ c) main_arg5 (by decide)).trans rfl))

theorem arg7_2 : W2 m ρ c (Proc.devRef .tc main_arg7) = (m ((c : Thread nD τ).loc main_arg7)) :=
  (((W2_of_ne m ρ c main_arg7 (by decide)).trans rfl).trans ((keepH0 (W0 m ρ c) main_arg7 (by decide)).trans rfl))

theorem arg8_2 : W2 m ρ c (Proc.devRef .tc main_arg8) = (m ((c : Thread nD τ).loc main_arg8)) :=
  (((W2_of_ne m ρ c main_arg8 (by decide)).trans rfl).trans ((keepH0 (W0 m ρ c) main_arg8 (by decide)).trans rfl))

theorem arg9_2 : W2 m ρ c (Proc.devRef .tc main_arg9) = (m ((c : Thread nD τ).loc main_arg9)) :=
  (((W2_of_ne m ρ c main_arg9 (by decide)).trans rfl).trans ((keepH0 (W0 m ρ c) main_arg9 (by decide)).trans rfl))

theorem arg10_2 : W2 m ρ c (Proc.devRef .tc main_arg10) = (m ((c : Thread nD τ).loc main_arg10)) :=
  (((W2_of_ne m ρ c main_arg10 (by decide)).trans rfl).trans ((keepH0 (W0 m ρ c) main_arg10 (by decide)).trans rfl))

theorem arg11_2 : W2 m ρ c (Proc.devRef .tc main_arg11) = (m ((c : Thread nD τ).loc main_arg11)) :=
  (((W2_of_ne m ρ c main_arg11 (by decide)).trans rfl).trans ((keepH0 (W0 m ρ c) main_arg11 (by decide)).trans rfl))

theorem in1_x : W3 m ρ c (Proc.devRef .tc main_v45) = agg m c (W2 m ρ c (Proc.devRef .tc main_v34) : FVec Ideal S50000x128 .f32) := by
  show StableHlo.after hostOps1 (W2 m ρ c) (Proc.devRef .tc main_v45) = _
  simp only [hostOps1]
  after_results_simp
  all_goals rw [src2, dst2]
  all_goals rfl

theorem in1_w1 : W3 m ρ c (Proc.devRef .tc main_v4) = truncf (F := Ideal) .bf16 (m ((c : Thread nD τ).loc main_arg4)) bitsLt_bf16_f32 :=
  ((keepH1 (W2 m ρ c) main_v4 (by decide)).trans ((keepIn0_1 m ρ c).trans rfl)).trans (b1_main_v4 m ρ c)

theorem in1_w2 : W3 m ρ c (Proc.devRef .tc main_v5) = truncf (F := Ideal) .bf16 (m ((c : Thread nD τ).loc main_arg6)) bitsLt_bf16_f32 :=
  ((keepH1 (W2 m ρ c) main_v5 (by decide)).trans ((keepIn0_3 m ρ c).trans rfl)).trans (b1_main_v5 m ρ c)

theorem in1_r2 : W3 m ρ c (Proc.devRef .tc main_v46) = shapeCast S1x128 (m ((c : Thread nD τ).loc main_arg5)) shapeCasts_S128_S1x128 := by
  show StableHlo.after hostOps1 (W2 m ρ c) (Proc.devRef .tc main_v46) = _
  simp only [hostOps1]
  after_results_simp
  all_goals rw [arg5_2]
  all_goals rfl

theorem in1_r4 : W3 m ρ c (Proc.devRef .tc main_v47) = shapeCast S1x128 (m ((c : Thread nD τ).loc main_arg7)) shapeCasts_S128_S1x128 := by
  show StableHlo.after hostOps1 (W2 m ρ c) (Proc.devRef .tc main_v47) = _
  simp only [hostOps1]
  after_results_simp
  all_goals rw [arg7_2]
  all_goals rfl

theorem in1_r5 : W3 m ρ c (Proc.devRef .tc main_v48) = shapeCast S1x128 (m ((c : Thread nD τ).loc main_arg8)) shapeCasts_S128_S1x128 := by
  show StableHlo.after hostOps1 (W2 m ρ c) (Proc.devRef .tc main_v48) = _
  simp only [hostOps1]
  after_results_simp
  all_goals rw [arg8_2]
  all_goals rfl

theorem in1_r6 : W3 m ρ c (Proc.devRef .tc main_v49) = shapeCast S1x128 (m ((c : Thread nD τ).loc main_arg9)) shapeCasts_S128_S1x128 := by
  show StableHlo.after hostOps1 (W2 m ρ c) (Proc.devRef .tc main_v49) = _
  simp only [hostOps1]
  after_results_simp
  all_goals rw [arg9_2]
  all_goals rfl

theorem in1_r7 : W3 m ρ c (Proc.devRef .tc main_v50) = shapeCast S1x128 (m ((c : Thread nD τ).loc main_arg10)) shapeCasts_S128_S1x128 := by
  show StableHlo.after hostOps1 (W2 m ρ c) (Proc.devRef .tc main_v50) = _
  simp only [hostOps1]
  after_results_simp
  all_goals rw [arg10_2]
  all_goals rfl

theorem in1_r8 : W3 m ρ c (Proc.devRef .tc main_v51) = shapeCast S1x128 (m ((c : Thread nD τ).loc main_arg11)) shapeCasts_S128_S1x128 := by
  show StableHlo.after hostOps1 (W2 m ρ c) (Proc.devRef .tc main_v51) = _
  simp only [hostOps1]
  after_results_simp
  all_goals rw [arg11_2]
  all_goals rfl

theorem out1 : (W4 m ρ c (Proc.devRef .tc main_v52) : FVec Ideal S50000x128 .f32) = layer m c (W2 m ρ c (Proc.devRef .tc main_v34) : FVec Ideal S50000x128 .f32) := by
  refine (W4_arr m ρ c 9).trans ((Reg1.final (V3 m ρ) c).trans ?_)
  show Gin.innerArr (n := 50000) (K := 128) (H := 128) (d := 128) (W3 m ρ c (Proc.devRef .tc main_v45) : FVec Ideal S50000x128 .f32) (W3 m ρ c (Proc.devRef .tc main_v4) : FVec Ideal S128x128 .f32) (W3 m ρ c (Proc.devRef .tc main_v5) : FVec Ideal S128x128 .f32)
      (fun q => (W3 m ρ c (Proc.devRef .tc main_v46) : FVec Ideal S1x128 .f32) (ix2 o1 q)) (fun q => (W3 m ρ c (Proc.devRef .tc main_v47) : FVec Ideal S1x128 .f32) (ix2 o1 q))
      (fun q => rowAt (W3 m ρ c (Proc.devRef .tc main_v48) : FVec Ideal S1x128 .f32) q * Ideal.rsqrt (rowAt (W3 m ρ c (Proc.devRef .tc main_v51) : FVec Ideal S1x128 .f32) q + Ideal.ofBits .f32 0x3727C5AC#32))
      (fun q => (W3 m ρ c (Proc.devRef .tc main_v49) : FVec Ideal S1x128 .f32) (ix2 o1 q)) (fun q => (W3 m ρ c (Proc.devRef .tc main_v50) : FVec Ideal S1x128 .f32) (ix2 o1 q)) = _
  rw [in1_x, in1_w1, in1_w2, in1_r2, in1_r4, in1_r5, in1_r8, in1_r6, in1_r7]
  rfl

/-- Region 1 only reads main_v4 (an input window): it leaves it as it found it. -/
theorem keepIn1_1 : W4 m ρ c (Proc.devRef .tc main_v4) = W3 m ρ c (Proc.devRef .tc main_v4) := by
  refine (W4_arr m ρ c 1).trans ?_
  funext i
  refine ((dat1 (V3 m ρ) c).arrAt_apply_of_forall_not_mem 1 cfg1.N i (fun t _ hf => absurd hf ?_)).trans ?_
  · exact (by decide +kernel : ∀ t : Fin grid1.N, ¬ (cfg1.win 1).flush t = true) t
  · exact congrFun (A_eq1 (V3 m ρ) c 1) i

/-- Region 1 only reads main_v5 (an input window): it leaves it as it found it. -/
theorem keepIn1_3 : W4 m ρ c (Proc.devRef .tc main_v5) = W3 m ρ c (Proc.devRef .tc main_v5) := by
  refine (W4_arr m ρ c 3).trans ?_
  funext i
  refine ((dat1 (V3 m ρ) c).arrAt_apply_of_forall_not_mem 3 cfg1.N i (fun t _ hf => absurd hf ?_)).trans ?_
  · exact (by decide +kernel : ∀ t : Fin grid1.N, ¬ (cfg1.win 3).flush t = true) t
  · exact congrFun (A_eq1 (V3 m ρ) c 3) i

end Cert.KernelIdeal.Chain

end
-- ==== Proof.KReg2.lean ====
/-
  Inner layer 3 of 5: from the blocks its grid points write back to the whole output array.

  The grid has ten points; point t takes rows 5000·t … 5000·t + 4999 of the node array through its first window and
  writes the same rows of the output through its last; every other window is a whole small array, the same at every
  point. What point t writes back is therefore the layer's row function on its 5000 rows, and since the ten row
  blocks tile the 50000 rows the output array ends as the layer's function of the arrays the region finds.
-/
import proofs.«135258_j66949950210693_1_alg».proof.Proof.Gen.KernelIdeal.Frame
import proofs.«135258_j66949950210693_1_alg».proof.Proof.KBody
import proofs.«135258_j66949950210693_1_alg».proof.Proof.Arrays

set_option maxRecDepth 16384

noncomputable section

namespace Cert.KernelIdeal.Reg2

open Idealize.ShloMosaic Idealize.ShloMosaic.ValueIdx Idealize.ShloMosaic.TcCoe Idealize.SL.Sem
open Cert.KernelIdeal Cert.KernelIdeal.Gen Cert.KernelIdeal.Body
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the ten points -/

theorem t_lt : ∀ t : Fin cfg2.N, t.val < 10 := (by decide +kernel : ∀ t : Fin grid2.N, _)

theorem idx_in : ∀ t : Fin cfg2.N, win2_0.index t (0 : Fin 2) = t.val ∧ win2_0.index t (1 : Fin 2) = 0 :=
  (by decide +kernel : ∀ t : Fin grid2.N, _)

theorem idx_out : ∀ t : Fin cfg2.N, win2_9.index t (0 : Fin 2) = t.val ∧ win2_9.index t (1 : Fin 2) = 0 :=
  (by decide +kernel : ∀ t : Fin grid2.N, _)

theorem idx1 : ∀ t : Fin cfg2.N, win2_1.index t (0 : Fin 2) = 0 ∧ win2_1.index t (1 : Fin 2) = 0 :=
  (by decide +kernel : ∀ t : Fin grid2.N, _)

theorem idx2 : ∀ t : Fin cfg2.N, win2_2.index t (0 : Fin 2) = 0 ∧ win2_2.index t (1 : Fin 2) = 0 :=
  (by decide +kernel : ∀ t : Fin grid2.N, _)

theorem idx3 : ∀ t : Fin cfg2.N, win2_3.index t (0 : Fin 2) = 0 ∧ win2_3.index t (1 : Fin 2) = 0 :=
  (by decide +kernel : ∀ t : Fin grid2.N, _)

theorem idx4 : ∀ t : Fin cfg2.N, win2_4.index t (0 : Fin 2) = 0 ∧ win2_4.index t (1 : Fin 2) = 0 :=
  (by decide +kernel : ∀ t : Fin grid2.N, _)

theorem idx5 : ∀ t : Fin cfg2.N, win2_5.index t (0 : Fin 2) = 0 ∧ win2_5.index t (1 : Fin 2) = 0 :=
  (by decide +kernel : ∀ t : Fin grid2.N, _)

theorem idx6 : ∀ t : Fin cfg2.N, win2_6.index t (0 : Fin 2) = 0 ∧ win2_6.index t (1 : Fin 2) = 0 :=
  (by decide +kernel : ∀ t : Fin grid2.N, _)

theorem idx7 : ∀ t : Fin cfg2.N, win2_7.index t (0 : Fin 2) = 0 ∧ win2_7.index t (1 : Fin 2) = 0 :=
  (by decide +kernel : ∀ t : Fin grid2.N, _)

theorem idx8 : ∀ t : Fin cfg2.N, win2_8.index t (0 : Fin 2) = 0 ∧ win2_8.index t (1 : Fin 2) = 0 :=
  (by decide +kernel : ∀ t : Fin grid2.N, _)

theorem row_lt (t : Fin cfg2.N) (p : Fin 5000) : t.val * 5000 + p.val < 50000 := by
  have := t_lt t
  have := p.isLt
  omega

/-! ## The arrays the region finds, at their literal types -/

abbrev a0 (c : Dev nD) : S50000x128.Idx → EReal := V c (Pipeline.arrRef spec2 0)
abbrev a1 (c : Dev nD) : S128x128.Idx → EReal := V c (Pipeline.arrRef spec2 1)
abbrev a2 (c : Dev nD) : S1x128.Idx → EReal := V c (Pipeline.arrRef spec2 2)
abbrev a3 (c : Dev nD) : S128x128.Idx → EReal := V c (Pipeline.arrRef spec2 3)
abbrev a4 (c : Dev nD) : S1x128.Idx → EReal := V c (Pipeline.arrRef spec2 4)
abbrev a5 (c : Dev nD) : S1x128.Idx → EReal := V c (Pipeline.arrRef spec2 5)
abbrev a6 (c : Dev nD) : S1x128.Idx → EReal := V c (Pipeline.arrRef spec2 6)
abbrev a7 (c : Dev nD) : S1x128.Idx → EReal := V c (Pipeline.arrRef spec2 7)
abbrev a8 (c : Dev nD) : S1x128.Idx → EReal := V c (Pipeline.arrRef spec2 8)

/-! ## Each window's block at a point, read off the array the region finds -/

/-- The row window: entry (p, k) of point t's block is entry (5000·t + p, k) of the node array. -/
theorem blk0 (c : Dev nD) (t : Fin cfg2.N) (p : Fin 5000) (k : Fin 128) :
    iblk2 V c 0 t (ix2 p k)
      = a0 V c (ix2 ⟨t.val * 5000 + p.val, row_lt t p⟩ k) := by
  show V c (Pipeline.arrRef spec2 0) (((cfg2.win 0).blk t).view.emb (ix2 p k)) = _
  obtain ⟨e0, e1⟩ := idx_in t
  refine congrArg (V c (Pipeline.arrRef spec2 0)) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- Window 1 is a whole array at every point. -/
theorem blk1 (c : Dev nD) (t : Fin cfg2.N) (y : S128x128.Idx) :
    iblk2 V c 1 t y = a1 V c y := by
  show V c (Pipeline.arrRef spec2 1) (((cfg2.win 1).blk t).view.emb y) = _
  obtain ⟨e0, e1⟩ := idx1 t
  refine congrArg (V c (Pipeline.arrRef spec2 1)) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- Window 2 is a whole array at every point. -/
theorem blk2 (c : Dev nD) (t : Fin cfg2.N) (y : S1x128.Idx) :
    iblk2 V c 2 t y = a2 V c y := by
  show V c (Pipeline.arrRef spec2 2) (((cfg2.win 2).blk t).view.emb y) = _
  obtain ⟨e0, e1⟩ := idx2 t
  refine congrArg (V c (Pipeline.arrRef spec2 2)) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Window 3 is a whole array at every point. -/
theorem blk3 (c : Dev nD) (t : Fin cfg2.N) (y : S128x128.Idx) :
    iblk2 V c 3 t y = a3 V c y := by
  show V c (Pipeline.arrRef spec2 3) (((cfg2.win 3).blk t).view.emb y) = _
  obtain ⟨e0, e1⟩ := idx3 t
  refine congrArg (V c (Pipeline.arrRef spec2 3)) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4 is a whole array at every point. -/
theorem blk4 (c : Dev nD) (t : Fin cfg2.N) (y : S1x128.Idx) :
    iblk2 V c 4 t y = a4 V c y := by
  show V c (Pipeline.arrRef spec2 4) (((cfg2.win 4).blk t).view.emb y) = _
  obtain ⟨e0, e1⟩ := idx4 t
  refine congrArg (V c (Pipeline.arrRef spec2 4)) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5 is a whole array at every point. -/
theorem blk5 (c : Dev nD) (t : Fin cfg2.N) (y : S1x128.Idx) :
    iblk2 V c 5 t y = a5 V c y := by
  show V c (Pipeline.arrRef spec2 5) (((cfg2.win 5).blk t).view.emb y) = _
  obtain ⟨e0, e1⟩ := idx5 t
  refine congrArg (V c (Pipeline.arrRef spec2 5)) (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- Window 6 is a whole array at every point. -/
theorem blk6 (c : Dev nD) (t : Fin cfg2.N) (y : S1x128.Idx) :
    iblk2 V c 6 t y = a6 V c y := by
  show V c (Pipeline.arrRef spec2 6) (((cfg2.win 6).blk t).view.emb y) = _
  obtain ⟨e0, e1⟩ := idx6 t
  refine congrArg (V c (Pipeline.arrRef spec2 6)) (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Window 7 is a whole array at every point. -/
theorem blk7 (c : Dev nD) (t : Fin cfg2.N) (y : S1x128.Idx) :
    iblk2 V c 7 t y = a7 V c y := by
  show V c (Pipeline.arrRef spec2 7) (((cfg2.win 7).blk t).view.emb y) = _
  obtain ⟨e0, e1⟩ := idx7 t
  refine congrArg (V c (Pipeline.arrRef spec2 7)) (funext fun a => Fin.ext ?_)
  match a with
  | ⟨0, _⟩ => show win2_7.index t (0 : Fin 2) * 1 + 1 * (y 0).val = (y 0).val; omega
  | ⟨1, _⟩ => show win2_7.index t (1 : Fin 2) * 128 + 1 * (y 1).val = (y 1).val; omega

/-- Window 8 is a whole array at every point. -/
theorem blk8 (c : Dev nD) (t : Fin cfg2.N) (y : S1x128.Idx) :
    iblk2 V c 8 t y = a8 V c y := by
  show V c (Pipeline.arrRef spec2 8) (((cfg2.win 8).blk t).view.emb y) = _
  obtain ⟨e0, e1⟩ := idx8 t
  refine congrArg (V c (Pipeline.arrRef spec2 8)) (funext fun a => Fin.ext ?_)
  match a with
  | ⟨0, _⟩ => show win2_8.index t (0 : Fin 2) * 1 + 1 * (y 0).val = (y 0).val; omega
  | ⟨1, _⟩ => show win2_8.index t (1 : Fin 2) * 128 + 1 * (y 1).val = (y 1).val; omega

/-- Entry (p, q) of point t's output block sits at (5000·t + p, q) of the output array. -/
theorem out_emb (t : Fin cfg2.N) (p : Fin 5000) (q : Fin 128) :
    ((cfg2.win 9).blk t).view.emb (ix2 p q) = (ix2 ⟨t.val * 5000 + p.val, row_lt t p⟩ q : S50000x128.Idx) := by
  obtain ⟨e0, e1⟩ := idx_out t
  funext a
  apply Fin.ext
  match a with
  | ⟨0, _⟩ => show win2_9.index t (0 : Fin 2) * 5000 + 1 * p.val = t.val * 5000 + p.val; omega
  | ⟨1, _⟩ => show win2_9.index t (1 : Fin 2) * 128 + 1 * q.val = q.val; omega

/-! ## The output array -/

/-- What the layer's output array holds, as a function of the arrays the region finds: the node rows through the
    perceptron, rectified, normalised with scale gamma · rsqrt (var + offset). -/
def arr (c : Dev nD) : S50000x128.Idx → EReal :=
  Gin.innerArr (n := 50000) (K := 128) (H := 128) (d := 128)
    (a0 V c) (a1 V c) (a3 V c) (fun j => a2 V c (ix2 o1 j)) (fun j => a4 V c (ix2 o1 j))
    (fun j => a5 V c (ix2 o1 j) * Ideal.rsqrt (a8 V c (ix2 o1 j) + Ideal.ofBits .f32 0x3727C5AC#32))
    (fun j => a6 V c (ix2 o1 j)) (fun j => a7 V c (ix2 o1 j))

/-- What point t writes back is block t of that array. -/
theorem flushed_eq (c : Dev nD) (t : Fin cfg2.N) :
    (dat2 V c).flushed 9 t = ((cfg2.win 9).blk t).view.read (Elt Ideal) (arr V c) := by
  show (cfg2.win 9).cut (grid2.coords t) ((dat2 V c).after 9 t) = _
  rw [after2_9]
  unfold out2_9
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k2_pay1 (k2_pay2 (iblk2 V c 6 t)) (k2_pay3 (iblk2 V c 0 t) (iblk2 V c 1 t) (iblk2 V c 2 t) (iblk2 V c 3 t) (iblk2 V c 4 t) (iblk2 V c 7 t)) (k2_pay4 (iblk2 V c 5 t) (iblk2 V c 8 t)) (ix2 p q)
      = arr V c (((cfg2.win 9).blk t).view.emb (ix2 p q))
  rw [out_emb t p q]
  refine (pay_inner2 (iblk2 V c 0 t) (iblk2 V c 1 t) (iblk2 V c 2 t) (iblk2 V c 3 t) (iblk2 V c 4 t) (iblk2 V c 5 t) (iblk2 V c 6 t) (iblk2 V c 7 t) (iblk2 V c 8 t) p q).trans ?_
  rw [blk5 V c t (ix2 o1 q), blk6 V c t (ix2 o1 q), blk7 V c t (ix2 o1 q), blk8 V c t (ix2 o1 q),
    Gin.mlp_congr (x' := fun k => a0 V c (ix2 ⟨t.val * 5000 + p.val, row_lt t p⟩ k)) (w1' := a1 V c)
      (b1' := fun a => a2 V c (ix2 o1 a)) (w2' := a3 V c) (b2' := fun a => a4 V c (ix2 o1 a)) q (fun k => blk0 V c t p k) (fun a k => blk1 V c t (ix2 a k)) (fun a => blk2 V c t (ix2 o1 a))
      (fun k => blk3 V c t (ix2 q k)) (blk4 V c t (ix2 o1 q))]
  rfl

/-- The ten row blocks tile the output array. -/
theorem cover (i : S50000x128.Idx) :
    ∃ t : Fin cfg2.N, (cfg2.win 9).flush t = true ∧ i ∈ ((cfg2.win 9).blk t).view.set := by
  have hi0 : (i 0).val < 50000 := (i 0).isLt
  have hi1 : (i 1).val < 128 := (i 1).isLt
  obtain ⟨t, ht⟩ : ∃ t : Fin cfg2.N, t.val = (i 0).val / 5000 :=
    (by decide +kernel : ∀ n : Fin 10, ∃ t : Fin grid2.N, t.val = n.val) ⟨(i 0).val / 5000, by omega⟩
  obtain ⟨e0, e1⟩ := idx_out t
  refine ⟨t, flush2_9 t, ?_⟩
  show i ∈ ((View.whole (Pipeline.arrRef spec2 9)).slice (win2_9.rect t)).set
  rw [View.set_slice_whole, Rect.mem_set_unit]
  intro a
  match a with
  | ⟨0, _⟩ => show win2_9.index t (0 : Fin 2) * 5000 ≤ (i 0).val ∧ (i 0).val < win2_9.index t (0 : Fin 2) * 5000 + 5000; omega
  | ⟨1, _⟩ => show win2_9.index t (1 : Fin 2) * 128 ≤ (i 1).val ∧ (i 1).val < win2_9.index t (1 : Fin 2) * 128 + 128; omega

/-- The output array after the region. -/
theorem final (c : Dev nD) : (dat2 V c).arrAt 9 cfg2.N = arr V c :=
  (dat2 V c).arrAt_eq_of_cover 9 (arr V c) (fun t _ => flushed_eq V c t) (cover)

end Cert.KernelIdeal.Reg2

end
-- ==== Proof.KC4.lean ====
/-
  Inner layer 3: the buffers walked back to the first boundary, its windows' contents, and what it leaves.
-/
import proofs.«135258_j66949950210693_1_alg».proof.Proof.KC3
import proofs.«135258_j66949950210693_1_alg».proof.Proof.KReg2

set_option maxRecDepth 16384
set_option maxHeartbeats 2000000

noncomputable section

namespace Cert.KernelIdeal.Chain

open Idealize.ShloMosaic Idealize.ShloMosaic.ValueIdx Idealize.ShloMosaic.TcCoe Idealize.SL.Sem Idealize.ShloMosaic.StableHlo
open Cert.KernelIdeal Cert.KernelIdeal.Gen Cert.KernelIdeal.Body

variable (m : (ℓ : Loc nD τ sig) → Buf (Elt Ideal) ℓ) (ρ : Dev nD → PrngReg) (c : Dev nD)

/-! ## Inner layer 3: its entry (boundary 5) and what it leaves -/

theorem src4 : W4 m ρ c (Proc.devRef .tc main_v1) = src m c :=
  ((W4_of_ne m ρ c main_v1 (by decide)).trans ((keepH1 (W2 m ρ c) main_v1 (by decide)).trans ((W2_of_ne m ρ c main_v1 (by decide)).trans rfl))).trans (b1_src m ρ c)

theorem dst4 : W4 m ρ c (Proc.devRef .tc main_v3) = dst m c :=
  ((W4_of_ne m ρ c main_v3 (by decide)).trans ((keepH1 (W2 m ρ c) main_v3 (by decide)).trans ((W2_of_ne m ρ c main_v3 (by decide)).trans rfl))).trans (b1_dst m ρ c)

theorem arg5_4 : W4 m ρ c (Proc.devRef .tc main_arg5) = (m ((c : Thread nD τ).loc main_arg5)) :=
  (((W4_of_ne m ρ c main_arg5 (by decide)).trans ((keepH1 (W2 m ρ c) main_arg5 (by decide)).trans ((W2_of_ne m ρ c main_arg5 (by decide)).trans rfl))).trans ((keepH0 (W0 m ρ c) main_arg5 (by decide)).trans rfl))

theorem arg7_4 : W4 m ρ c (Proc.devRef .tc main_arg7) = (m ((c : Thread nD τ).loc main_arg7)) :=
  (((W4_of_ne m ρ c main_arg7 (by decide)).trans ((keepH1 (W2 m ρ c) main_arg7 (by decide)).trans ((W2_of_ne m ρ c main_arg7 (by decide)).trans rfl))).trans ((keepH0 (W0 m ρ c) main_arg7 (by decide)).trans rfl))

theorem arg8_4 : W4 m ρ c (Proc.devRef .tc main_arg8) = (m ((c : Thread nD τ).loc main_arg8)) :=
  (((W4_of_ne m ρ c main_arg8 (by decide)).trans ((keepH1 (W2 m ρ c) main_arg8 (by decide)).trans ((W2_of_ne m ρ c main_arg8 (by decide)).trans rfl))).trans ((keepH0 (W0 m ρ c) main_arg8 (by decide)).trans rfl))

theorem arg9_4 : W4 m ρ c (Proc.devRef .tc main_arg9) = (m ((c : Thread nD τ).loc main_arg9)) :=
  (((W4_of_ne m ρ c main_arg9 (by decide)).trans ((keepH1 (W2 m ρ c) main_arg9 (by decide)).trans ((W2_of_ne m ρ c main_arg9 (by decide)).trans rfl))).trans ((keepH0 (W0 m ρ c) main_arg9 (by decide)).trans rfl))

theorem arg10_4 : W4 m ρ c (Proc.devRef .tc main_arg10) = (m ((c : Thread nD τ).loc main_arg10)) :=
  (((W4_of_ne m ρ c main_arg10 (by decide)).trans ((keepH1 (W2 m ρ c) main_arg10 (by decide)).trans ((W2_of_ne m ρ c main_arg10 (by decide)).trans rfl))).trans ((keepH0 (W0 m ρ c) main_arg10 (by decide)).trans rfl))

theorem arg11_4 : W4 m ρ c (Proc.devRef .tc main_arg11) = (m ((c : Thread nD τ).loc main_arg11)) :=
  (((W4_of_ne m ρ c main_arg11 (by decide)).trans ((keepH1 (W2 m ρ c) main_arg11 (by decide)).trans ((W2_of_ne m ρ c main_arg11 (by decide)).trans rfl))).trans ((keepH0 (W0 m ρ c) main_arg11 (by decide)).trans rfl))

theorem in2_x : W5 m ρ c (Proc.devRef .tc main_v63) = agg m c (W4 m ρ c (Proc.devRef .tc main_v52) : FVec Ideal S50000x128 .f32) := by
  show StableHlo.after hostOps2 (W4 m ρ c) (Proc.devRef .tc main_v63) = _
  simp only [hostOps2]
  after_results_simp
  all_goals rw [src4, dst4]
  all_goals rfl

theorem in2_w1 : W5 m ρ c (Proc.devRef .tc main_v4) = truncf (F := Ideal) .bf16 (m ((c : Thread nD τ).loc main_arg4)) bitsLt_bf16_f32 :=
  ((keepH2 (W4 m ρ c) main_v4 (by decide)).trans ((keepIn1_1 m ρ c).trans ((keepH1 (W2 m ρ c) main_v4 (by decide)).trans ((keepIn0_1 m ρ c).trans rfl)))).trans (b1_main_v4 m ρ c)

theorem in2_w2 : W5 m ρ c (Proc.devRef .tc main_v5) = truncf (F := Ideal) .bf16 (m ((c : Thread nD τ).loc main_arg6)) bitsLt_bf16_f32 :=
  ((keepH2 (W4 m ρ c) main_v5 (by decide)).trans ((keepIn1_3 m ρ c).trans ((keepH1 (W2 m ρ c) main_v5 (by decide)).trans ((keepIn0_3 m ρ c).trans rfl)))).trans (b1_main_v5 m ρ c)

theorem in2_r2 : W5 m ρ c (Proc.devRef .tc main_v64) = shapeCast S1x128 (m ((c : Thread nD τ).loc main_arg5)) shapeCasts_S128_S1x128 := by
  show StableHlo.after hostOps2 (W4 m ρ c) (Proc.devRef .tc main_v64) = _
  simp only [hostOps2]
  after_results_simp
  all_goals rw [arg5_4]
  all_goals rfl

theorem in2_r4 : W5 m ρ c (Proc.devRef .tc main_v65) = shapeCast S1x128 (m ((c : Thread nD τ).loc main_arg7)) shapeCasts_S128_S1x128 := by
  show StableHlo.after hostOps2 (W4 m ρ c) (Proc.devRef .tc main_v65) = _
  simp only [hostOps2]
  after_results_simp
  all_goals rw [arg7_4]
  all_goals rfl

theorem in2_r5 : W5 m ρ c (Proc.devRef .tc main_v66) = shapeCast S1x128 (m ((c : Thread nD τ).loc main_arg8)) shapeCasts_S128_S1x128 := by
  show StableHlo.after hostOps2 (W4 m ρ c) (Proc.devRef .tc main_v66) = _
  simp only [hostOps2]
  after_results_simp
  all_goals rw [arg8_4]
  all_goals rfl

theorem in2_r6 : W5 m ρ c (Proc.devRef .tc main_v67) = shapeCast S1x128 (m ((c : Thread nD τ).loc main_arg9)) shapeCasts_S128_S1x128 := by
  show StableHlo.after hostOps2 (W4 m ρ c) (Proc.devRef .tc main_v67) = _
  simp only [hostOps2]
  after_results_simp
  all_goals rw [arg9_4]
  all_goals rfl

theorem in2_r7 : W5 m ρ c (Proc.devRef .tc main_v68) = shapeCast S1x128 (m ((c : Thread nD τ).loc main_arg10)) shapeCasts_S128_S1x128 := by
  show StableHlo.after hostOps2 (W4 m ρ c) (Proc.devRef .tc main_v68) = _
  simp only [hostOps2]
  after_results_simp
  all_goals rw [arg10_4]
  all_goals rfl

theorem in2_r8 : W5 m ρ c (Proc.devRef .tc main_v69) = shapeCast S1x128 (m ((c : Thread nD τ).loc main_arg11)) shapeCasts_S128_S1x128 := by
  show StableHlo.after hostOps2 (W4 m ρ c) (Proc.devRef .tc main_v69) = _
  simp only [hostOps2]
  after_results_simp
  all_goals rw [arg11_4]
  all_goals rfl

theorem out2 : (W6 m ρ c (Proc.devRef .tc main_v70) : FVec Ideal S50000x128 .f32) = layer m c (W4 m ρ c (Proc.devRef .tc main_v52) : FVec Ideal S50000x128 .f32) := by
  refine (W6_arr m ρ c 9).trans ((Reg2.final (V5 m ρ) c).trans ?_)
  show Gin.innerArr (n := 50000) (K := 128) (H := 128) (d := 128) (W5 m ρ c (Proc.devRef .tc main_v63) : FVec Ideal S50000x128 .f32) (W5 m ρ c (Proc.devRef .tc main_v4) : FVec Ideal S128x128 .f32) (W5 m ρ c (Proc.devRef .tc main_v5) : FVec Ideal S128x128 .f32)
      (fun q => (W5 m ρ c (Proc.devRef .tc main_v64) : FVec Ideal S1x128 .f32) (ix2 o1 q)) (fun q => (W5 m ρ c (Proc.devRef .tc main_v65) : FVec Ideal S1x128 .f32) (ix2 o1 q))
      (fun q => rowAt (W5 m ρ c (Proc.devRef .tc main_v66) : FVec Ideal S1x128 .f32) q * Ideal.rsqrt (rowAt (W5 m ρ c (Proc.devRef .tc main_v69) : FVec Ideal S1x128 .f32) q + Ideal.ofBits .f32 0x3727C5AC#32))
      (fun q => (W5 m ρ c (Proc.devRef .tc main_v67) : FVec Ideal S1x128 .f32) (ix2 o1 q)) (fun q => (W5 m ρ c (Proc.devRef .tc main_v68) : FVec Ideal S1x128 .f32) (ix2 o1 q)) = _
  rw [in2_x, in2_w1, in2_w2, in2_r2, in2_r4, in2_r5, in2_r8, in2_r6, in2_r7]
  rfl

/-- Region 2 only reads main_v4 (an input window): it leaves it as it found it. -/
theorem keepIn2_1 : W6 m ρ c (Proc.devRef .tc main_v4) = W5 m ρ c (Proc.devRef .tc main_v4) := by
  refine (W6_arr m ρ c 1).trans ?_
  funext i
  refine ((dat2 (V5 m ρ) c).arrAt_apply_of_forall_not_mem 1 cfg2.N i (fun t _ hf => absurd hf ?_)).trans ?_
  · exact (by decide +kernel : ∀ t : Fin grid2.N, ¬ (cfg2.win 1).flush t = true) t
  · exact congrFun (A_eq2 (V5 m ρ) c 1) i

/-- Region 2 only reads main_v5 (an input window): it leaves it as it found it. -/
theorem keepIn2_3 : W6 m ρ c (Proc.devRef .tc main_v5) = W5 m ρ c (Proc.devRef .tc main_v5) := by
  refine (W6_arr m ρ c 3).trans ?_
  funext i
  refine ((dat2 (V5 m ρ) c).arrAt_apply_of_forall_not_mem 3 cfg2.N i (fun t _ hf => absurd hf ?_)).trans ?_
  · exact (by decide +kernel : ∀ t : Fin grid2.N, ¬ (cfg2.win 3).flush t = true) t
  · exact congrFun (A_eq2 (V5 m ρ) c 3) i

end Cert.KernelIdeal.Chain

end
-- ==== Proof.KReg3.lean ====
/-
  Inner layer 4 of 5: from the blocks its grid points write back to the whole output array.

  The grid has ten points; point t takes rows 5000·t … 5000·t + 4999 of the node array through its first window and
  writes the same rows of the output through its last; every other window is a whole small array, the same at every
  point. What point t writes back is therefore the layer's row function on its 5000 rows, and since the ten row
  blocks tile the 50000 rows the output array ends as the layer's function of the arrays the region finds.
-/
import proofs.«135258_j66949950210693_1_alg».proof.Proof.Gen.KernelIdeal.Frame
import proofs.«135258_j66949950210693_1_alg».proof.Proof.KBody
import proofs.«135258_j66949950210693_1_alg».proof.Proof.Arrays

set_option maxRecDepth 16384

noncomputable section

namespace Cert.KernelIdeal.Reg3

open Idealize.ShloMosaic Idealize.ShloMosaic.ValueIdx Idealize.ShloMosaic.TcCoe Idealize.SL.Sem
open Cert.KernelIdeal Cert.KernelIdeal.Gen Cert.KernelIdeal.Body
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the ten points -/

theorem t_lt : ∀ t : Fin cfg3.N, t.val < 10 := (by decide +kernel : ∀ t : Fin grid3.N, _)

theorem idx_in : ∀ t : Fin cfg3.N, win3_0.index t (0 : Fin 2) = t.val ∧ win3_0.index t (1 : Fin 2) = 0 :=
  (by decide +kernel : ∀ t : Fin grid3.N, _)

theorem idx_out : ∀ t : Fin cfg3.N, win3_9.index t (0 : Fin 2) = t.val ∧ win3_9.index t (1 : Fin 2) = 0 :=
  (by decide +kernel : ∀ t : Fin grid3.N, _)

theorem idx1 : ∀ t : Fin cfg3.N, win3_1.index t (0 : Fin 2) = 0 ∧ win3_1.index t (1 : Fin 2) = 0 :=
  (by decide +kernel : ∀ t : Fin grid3.N, _)

theorem idx2 : ∀ t : Fin cfg3.N, win3_2.index t (0 : Fin 2) = 0 ∧ win3_2.index t (1 : Fin 2) = 0 :=
  (by decide +kernel : ∀ t : Fin grid3.N, _)

theorem idx3 : ∀ t : Fin cfg3.N, win3_3.index t (0 : Fin 2) = 0 ∧ win3_3.index t (1 : Fin 2) = 0 :=
  (by decide +kernel : ∀ t : Fin grid3.N, _)

theorem idx4 : ∀ t : Fin cfg3.N, win3_4.index t (0 : Fin 2) = 0 ∧ win3_4.index t (1 : Fin 2) = 0 :=
  (by decide +kernel : ∀ t : Fin grid3.N, _)

theorem idx5 : ∀ t : Fin cfg3.N, win3_5.index t (0 : Fin 2) = 0 ∧ win3_5.index t (1 : Fin 2) = 0 :=
  (by decide +kernel : ∀ t : Fin grid3.N, _)

theorem idx6 : ∀ t : Fin cfg3.N, win3_6.index t (0 : Fin 2) = 0 ∧ win3_6.index t (1 : Fin 2) = 0 :=
  (by decide +kernel : ∀ t : Fin grid3.N, _)

theorem idx7 : ∀ t : Fin cfg3.N, win3_7.index t (0 : Fin 2) = 0 ∧ win3_7.index t (1 : Fin 2) = 0 :=
  (by decide +kernel : ∀ t : Fin grid3.N, _)

theorem idx8 : ∀ t : Fin cfg3.N, win3_8.index t (0 : Fin 2) = 0 ∧ win3_8.index t (1 : Fin 2) = 0 :=
  (by decide +kernel : ∀ t : Fin grid3.N, _)

theorem row_lt (t : Fin cfg3.N) (p : Fin 5000) : t.val * 5000 + p.val < 50000 := by
  have := t_lt t
  have := p.isLt
  omega

/-! ## The arrays the region finds, at their literal types -/

abbrev a0 (c : Dev nD) : S50000x128.Idx → EReal := V c (Pipeline.arrRef spec3 0)
abbrev a1 (c : Dev nD) : S128x128.Idx → EReal := V c (Pipeline.arrRef spec3 1)
abbrev a2 (c : Dev nD) : S1x128.Idx → EReal := V c (Pipeline.arrRef spec3 2)
abbrev a3 (c : Dev nD) : S128x128.Idx → EReal := V c (Pipeline.arrRef spec3 3)
abbrev a4 (c : Dev nD) : S1x128.Idx → EReal := V c (Pipeline.arrRef spec3 4)
abbrev a5 (c : Dev nD) : S1x128.Idx → EReal := V c (Pipeline.arrRef spec3 5)
abbrev a6 (c : Dev nD) : S1x128.Idx → EReal := V c (Pipeline.arrRef spec3 6)
abbrev a7 (c : Dev nD) : S1x128.Idx → EReal := V c (Pipeline.arrRef spec3 7)
abbrev a8 (c : Dev nD) : S1x128.Idx → EReal := V c (Pipeline.arrRef spec3 8)

/-! ## Each window's block at a point, read off the array the region finds -/

/-- The row window: entry (p, k) of point t's block is entry (5000·t + p, k) of the node array. -/
theorem blk0 (c : Dev nD) (t : Fin cfg3.N) (p : Fin 5000) (k : Fin 128) :
    iblk3 V c 0 t (ix2 p k)
      = a0 V c (ix2 ⟨t.val * 5000 + p.val, row_lt t p⟩ k) := by
  show V c (Pipeline.arrRef spec3 0) (((cfg3.win 0).blk t).view.emb (ix2 p k)) = _
  obtain ⟨e0, e1⟩ := idx_in t
  refine congrArg (V c (Pipeline.arrRef spec3 0)) (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

/-- Window 1 is a whole array at every point. -/
theorem blk1 (c : Dev nD) (t : Fin cfg3.N) (y : S128x128.Idx) :
    iblk3 V c 1 t y = a1 V c y := by
  show V c (Pipeline.arrRef spec3 1) (((cfg3.win 1).blk t).view.emb y) = _
  obtain ⟨e0, e1⟩ := idx1 t
  refine congrArg (V c (Pipeline.arrRef spec3 1)) (funext fun a => Fin.ext ?_)
  match a with
  | ⟨0, _⟩ => show win3_1.index t (0 : Fin 2) * 128 + 1 * (y 0).val = (y 0).val; omega
  | ⟨1, _⟩ => show win3_1.index t (1 : Fin 2) * 128 + 1 * (y 1).val = (y 1).val; omega

/-- Window 2 is a whole array at every point. -/
theorem blk2 (c : Dev nD) (t : Fin cfg3.N) (y : S1x128.Idx) :
    iblk3 V c 2 t y = a2 V c y := by
  show V c (Pipeline.arrRef spec3 2) (((cfg3.win 2).blk t).view.emb y) = _
  obtain ⟨e0, e1⟩ := idx2 t
  refine congrArg (V c (Pipeline.arrRef spec3 2)) (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Window 3 is a whole array at every point. -/
theorem blk3 (c : Dev nD) (t : Fin cfg3.N) (y : S128x128.Idx) :
    iblk3 V c 3 t y = a3 V c y := by
  show V c (Pipeline.arrRef spec3 3) (((cfg3.win 3).blk t).view.emb y) = _
  obtain ⟨e0, e1⟩ := idx3 t
  refine congrArg (V c (Pipeline.arrRef spec3 3)) (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- Window 4 is a whole array at every point. -/
theorem blk4 (c : Dev nD) (t : Fin cfg3.N) (y : S1x128.Idx) :
    iblk3 V c 4 t y = a4 V c y := by
  show V c (Pipeline.arrRef spec3 4) (((cfg3.win 4).blk t).view.emb y) = _
  obtain ⟨e0, e1⟩ := idx4 t
  refine congrArg (V c (Pipeline.arrRef spec3 4)) (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- Window 5 is a whole array at every point. -/
theorem blk5 (c : Dev nD) (t : Fin cfg3.N) (y : S1x128.Idx) :
    iblk3 V c 5 t y = a5 V c y := by
  show V c (Pipeline.arrRef spec3 5) (((cfg3.win 5).blk t).view.emb y) = _
  obtain ⟨e0, e1⟩ := idx5 t
  refine congrArg (V c (Pipeline.arrRef spec3 5)) (funext fun a => Fin.ext ?_)
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- Window 6 is a whole array at every point. -/
theorem blk6 (c : Dev nD) (t : Fin cfg3.N) (y : S1x128.Idx) :
    iblk3 V c 6 t y = a6 V c y := by
  show V c (Pipeline.arrRef spec3 6) (((cfg3.win 6).blk t).view.emb y) = _
  obtain ⟨e0, e1⟩ := idx6 t
  refine congrArg (V c (Pipeline.arrRef spec3 6)) (funext fun a => Fin.ext ?_)
  match a with
  | ⟨0, _⟩ => show win3_6.index t (0 : Fin 2) * 1 + 1 * (y 0).val = (y 0).val; omega
  | ⟨1, _⟩ => show win3_6.index t (1 : Fin 2) * 128 + 1 * (y 1).val = (y 1).val; omega

/-- Window 7 is a whole array at every point. -/
theorem blk7 (c : Dev nD) (t : Fin cfg3.N) (y : S1x128.Idx) :
    iblk3 V c 7 t y = a7 V c y := by
  show V c (Pipeline.arrRef spec3 7) (((cfg3.win 7).blk t).view.emb y) = _
  obtain ⟨e0, e1⟩ := idx7 t
  refine congrArg (V c (Pipeline.arrRef spec3 7)) (funext fun a => Fin.ext ?_)
  match a with
  | ⟨0, _⟩ => show win3_7.index t (0 : Fin 2) * 1 + 1 * (y 0).val = (y 0).val; omega
  | ⟨1, _⟩ => show win3_7.index t (1 : Fin 2) * 128 + 1 * (y 1).val = (y 1).val; omega

/-- Window 8 is a whole array at every point. -/
theorem blk8 (c : Dev nD) (t : Fin cfg3.N) (y : S1x128.Idx) :
    iblk3 V c 8 t y = a8 V c y := by
  show V c (Pipeline.arrRef spec3 8) (((cfg3.win 8).blk t).view.emb y) = _
  obtain ⟨e0, e1⟩ := idx8 t
  refine congrArg (V c (Pipeline.arrRef spec3 8)) (funext fun a => Fin.ext ?_)
  match a with
  | ⟨0, _⟩ => show win3_8.index t (0 : Fin 2) * 1 + 1 * (y 0).val = (y 0).val; omega
  | ⟨1, _⟩ => show win3_8.index t (1 : Fin 2) * 128 + 1 * (y 1).val = (y 1).val; omega

/-- Entry (p, q) of point t's output block sits at (5000·t + p, q) of the output array. -/
theorem out_emb (t : Fin cfg3.N) (p : Fin 5000) (q : Fin 128) :
    ((cfg3.win 9).blk t).view.emb (ix2 p q) = (ix2 ⟨t.val * 5000 + p.val, row_lt t p⟩ q : S50000x128.Idx) := by
  obtain ⟨e0, e1⟩ := idx_out t
  funext a
  apply Fin.ext
  match a with
  | ⟨0, _⟩ => show win3_9.index t (0 : Fin 2) * 5000 + 1 * p.val = t.val * 5000 + p.val; omega
  | ⟨1, _⟩ => show win3_9.index t (1 : Fin 2) * 128 + 1 * q.val = q.val; omega

/-! ## The output array -/

/-- What the layer's output array holds, as a function of the arrays the region finds: the node rows through the
    perceptron, rectified, normalised with scale gamma · rsqrt (var + offset). -/
def arr (c : Dev nD) : S50000x128.Idx → EReal :=
  Gin.innerArr (n := 50000) (K := 128) (H := 128) (d := 128)
    (a0 V c) (a1 V c) (a3 V c) (fun j => a2 V c (ix2 o1 j)) (fun j => a4 V c (ix2 o1 j))
    (fun j => a5 V c (ix2 o1 j) * Ideal.rsqrt (a8 V c (ix2 o1 j) + Ideal.ofBits .f32 0x3727C5AC#32))
    (fun j => a6 V c (ix2 o1 j)) (fun j => a7 V c (ix2 o1 j))

/-- What point t writes back is block t of that array. -/
theorem flushed_eq (c : Dev nD) (t : Fin cfg3.N) :
    (dat3 V c).flushed 9 t = ((cfg3.win 9).blk t).view.read (Elt Ideal) (arr V c) := by
  show (cfg3.win 9).cut (grid3.coords t) ((dat3 V c).after 9 t) = _
  rw [after3_9]
  unfold out3_9
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k3_pay1 (k3_pay2 (iblk3 V c 6 t)) (k3_pay3 (iblk3 V c 0 t) (iblk3 V c 1 t) (iblk3 V c 2 t) (iblk3 V c 3 t) (iblk3 V c 4 t) (iblk3 V c 7 t)) (k3_pay4 (iblk3 V c 5 t) (iblk3 V c 8 t)) (ix2 p q)
      = arr V c (((cfg3.win 9).blk t).view.emb (ix2 p q))
  rw [out_emb t p q]
  refine (pay_inner3 (iblk3 V c 0 t) (iblk3 V c 1 t) (iblk3 V c 2 t) (iblk3 V c 3 t) (iblk3 V c 4 t) (iblk3 V c 5 t) (iblk3 V c 6 t) (iblk3 V c 7 t) (iblk3 V c 8 t) p q).trans ?_
  rw [blk5 V c t (ix2 o1 q), blk6 V c t (ix2 o1 q), blk7 V c t (ix2 o1 q), blk8 V c t (ix2 o1 q),
    Gin.mlp_congr (x' := fun k => a0 V c (ix2 ⟨t.val * 5000 + p.val, row_lt t p⟩ k)) (w1' := a1 V c)
      (b1' := fun a => a2 V c (ix2 o1 a)) (w2' := a3 V c) (b2' := fun a => a4 V c (ix2 o1 a)) q (fun k => blk0 V c t p k) (fun a k => blk1 V c t (ix2 a k)) (fun a => blk2 V c t (ix2 o1 a))
      (fun k => blk3 V c t (ix2 q k)) (blk4 V c t (ix2 o1 q))]
  rfl

/-- The ten row blocks tile the output array. -/
theorem cover (i : S50000x128.Idx) :
    ∃ t : Fin cfg3.N, (cfg3.win 9).flush t = true ∧ i ∈ ((cfg3.win 9).blk t).view.set := by
  have hi0 : (i 0).val < 50000 := (i 0).isLt
  have hi1 : (i 1).val < 128 := (i 1).isLt
  obtain ⟨t, ht⟩ : ∃ t : Fin cfg3.N, t.val = (i 0).val / 5000 :=
    (by decide +kernel : ∀ n : Fin 10, ∃ t : Fin grid3.N, t.val = n.val) ⟨(i 0).val / 5000, by omega⟩
  obtain ⟨e0, e1⟩ := idx_out t
  refine ⟨t, flush3_9 t, ?_⟩
  show i ∈ ((View.whole (Pipeline.arrRef spec3 9)).slice (win3_9.rect t)).set
  rw [View.set_slice_whole, Rect.mem_set_unit]
  intro a
  match a with
  | ⟨0, _⟩ => show win3_9.index t (0 : Fin 2) * 5000 ≤ (i 0).val ∧ (i 0).val < win3_9.index t (0 : Fin 2) * 5000 + 5000; omega
  | ⟨1, _⟩ => show win3_9.index t (1 : Fin 2) * 128 ≤ (i 1).val ∧ (i 1).val < win3_9.index t (1 : Fin 2) * 128 + 128; omega

/-- The output array after the region. -/
theorem final (c : Dev nD) : (dat3 V c).arrAt 9 cfg3.N = arr V c :=
  (dat3 V c).arrAt_eq_of_cover 9 (arr V c) (fun t _ => flushed_eq V c t) (cover)

end Cert.KernelIdeal.Reg3

end
-- ==== Proof.KC5.lean ====
/-
  Inner layer 4: the buffers walked back to the first boundary, its windows' contents, and what it leaves.
-/
import proofs.«135258_j66949950210693_1_alg».proof.Proof.KC4
import proofs.«135258_j66949950210693_1_alg».proof.Proof.KReg3

set_option maxRecDepth 16384
set_option maxHeartbeats 2000000

noncomputable section

namespace Cert.KernelIdeal.Chain

open Idealize.ShloMosaic Idealize.ShloMosaic.ValueIdx Idealize.ShloMosaic.TcCoe Idealize.SL.Sem Idealize.ShloMosaic.StableHlo
open Cert.KernelIdeal Cert.KernelIdeal.Gen Cert.KernelIdeal.Body

variable (m : (ℓ : Loc nD τ sig) → Buf (Elt Ideal) ℓ) (ρ : Dev nD → PrngReg) (c : Dev nD)

/-! ## Inner layer 4: its entry (boundary 7) and what it leaves -/

theorem src6 : W6 m ρ c (Proc.devRef .tc main_v1) = src m c :=
  ((W6_of_ne m ρ c main_v1 (by decide)).trans ((keepH2 (W4 m ρ c) main_v1 (by decide)).trans ((W4_of_ne m ρ c main_v1 (by decide)).trans ((keepH1 (W2 m ρ c) main_v1 (by decide)).trans ((W2_of_ne m ρ c main_v1 (by decide)).trans rfl))))).trans (b1_src m ρ c)

theorem dst6 : W6 m ρ c (Proc.devRef .tc main_v3) = dst m c :=
  ((W6_of_ne m ρ c main_v3 (by decide)).trans ((keepH2 (W4 m ρ c) main_v3 (by decide)).trans ((W4_of_ne m ρ c main_v3 (by decide)).trans ((keepH1 (W2 m ρ c) main_v3 (by decide)).trans ((W2_of_ne m ρ c main_v3 (by decide)).trans rfl))))).trans (b1_dst m ρ c)

theorem arg5_6 : W6 m ρ c (Proc.devRef .tc main_arg5) = (m ((c : Thread nD τ).loc main_arg5)) :=
  (((W6_of_ne m ρ c main_arg5 (by decide)).trans ((keepH2 (W4 m ρ c) main_arg5 (by decide)).trans ((W4_of_ne m ρ c main_arg5 (by decide)).trans ((keepH1 (W2 m ρ c) main_arg5 (by decide)).trans ((W2_of_ne m ρ c main_arg5 (by decide)).trans rfl))))).trans ((keepH0 (W0 m ρ c) main_arg5 (by decide)).trans rfl))

theorem arg7_6 : W6 m ρ c (Proc.devRef .tc main_arg7) = (m ((c : Thread nD τ).loc main_arg7)) :=
  (((W6_of_ne m ρ c main_arg7 (by decide)).trans ((keepH2 (W4 m ρ c) main_arg7 (by decide)).trans ((W4_of_ne m ρ c main_arg7 (by decide)).trans ((keepH1 (W2 m ρ c) main_arg7 (by decide)).trans ((W2_of_ne m ρ c main_arg7 (by decide)).trans rfl))))).trans ((keepH0 (W0 m ρ c) main_arg7 (by decide)).trans rfl))

theorem arg8_6 : W6 m ρ c (Proc.devRef .tc main_arg8) = (m ((c : Thread nD τ).loc main_arg8)) :=
  (((W6_of_ne m ρ c main_arg8 (by decide)).trans ((keepH2 (W4 m ρ c) main_arg8 (by decide)).trans ((W4_of_ne m ρ c main_arg8 (by decide)).trans ((keepH1 (W2 m ρ c) main_arg8 (by decide)).trans ((W2_of_ne m ρ c main_arg8 (by decide)).trans rfl))))).trans ((keepH0 (W0 m ρ c) main_arg8 (by decide)).trans rfl))

theorem arg9_6 : W6 m ρ c (Proc.devRef .tc main_arg9) = (m ((c : Thread nD τ).loc main_arg9)) :=
  (((W6_of_ne m ρ c main_arg9 (by decide)).trans ((keepH2 (W4 m ρ c) main_arg9 (by decide)).trans ((W4_of_ne m ρ c main_arg9 (by decide)).trans ((keepH1 (W2 m ρ c) main_arg9 (by decide)).trans ((W2_of_ne m ρ c main_arg9 (by decide)).trans rfl))))).trans ((keepH0 (W0 m ρ c) main_arg9 (by decide)).trans rfl))

theorem arg10_6 : W6 m ρ c (Proc.devRef .tc main_arg10) = (m ((c : Thread nD τ).loc main_arg10)) :=
  (((W6_of_ne m ρ c main_arg10 (by decide)).trans ((keepH2 (W4 m ρ c) main_arg10 (by decide)).trans ((W4_of_ne m ρ c main_arg10 (by decide)).trans ((keepH1 (W2 m ρ c) main_arg10 (by decide)).trans ((W2_of_ne m ρ c main_arg10 (by decide)).trans rfl))))).trans ((keepH0 (W0 m ρ c) main_arg10 (by decide)).trans rfl))

theorem arg11_6 : W6 m ρ c (Proc.devRef .tc main_arg11) = (m ((c : Thread nD τ).loc main_arg11)) :=
  (((W6_of_ne m ρ c main_arg11 (by decide)).trans ((keepH2 (W4 m ρ c) main_arg11 (by decide)).trans ((W4_of_ne m ρ c main_arg11 (by decide)).trans ((keepH1 (W2 m ρ c) main_arg11 (by decide)).trans ((W2_of_ne m ρ c main_arg11 (by decide)).trans rfl))))).trans ((keepH0 (W0 m ρ c) main_arg11 (by decide)).trans rfl))

theorem in3_x : W7 m ρ c (Proc.devRef .tc main_v81) = agg m c (W6 m ρ c (Proc.devRef .tc main_v70) : FVec Ideal S50000x128 .f32) := by
  show StableHlo.after hostOps3 (W6 m ρ c) (Proc.devRef .tc main_v81) = _
  simp only [hostOps3]
  after_results_simp
  all_goals rw [src6, dst6]
  all_goals rfl

theorem in3_w1 : W7 m ρ c (Proc.devRef .tc main_v4) = truncf (F := Ideal) .bf16 (m ((c : Thread nD τ).loc main_arg4)) bitsLt_bf16_f32 :=
  ((keepH3 (W6 m ρ c) main_v4 (by decide)).trans ((keepIn2_1 m ρ c).trans ((keepH2 (W4 m ρ c) main_v4 (by decide)).trans ((keepIn1_1 m ρ c).trans ((keepH1 (W2 m ρ c) main_v4 (by decide)).trans ((keepIn0_1 m ρ c).trans rfl)))))).trans (b1_main_v4 m ρ c)

theorem in3_w2 : W7 m ρ c (Proc.devRef .tc main_v5) = truncf (F := Ideal) .bf16 (m ((c : Thread nD τ).loc main_arg6)) bitsLt_bf16_f32 :=
  ((keepH3 (W6 m ρ c) main_v5 (by decide)).trans ((keepIn2_3 m ρ c).trans ((keepH2 (W4 m ρ c) main_v5 (by decide)).trans ((keepIn1_3 m ρ c).trans ((keepH1 (W2 m ρ c) main_v5 (by decide)).trans ((keepIn0_3 m ρ c).trans rfl)))))).trans (b1_main_v5 m ρ c)

theorem in3_r2 : W7 m ρ c (Proc.devRef .tc main_v82) = shapeCast S1x128 (m ((c : Thread nD τ).loc main_arg5)) shapeCasts_S128_S1x128 := by
  show StableHlo.after hostOps3 (W6 m ρ c) (Proc.devRef .tc main_v82) = _
  simp only [hostOps3]
  after_results_simp
  all_goals rw [arg5_6]
  all_goals rfl

theorem in3_r4 : W7 m ρ c (Proc.devRef .tc main_v83) = shapeCast S1x128 (m ((c : Thread nD τ).loc main_arg7)) shapeCasts_S128_S1x128 := by
  show StableHlo.after hostOps3 (W6 m ρ c) (Proc.devRef .tc main_v83) = _
  simp only [hostOps3]
  after_results_simp
  all_goals rw [arg7_6]
  all_goals rfl

theorem in3_r5 : W7 m ρ c (Proc.devRef .tc main_v84) = shapeCast S1x128 (m ((c : Thread nD τ).loc main_arg8)) shapeCasts_S128_S1x128 := by
  show StableHlo.after hostOps3 (W6 m ρ c) (Proc.devRef .tc main_v84) = _
  simp only [hostOps3]
  after_results_simp
  all_goals rw [arg8_6]
  all_goals rfl

theorem in3_r6 : W7 m ρ c (Proc.devRef .tc main_v85) = shapeCast S1x128 (m ((c : Thread nD τ).loc main_arg9)) shapeCasts_S128_S1x128 := by
  show StableHlo.after hostOps3 (W6 m ρ c) (Proc.devRef .tc main_v85) = _
  simp only [hostOps3]
  after_results_simp
  all_goals rw [arg9_6]
  all_goals rfl

theorem in3_r7 : W7 m ρ c (Proc.devRef .tc main_v86) = shapeCast S1x128 (m ((c : Thread nD τ).loc main_arg10)) shapeCasts_S128_S1x128 := by
  show StableHlo.after hostOps3 (W6 m ρ c) (Proc.devRef .tc main_v86) = _
  simp only [hostOps3]
  after_results_simp
  all_goals rw [arg10_6]
  all_goals rfl

theorem in3_r8 : W7 m ρ c (Proc.devRef .tc main_v87) = shapeCast S1x128 (m ((c : Thread nD τ).loc main_arg11)) shapeCasts_S128_S1x128 := by
  show StableHlo.after hostOps3 (W6 m ρ c) (Proc.devRef .tc main_v87) = _
  simp only [hostOps3]
  after_results_simp
  all_goals rw [arg11_6]
  all_goals rfl

theorem out3 : (W8 m ρ c (Proc.devRef .tc main_v88) : FVec Ideal S50000x128 .f32) = layer m c (W6 m ρ c (Proc.devRef .tc main_v70) : FVec Ideal S50000x128 .f32) := by
  refine (W8_arr m ρ c 9).trans ((Reg3.final (V7 m ρ) c).trans ?_)
  show Gin.innerArr (n := 50000) (K := 128) (H := 128) (d := 128) (W7 m ρ c (Proc.devRef .tc main_v81) : FVec Ideal S50000x128 .f32) (W7 m ρ c (Proc.devRef .tc main_v4) : FVec Ideal S128x128 .f32) (W7 m ρ c (Proc.devRef .tc main_v5) : FVec Ideal S128x128 .f32)
      (fun q => (W7 m ρ c (Proc.devRef .tc main_v82) : FVec Ideal S1x128 .f32) (ix2 o1 q)) (fun q => (W7 m ρ c (Proc.devRef .tc main_v83) : FVec Ideal S1x128 .f32) (ix2 o1 q))
      (fun q => rowAt (W7 m ρ c (Proc.devRef .tc main_v84) : FVec Ideal S1x128 .f32) q * Ideal.rsqrt (rowAt (W7 m ρ c (Proc.devRef .tc main_v87) : FVec Ideal S1x128 .f32) q + Ideal.ofBits .f32 0x3727C5AC#32))
      (fun q => (W7 m ρ c (Proc.devRef .tc main_v85) : FVec Ideal S1x128 .f32) (ix2 o1 q)) (fun q => (W7 m ρ c (Proc.devRef .tc main_v86) : FVec Ideal S1x128 .f32) (ix2 o1 q)) = _
  rw [in3_x, in3_w1, in3_w2, in3_r2, in3_r4, in3_r5, in3_r8, in3_r6, in3_r7]
  rfl

/-- Region 3 only reads main_v4 (an input window): it leaves it as it found it. -/
theorem keepIn3_1 : W8 m ρ c (Proc.devRef .tc main_v4) = W7 m ρ c (Proc.devRef .tc main_v4) := by
  refine (W8_arr m ρ c 1).trans ?_
  funext i
  refine ((dat3 (V7 m ρ) c).arrAt_apply_of_forall_not_mem 1 cfg3.N i (fun t _ hf => absurd hf ?_)).trans ?_
  · exact (by decide +kernel : ∀ t : Fin grid3.N, ¬ (cfg3.win 1).flush t = true) t
  · exact congrFun (A_eq3 (V7 m ρ) c 1) i

/-- Region 3 only reads main_v5 (an input window): it leaves it as it found it. -/
theorem keepIn3_3 : W8 m ρ c (Proc.devRef .tc main_v5) = W7 m ρ c (Proc.devRef .tc main_v5) := by
  refine (W8_arr m ρ c 3).trans ?_
  funext i
  refine ((dat3 (V7 m ρ) c).arrAt_apply_of_forall_not_mem 3 cfg3.N i (fun t _ hf => absurd hf ?_)).trans ?_
  · exact (by decide +kernel : ∀ t : Fin grid3.N, ¬ (cfg3.win 3).flush t = true) t
  · exact congrFun (A_eq3 (V7 m ρ) c 3) i

end Cert.KernelIdeal.Chain

end
-- ==== Proof.KReg4.lean ====
/-
  Inner layer 5 of 5: from the blocks its grid points write back to the whole output array.

  The grid has ten points; point t takes rows 5000·t … 5000·t + 4999 of the node array through its first window and
  writes the same rows of the output through its last; every other window is a whole small array, the same at every
  point. What point t writes back is therefore the layer's row function on its 5000 rows, and since the ten row
  blocks tile the 50000 rows the output array ends as the layer's function of the arrays the region finds.
-/
import proofs.«135258_j66949950210693_1_alg».proof.Proof.Gen.KernelIdeal.Frame
import proofs.«135258_j66949950210693_1_alg».proof.Proof.KBody
import proofs.«135258_j66949950210693_1_alg».proof.Proof.Arrays

set_option maxRecDepth 16384

noncomputable section

namespace Cert.KernelIdeal.Reg4

open Idealize.ShloMosaic Idealize.ShloMosaic.ValueIdx Idealize.ShloMosaic.TcCoe Idealize.SL.Sem
open Cert.KernelIdeal Cert.KernelIdeal.Gen Cert.KernelIdeal.Body
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the ten points -/

theorem t_lt : ∀ t : Fin cfg4.N, t.val < 10 := (by decide +kernel : ∀ t : Fin grid4.N, _)

theorem idx_in : ∀ t : Fin cfg4.N, win4_0.index t (0 : Fin 2) = t.val ∧ win4_0.index t (1 : Fin 2) = 0 :=
  (by decide +kernel : ∀ t : Fin grid4.N, _)

theorem idx_out : ∀ t : Fin cfg4.N, win4_9.index t (0 : Fin 2) = t.val ∧ win4_9.index t (1 : Fin 2) = 0 :=
  (by decide +kernel : ∀ t : Fin grid4.N, _)

theorem idx1 : ∀ t : Fin cfg4.N, win4_1.index t (0 : Fin 2) = 0 ∧ win4_1.index t (1 : Fin 2) = 0 :=
  (by decide +kernel : ∀ t : Fin grid4.N, _)

theorem idx2 : ∀ t : Fin cfg4.N, win4_2.index t (0 : Fin 2) = 0 ∧ win4_2.index t (1 : Fin 2) = 0 :=
  (by decide +kernel : ∀ t : Fin grid4.N, _)

theorem idx3 : ∀ t : Fin cfg4.N, win4_3.index t (0 : Fin 2) = 0 ∧ win4_3.index t (1 : Fin 2) = 0 :=
  (by decide +kernel : ∀ t : Fin grid4.N, _)

theorem idx4 : ∀ t : Fin cfg4.N, win4_4.index t (0 : Fin 2) = 0 ∧ win4_4.index t (1 : Fin 2) = 0 :=
  (by decide +kernel : ∀ t : Fin grid4.N, _)

theorem idx5 : ∀ t : Fin cfg4.N, win4_5.index t (0 : Fin 2) = 0 ∧ win4_5.index t (1 : Fin 2) = 0 :=
  (by decide +kernel : ∀ t : Fin grid4.N, _)

theorem idx6 : ∀ t : Fin cfg4.N, win4_6.index t (0 : Fin 2) = 0 ∧ win4_6.index t (1 : Fin 2) = 0 :=
  (by decide +kernel : ∀ t : Fin grid4.N, _)

theorem idx7 : ∀ t : Fin cfg4.N, win4_7.index t (0 : Fin 2) = 0 ∧ win4_7.index t (1 : Fin 2) = 0 :=
  (by decide +kernel : ∀ t : Fin grid4.N, _)

theorem idx8 : ∀ t : Fin cfg4.N, win4_8.index t (0 : Fin 2) = 0 ∧ win4_8.index t (1 : Fin 2) = 0 :=
  (by decide +kernel : ∀ t : Fin grid4.N, _)

theorem row_lt (t : Fin cfg4.N) (p : Fin 5000) : t.val * 5000 + p.val < 50000 := by
  have := t_lt t
  have := p.isLt
  omega

/-! ## The arrays the region finds, at their literal types -/

abbrev a0 (c : Dev nD) : S50000x128.Idx → EReal := V c (Pipeline.arrRef spec4 0)
abbrev a1 (c : Dev nD) : S128x128.Idx → EReal := V c (Pipeline.arrRef spec4 1)
abbrev a2 (c : Dev nD) : S1x128.Idx → EReal := V c (Pipeline.arrRef spec4 2)
abbrev a3 (c : Dev nD) : S128x128.Idx → EReal := V c (Pipeline.arrRef spec4 3)
abbrev a4 (c : Dev nD) : S1x128.Idx → EReal := V c (Pipeline.arrRef spec4 4)
abbrev a5 (c : Dev nD) : S1x128.Idx → EReal := V c (Pipeline.arrRef spec4 5)
abbrev a6 (c : Dev nD) : S1x128.Idx → EReal := V c (Pipeline.arrRef spec4 6)
abbrev a7 (c : Dev nD) : S1x128.Idx → EReal := V c (Pipeline.arrRef spec4 7)
abbrev a8 (c : Dev nD) : S1x128.Idx → EReal := V c (Pipeline.arrRef spec4 8)

/-! ## Each window's block at a point, read off the array the region finds -/

/-- The row window: entry (p, k) of point t's block is entry (5000·t + p, k) of the node array. -/
theorem blk0 (c : Dev nD) (t : Fin cfg4.N) (p : Fin 5000) (k : Fin 128) :
    iblk4 V c 0 t (ix2 p k)
      = a0 V c (ix2 ⟨t.val * 5000 + p.val, row_lt t p⟩ k) := by
  show V c (Pipeline.arrRef spec4 0) (((cfg4.win 0).blk t).view.emb (ix2 p k)) = _
  obtain ⟨e0, e1⟩ := idx_in t
  refine congrArg (V c (Pipeline.arrRef spec4 0)) (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * k.val = k.val; omega

/-- Window 1 is a whole array at every point. -/
theorem blk1 (c : Dev nD) (t : Fin cfg4.N) (y : S128x128.Idx) :
    iblk4 V c 1 t y = a1 V c y := by
  show V c (Pipeline.arrRef spec4 1) (((cfg4.win 1).blk t).view.emb y) = _
  obtain ⟨e0, e1⟩ := idx1 t
  refine congrArg (V c (Pipeline.arrRef spec4 1)) (funext fun a => Fin.ext ?_)
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- Window 2 is a whole array at every point. -/
theorem blk2 (c : Dev nD) (t : Fin cfg4.N) (y : S1x128.Idx) :
    iblk4 V c 2 t y = a2 V c y := by
  show V c (Pipeline.arrRef spec4 2) (((cfg4.win 2).blk t).view.emb y) = _
  obtain ⟨e0, e1⟩ := idx2 t
  refine congrArg (V c (Pipeline.arrRef spec4 2)) (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- Window 3 is a whole array at every point. -/
theorem blk3 (c : Dev nD) (t : Fin cfg4.N) (y : S128x128.Idx) :
    iblk4 V c 3 t y = a3 V c y := by
  show V c (Pipeline.arrRef spec4 3) (((cfg4.win 3).blk t).view.emb y) = _
  obtain ⟨e0, e1⟩ := idx3 t
  refine congrArg (V c (Pipeline.arrRef spec4 3)) (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- Window 4 is a whole array at every point. -/
theorem blk4 (c : Dev nD) (t : Fin cfg4.N) (y : S1x128.Idx) :
    iblk4 V c 4 t y = a4 V c y := by
  show V c (Pipeline.arrRef spec4 4) (((cfg4.win 4).blk t).view.emb y) = _
  obtain ⟨e0, e1⟩ := idx4 t
  refine congrArg (V c (Pipeline.arrRef spec4 4)) (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- Window 5 is a whole array at every point. -/
theorem blk5 (c : Dev nD) (t : Fin cfg4.N) (y : S1x128.Idx) :
    iblk4 V c 5 t y = a5 V c y := by
  show V c (Pipeline.arrRef spec4 5) (((cfg4.win 5).blk t).view.emb y) = _
  obtain ⟨e0, e1⟩ := idx5 t
  refine congrArg (V c (Pipeline.arrRef spec4 5)) (funext fun a => Fin.ext ?_)
  match a with
  | ⟨0, _⟩ => show win4_5.index t (0 : Fin 2) * 1 + 1 * (y 0).val = (y 0).val; omega
  | ⟨1, _⟩ => show win4_5.index t (1 : Fin 2) * 128 + 1 * (y 1).val = (y 1).val; omega

/-- Window 6 is a whole array at every point. -/
theorem blk6 (c : Dev nD) (t : Fin cfg4.N) (y : S1x128.Idx) :
    iblk4 V c 6 t y = a6 V c y := by
  show V c (Pipeline.arrRef spec4 6) (((cfg4.win 6).blk t).view.emb y) = _
  obtain ⟨e0, e1⟩ := idx6 t
  refine congrArg (V c (Pipeline.arrRef spec4 6)) (funext fun a => Fin.ext ?_)
  match a with
  | ⟨0, _⟩ => show win4_6.index t (0 : Fin 2) * 1 + 1 * (y 0).val = (y 0).val; omega
  | ⟨1, _⟩ => show win4_6.index t (1 : Fin 2) * 128 + 1 * (y 1).val = (y 1).val; omega

/-- Window 7 is a whole array at every point. -/
theorem blk7 (c : Dev nD) (t : Fin cfg4.N) (y : S1x128.Idx) :
    iblk4 V c 7 t y = a7 V c y := by
  show V c (Pipeline.arrRef spec4 7) (((cfg4.win 7).blk t).view.emb y) = _
  obtain ⟨e0, e1⟩ := idx7 t
  refine congrArg (V c (Pipeline.arrRef spec4 7)) (funext fun a => Fin.ext ?_)
  match a with
  | ⟨0, _⟩ => show win4_7.index t (0 : Fin 2) * 1 + 1 * (y 0).val = (y 0).val; omega
  | ⟨1, _⟩ => show win4_7.index t (1 : Fin 2) * 128 + 1 * (y 1).val = (y 1).val; omega

/-- Window 8 is a whole array at every point. -/
theorem blk8 (c : Dev nD) (t : Fin cfg4.N) (y : S1x128.Idx) :
    iblk4 V c 8 t y = a8 V c y := by
  show V c (Pipeline.arrRef spec4 8) (((cfg4.win 8).blk t).view.emb y) = _
  obtain ⟨e0, e1⟩ := idx8 t
  refine congrArg (V c (Pipeline.arrRef spec4 8)) (funext fun a => Fin.ext ?_)
  match a with
  | ⟨0, _⟩ => show win4_8.index t (0 : Fin 2) * 1 + 1 * (y 0).val = (y 0).val; omega
  | ⟨1, _⟩ => show win4_8.index t (1 : Fin 2) * 128 + 1 * (y 1).val = (y 1).val; omega

/-- Entry (p, q) of point t's output block sits at (5000·t + p, q) of the output array. -/
theorem out_emb (t : Fin cfg4.N) (p : Fin 5000) (q : Fin 128) :
    ((cfg4.win 9).blk t).view.emb (ix2 p q) = (ix2 ⟨t.val * 5000 + p.val, row_lt t p⟩ q : S50000x128.Idx) := by
  obtain ⟨e0, e1⟩ := idx_out t
  funext a
  apply Fin.ext
  match a with
  | ⟨0, _⟩ => show win4_9.index t (0 : Fin 2) * 5000 + 1 * p.val = t.val * 5000 + p.val; omega
  | ⟨1, _⟩ => show win4_9.index t (1 : Fin 2) * 128 + 1 * q.val = q.val; omega

/-! ## The output array -/

/-- What the layer's output array holds, as a function of the arrays the region finds: the node rows through the
    perceptron, rectified, normalised with scale gamma · rsqrt (var + offset). -/
def arr (c : Dev nD) : S50000x128.Idx → EReal :=
  Gin.innerArr (n := 50000) (K := 128) (H := 128) (d := 128)
    (a0 V c) (a1 V c) (a3 V c) (fun j => a2 V c (ix2 o1 j)) (fun j => a4 V c (ix2 o1 j))
    (fun j => a5 V c (ix2 o1 j) * Ideal.rsqrt (a8 V c (ix2 o1 j) + Ideal.ofBits .f32 0x3727C5AC#32))
    (fun j => a6 V c (ix2 o1 j)) (fun j => a7 V c (ix2 o1 j))

/-- What point t writes back is block t of that array. -/
theorem flushed_eq (c : Dev nD) (t : Fin cfg4.N) :
    (dat4 V c).flushed 9 t = ((cfg4.win 9).blk t).view.read (Elt Ideal) (arr V c) := by
  show (cfg4.win 9).cut (grid4.coords t) ((dat4 V c).after 9 t) = _
  rw [after4_9]
  unfold out4_9
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k4_pay1 (k4_pay2 (iblk4 V c 6 t)) (k4_pay3 (iblk4 V c 0 t) (iblk4 V c 1 t) (iblk4 V c 2 t) (iblk4 V c 3 t) (iblk4 V c 4 t) (iblk4 V c 7 t)) (k4_pay4 (iblk4 V c 5 t) (iblk4 V c 8 t)) (ix2 p q)
      = arr V c (((cfg4.win 9).blk t).view.emb (ix2 p q))
  rw [out_emb t p q]
  refine (pay_inner4 (iblk4 V c 0 t) (iblk4 V c 1 t) (iblk4 V c 2 t) (iblk4 V c 3 t) (iblk4 V c 4 t) (iblk4 V c 5 t) (iblk4 V c 6 t) (iblk4 V c 7 t) (iblk4 V c 8 t) p q).trans ?_
  rw [blk5 V c t (ix2 o1 q), blk6 V c t (ix2 o1 q), blk7 V c t (ix2 o1 q), blk8 V c t (ix2 o1 q),
    Gin.mlp_congr (x' := fun k => a0 V c (ix2 ⟨t.val * 5000 + p.val, row_lt t p⟩ k)) (w1' := a1 V c)
      (b1' := fun a => a2 V c (ix2 o1 a)) (w2' := a3 V c) (b2' := fun a => a4 V c (ix2 o1 a)) q (fun k => blk0 V c t p k) (fun a k => blk1 V c t (ix2 a k)) (fun a => blk2 V c t (ix2 o1 a))
      (fun k => blk3 V c t (ix2 q k)) (blk4 V c t (ix2 o1 q))]
  rfl

/-- The ten row blocks tile the output array. -/
theorem cover (i : S50000x128.Idx) :
    ∃ t : Fin cfg4.N, (cfg4.win 9).flush t = true ∧ i ∈ ((cfg4.win 9).blk t).view.set := by
  have hi0 : (i 0).val < 50000 := (i 0).isLt
  have hi1 : (i 1).val < 128 := (i 1).isLt
  obtain ⟨t, ht⟩ : ∃ t : Fin cfg4.N, t.val = (i 0).val / 5000 :=
    (by decide +kernel : ∀ n : Fin 10, ∃ t : Fin grid4.N, t.val = n.val) ⟨(i 0).val / 5000, by omega⟩
  obtain ⟨e0, e1⟩ := idx_out t
  refine ⟨t, flush4_9 t, ?_⟩
  show i ∈ ((View.whole (Pipeline.arrRef spec4 9)).slice (win4_9.rect t)).set
  rw [View.set_slice_whole, Rect.mem_set_unit]
  intro a
  match a with
  | ⟨0, _⟩ => show win4_9.index t (0 : Fin 2) * 5000 ≤ (i 0).val ∧ (i 0).val < win4_9.index t (0 : Fin 2) * 5000 + 5000; omega
  | ⟨1, _⟩ => show win4_9.index t (1 : Fin 2) * 128 ≤ (i 1).val ∧ (i 1).val < win4_9.index t (1 : Fin 2) * 128 + 128; omega

/-- The output array after the region. -/
theorem final (c : Dev nD) : (dat4 V c).arrAt 9 cfg4.N = arr V c :=
  (dat4 V c).arrAt_eq_of_cover 9 (arr V c) (fun t _ => flushed_eq V c t) (cover)

end Cert.KernelIdeal.Reg4

end
-- ==== Proof.KC6.lean ====
/-
  Inner layer 5: the buffers walked back to the first boundary, its windows' contents, and what it leaves.
-/
import proofs.«135258_j66949950210693_1_alg».proof.Proof.KC5
import proofs.«135258_j66949950210693_1_alg».proof.Proof.KReg4

set_option maxRecDepth 16384
set_option maxHeartbeats 2000000

noncomputable section

namespace Cert.KernelIdeal.Chain

open Idealize.ShloMosaic Idealize.ShloMosaic.ValueIdx Idealize.ShloMosaic.TcCoe Idealize.SL.Sem Idealize.ShloMosaic.StableHlo
open Cert.KernelIdeal Cert.KernelIdeal.Gen Cert.KernelIdeal.Body

variable (m : (ℓ : Loc nD τ sig) → Buf (Elt Ideal) ℓ) (ρ : Dev nD → PrngReg) (c : Dev nD)

/-! ## Inner layer 5: its entry (boundary 9) and what it leaves -/

theorem src8 : W8 m ρ c (Proc.devRef .tc main_v1) = src m c :=
  ((W8_of_ne m ρ c main_v1 (by decide)).trans ((keepH3 (W6 m ρ c) main_v1 (by decide)).trans ((W6_of_ne m ρ c main_v1 (by decide)).trans ((keepH2 (W4 m ρ c) main_v1 (by decide)).trans ((W4_of_ne m ρ c main_v1 (by decide)).trans ((keepH1 (W2 m ρ c) main_v1 (by decide)).trans ((W2_of_ne m ρ c main_v1 (by decide)).trans rfl))))))).trans (b1_src m ρ c)

theorem dst8 : W8 m ρ c (Proc.devRef .tc main_v3) = dst m c :=
  ((W8_of_ne m ρ c main_v3 (by decide)).trans ((keepH3 (W6 m ρ c) main_v3 (by decide)).trans ((W6_of_ne m ρ c main_v3 (by decide)).trans ((keepH2 (W4 m ρ c) main_v3 (by decide)).trans ((W4_of_ne m ρ c main_v3 (by decide)).trans ((keepH1 (W2 m ρ c) main_v3 (by decide)).trans ((W2_of_ne m ρ c main_v3 (by decide)).trans rfl))))))).trans (b1_dst m ρ c)

theorem arg5_8 : W8 m ρ c (Proc.devRef .tc main_arg5) = (m ((c : Thread nD τ).loc main_arg5)) :=
  (((W8_of_ne m ρ c main_arg5 (by decide)).trans ((keepH3 (W6 m ρ c) main_arg5 (by decide)).trans ((W6_of_ne m ρ c main_arg5 (by decide)).trans ((keepH2 (W4 m ρ c) main_arg5 (by decide)).trans ((W4_of_ne m ρ c main_arg5 (by decide)).trans ((keepH1 (W2 m ρ c) main_arg5 (by decide)).trans ((W2_of_ne m ρ c main_arg5 (by decide)).trans rfl))))))).trans ((keepH0 (W0 m ρ c) main_arg5 (by decide)).trans rfl))

theorem arg7_8 : W8 m ρ c (Proc.devRef .tc main_arg7) = (m ((c : Thread nD τ).loc main_arg7)) :=
  (((W8_of_ne m ρ c main_arg7 (by decide)).trans ((keepH3 (W6 m ρ c) main_arg7 (by decide)).trans ((W6_of_ne m ρ c main_arg7 (by decide)).trans ((keepH2 (W4 m ρ c) main_arg7 (by decide)).trans ((W4_of_ne m ρ c main_arg7 (by decide)).trans ((keepH1 (W2 m ρ c) main_arg7 (by decide)).trans ((W2_of_ne m ρ c main_arg7 (by decide)).trans rfl))))))).trans ((keepH0 (W0 m ρ c) main_arg7 (by decide)).trans rfl))

theorem arg8_8 : W8 m ρ c (Proc.devRef .tc main_arg8) = (m ((c : Thread nD τ).loc main_arg8)) :=
  (((W8_of_ne m ρ c main_arg8 (by decide)).trans ((keepH3 (W6 m ρ c) main_arg8 (by decide)).trans ((W6_of_ne m ρ c main_arg8 (by decide)).trans ((keepH2 (W4 m ρ c) main_arg8 (by decide)).trans ((W4_of_ne m ρ c main_arg8 (by decide)).trans ((keepH1 (W2 m ρ c) main_arg8 (by decide)).trans ((W2_of_ne m ρ c main_arg8 (by decide)).trans rfl))))))).trans ((keepH0 (W0 m ρ c) main_arg8 (by decide)).trans rfl))

theorem arg9_8 : W8 m ρ c (Proc.devRef .tc main_arg9) = (m ((c : Thread nD τ).loc main_arg9)) :=
  (((W8_of_ne m ρ c main_arg9 (by decide)).trans ((keepH3 (W6 m ρ c) main_arg9 (by decide)).trans ((W6_of_ne m ρ c main_arg9 (by decide)).trans ((keepH2 (W4 m ρ c) main_arg9 (by decide)).trans ((W4_of_ne m ρ c main_arg9 (by decide)).trans ((keepH1 (W2 m ρ c) main_arg9 (by decide)).trans ((W2_of_ne m ρ c main_arg9 (by decide)).trans rfl))))))).trans ((keepH0 (W0 m ρ c) main_arg9 (by decide)).trans rfl))

theorem arg10_8 : W8 m ρ c (Proc.devRef .tc main_arg10) = (m ((c : Thread nD τ).loc main_arg10)) :=
  (((W8_of_ne m ρ c main_arg10 (by decide)).trans ((keepH3 (W6 m ρ c) main_arg10 (by decide)).trans ((W6_of_ne m ρ c main_arg10 (by decide)).trans ((keepH2 (W4 m ρ c) main_arg10 (by decide)).trans ((W4_of_ne m ρ c main_arg10 (by decide)).trans ((keepH1 (W2 m ρ c) main_arg10 (by decide)).trans ((W2_of_ne m ρ c main_arg10 (by decide)).trans rfl))))))).trans ((keepH0 (W0 m ρ c) main_arg10 (by decide)).trans rfl))

theorem arg11_8 : W8 m ρ c (Proc.devRef .tc main_arg11) = (m ((c : Thread nD τ).loc main_arg11)) :=
  (((W8_of_ne m ρ c main_arg11 (by decide)).trans ((keepH3 (W6 m ρ c) main_arg11 (by decide)).trans ((W6_of_ne m ρ c main_arg11 (by decide)).trans ((keepH2 (W4 m ρ c) main_arg11 (by decide)).trans ((W4_of_ne m ρ c main_arg11 (by decide)).trans ((keepH1 (W2 m ρ c) main_arg11 (by decide)).trans ((W2_of_ne m ρ c main_arg11 (by decide)).trans rfl))))))).trans ((keepH0 (W0 m ρ c) main_arg11 (by decide)).trans rfl))

theorem in4_x : W9 m ρ c (Proc.devRef .tc main_v99) = agg m c (W8 m ρ c (Proc.devRef .tc main_v88) : FVec Ideal S50000x128 .f32) := by
  show StableHlo.after hostOps4 (W8 m ρ c) (Proc.devRef .tc main_v99) = _
  simp only [hostOps4]
  after_results_simp
  all_goals rw [src8, dst8]
  all_goals rfl

theorem in4_w1 : W9 m ρ c (Proc.devRef .tc main_v4) = truncf (F := Ideal) .bf16 (m ((c : Thread nD τ).loc main_arg4)) bitsLt_bf16_f32 :=
  ((keepH4 (W8 m ρ c) main_v4 (by decide)).trans ((keepIn3_1 m ρ c).trans ((keepH3 (W6 m ρ c) main_v4 (by decide)).trans ((keepIn2_1 m ρ c).trans ((keepH2 (W4 m ρ c) main_v4 (by decide)).trans ((keepIn1_1 m ρ c).trans ((keepH1 (W2 m ρ c) main_v4 (by decide)).trans ((keepIn0_1 m ρ c).trans rfl)))))))).trans (b1_main_v4 m ρ c)

theorem in4_w2 : W9 m ρ c (Proc.devRef .tc main_v5) = truncf (F := Ideal) .bf16 (m ((c : Thread nD τ).loc main_arg6)) bitsLt_bf16_f32 :=
  ((keepH4 (W8 m ρ c) main_v5 (by decide)).trans ((keepIn3_3 m ρ c).trans ((keepH3 (W6 m ρ c) main_v5 (by decide)).trans ((keepIn2_3 m ρ c).trans ((keepH2 (W4 m ρ c) main_v5 (by decide)).trans ((keepIn1_3 m ρ c).trans ((keepH1 (W2 m ρ c) main_v5 (by decide)).trans ((keepIn0_3 m ρ c).trans rfl)))))))).trans (b1_main_v5 m ρ c)

theorem in4_r2 : W9 m ρ c (Proc.devRef .tc main_v100) = shapeCast S1x128 (m ((c : Thread nD τ).loc main_arg5)) shapeCasts_S128_S1x128 := by
  show StableHlo.after hostOps4 (W8 m ρ c) (Proc.devRef .tc main_v100) = _
  simp only [hostOps4]
  after_results_simp
  all_goals rw [arg5_8]
  all_goals rfl

theorem in4_r4 : W9 m ρ c (Proc.devRef .tc main_v101) = shapeCast S1x128 (m ((c : Thread nD τ).loc main_arg7)) shapeCasts_S128_S1x128 := by
  show StableHlo.after hostOps4 (W8 m ρ c) (Proc.devRef .tc main_v101) = _
  simp only [hostOps4]
  after_results_simp
  all_goals rw [arg7_8]
  all_goals rfl

theorem in4_r5 : W9 m ρ c (Proc.devRef .tc main_v102) = shapeCast S1x128 (m ((c : Thread nD τ).loc main_arg8)) shapeCasts_S128_S1x128 := by
  show StableHlo.after hostOps4 (W8 m ρ c) (Proc.devRef .tc main_v102) = _
  simp only [hostOps4]
  after_results_simp
  all_goals rw [arg8_8]
  all_goals rfl

theorem in4_r6 : W9 m ρ c (Proc.devRef .tc main_v103) = shapeCast S1x128 (m ((c : Thread nD τ).loc main_arg9)) shapeCasts_S128_S1x128 := by
  show StableHlo.after hostOps4 (W8 m ρ c) (Proc.devRef .tc main_v103) = _
  simp only [hostOps4]
  after_results_simp
  all_goals rw [arg9_8]
  all_goals rfl

theorem in4_r7 : W9 m ρ c (Proc.devRef .tc main_v104) = shapeCast S1x128 (m ((c : Thread nD τ).loc main_arg10)) shapeCasts_S128_S1x128 := by
  show StableHlo.after hostOps4 (W8 m ρ c) (Proc.devRef .tc main_v104) = _
  simp only [hostOps4]
  after_results_simp
  all_goals rw [arg10_8]
  all_goals rfl

theorem in4_r8 : W9 m ρ c (Proc.devRef .tc main_v105) = shapeCast S1x128 (m ((c : Thread nD τ).loc main_arg11)) shapeCasts_S128_S1x128 := by
  show StableHlo.after hostOps4 (W8 m ρ c) (Proc.devRef .tc main_v105) = _
  simp only [hostOps4]
  after_results_simp
  all_goals rw [arg11_8]
  all_goals rfl

theorem out4 : (W10 m ρ c (Proc.devRef .tc main_v106) : FVec Ideal S50000x128 .f32) = layer m c (W8 m ρ c (Proc.devRef .tc main_v88) : FVec Ideal S50000x128 .f32) := by
  refine (W10_arr m ρ c 9).trans ((Reg4.final (V9 m ρ) c).trans ?_)
  show Gin.innerArr (n := 50000) (K := 128) (H := 128) (d := 128) (W9 m ρ c (Proc.devRef .tc main_v99) : FVec Ideal S50000x128 .f32) (W9 m ρ c (Proc.devRef .tc main_v4) : FVec Ideal S128x128 .f32) (W9 m ρ c (Proc.devRef .tc main_v5) : FVec Ideal S128x128 .f32)
      (fun q => (W9 m ρ c (Proc.devRef .tc main_v100) : FVec Ideal S1x128 .f32) (ix2 o1 q)) (fun q => (W9 m ρ c (Proc.devRef .tc main_v101) : FVec Ideal S1x128 .f32) (ix2 o1 q))
      (fun q => rowAt (W9 m ρ c (Proc.devRef .tc main_v102) : FVec Ideal S1x128 .f32) q * Ideal.rsqrt (rowAt (W9 m ρ c (Proc.devRef .tc main_v105) : FVec Ideal S1x128 .f32) q + Ideal.ofBits .f32 0x3727C5AC#32))
      (fun q => (W9 m ρ c (Proc.devRef .tc main_v103) : FVec Ideal S1x128 .f32) (ix2 o1 q)) (fun q => (W9 m ρ c (Proc.devRef .tc main_v104) : FVec Ideal S1x128 .f32) (ix2 o1 q)) = _
  rw [in4_x, in4_w1, in4_w2, in4_r2, in4_r4, in4_r5, in4_r8, in4_r6, in4_r7]
  rfl

end Cert.KernelIdeal.Chain

end
-- ==== Proof.KReg5.lean ====
/-
  The output layer: from the blocks its grid points write back to the whole output array.

  Ten points, point t on rows 5000·t … 5000·t + 4999 of the node array and of the output; the weights and bias rows
  are whole small arrays at every point. What point t writes back is the perceptron of its rows, rectified, and the
  ten row blocks tile the 50000 rows.
-/
import proofs.«135258_j66949950210693_1_alg».proof.Proof.Gen.KernelIdeal.Frame
import proofs.«135258_j66949950210693_1_alg».proof.Proof.KBody
import proofs.«135258_j66949950210693_1_alg».proof.Proof.Arrays

set_option maxRecDepth 16384

noncomputable section

namespace Cert.KernelIdeal.Reg5

open Idealize.ShloMosaic Idealize.ShloMosaic.ValueIdx Idealize.ShloMosaic.TcCoe Idealize.SL.Sem
open Cert.KernelIdeal Cert.KernelIdeal.Gen Cert.KernelIdeal.Body
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the ten points -/

theorem t_lt : ∀ t : Fin cfg5.N, t.val < 10 := (by decide +kernel : ∀ t : Fin grid5.N, _)

theorem idx_in : ∀ t : Fin cfg5.N, win5_0.index t (0 : Fin 2) = t.val ∧ win5_0.index t (1 : Fin 2) = 0 :=
  (by decide +kernel : ∀ t : Fin grid5.N, _)

theorem idx_out : ∀ t : Fin cfg5.N, win5_5.index t (0 : Fin 2) = t.val ∧ win5_5.index t (1 : Fin 2) = 0 :=
  (by decide +kernel : ∀ t : Fin grid5.N, _)

theorem idx1 : ∀ t : Fin cfg5.N, win5_1.index t (0 : Fin 2) = 0 ∧ win5_1.index t (1 : Fin 2) = 0 :=
  (by decide +kernel : ∀ t : Fin grid5.N, _)

theorem idx2 : ∀ t : Fin cfg5.N, win5_2.index t (0 : Fin 2) = 0 ∧ win5_2.index t (1 : Fin 2) = 0 :=
  (by decide +kernel : ∀ t : Fin grid5.N, _)

theorem idx3 : ∀ t : Fin cfg5.N, win5_3.index t (0 : Fin 2) = 0 ∧ win5_3.index t (1 : Fin 2) = 0 :=
  (by decide +kernel : ∀ t : Fin grid5.N, _)

theorem idx4 : ∀ t : Fin cfg5.N, win5_4.index t (0 : Fin 2) = 0 ∧ win5_4.index t (1 : Fin 2) = 0 :=
  (by decide +kernel : ∀ t : Fin grid5.N, _)

theorem row_lt (t : Fin cfg5.N) (p : Fin 5000) : t.val * 5000 + p.val < 50000 := by
  have := t_lt t
  have := p.isLt
  omega

/-! ## The arrays the region finds, at their literal types -/

abbrev a0 (c : Dev nD) : S50000x128.Idx → EReal := V c (Pipeline.arrRef spec5 0)
abbrev a1 (c : Dev nD) : S128x128.Idx → EReal := V c (Pipeline.arrRef spec5 1)
abbrev a2 (c : Dev nD) : S1x128.Idx → EReal := V c (Pipeline.arrRef spec5 2)
abbrev a3 (c : Dev nD) : S128x128.Idx → EReal := V c (Pipeline.arrRef spec5 3)
abbrev a4 (c : Dev nD) : S1x128.Idx → EReal := V c (Pipeline.arrRef spec5 4)

/-! ## Each window's block at a point, read off the array the region finds -/

/-- The row window: entry (p, k) of point t's block is entry (5000·t + p, k) of the node array. -/
theorem blk0 (c : Dev nD) (t : Fin cfg5.N) (p : Fin 5000) (k : Fin 128) :
    iblk5 V c 0 t (ix2 p k) = a0 V c (ix2 ⟨t.val * 5000 + p.val, row_lt t p⟩ k) := by
  show V c (Pipeline.arrRef spec5 0) (((cfg5.win 0).blk t).view.emb (ix2 p k)) = _
  obtain ⟨e0, e1⟩ := idx_in t
  refine congrArg (V c (Pipeline.arrRef spec5 0)) (funext fun a => Fin.ext ?_)
  match a with
  | ⟨0, _⟩ => show win5_0.index t (0 : Fin 2) * 5000 + 1 * p.val = t.val * 5000 + p.val; omega
  | ⟨1, _⟩ => show win5_0.index t (1 : Fin 2) * 128 + 1 * k.val = k.val; omega

/-- Window 1 is a whole array at every point. -/
theorem blk1 (c : Dev nD) (t : Fin cfg5.N) (y : S128x128.Idx) :
    iblk5 V c 1 t y = a1 V c y := by
  show V c (Pipeline.arrRef spec5 1) (((cfg5.win 1).blk t).view.emb y) = _
  obtain ⟨e0, e1⟩ := idx1 t
  refine congrArg (V c (Pipeline.arrRef spec5 1)) (funext fun a => Fin.ext ?_)
  match a with
  | ⟨0, _⟩ => show win5_1.index t (0 : Fin 2) * 128 + 1 * (y 0).val = (y 0).val; omega
  | ⟨1, _⟩ => show win5_1.index t (1 : Fin 2) * 128 + 1 * (y 1).val = (y 1).val; omega

/-- Window 2 is a whole array at every point. -/
theorem blk2 (c : Dev nD) (t : Fin cfg5.N) (y : S1x128.Idx) :
    iblk5 V c 2 t y = a2 V c y := by
  show V c (Pipeline.arrRef spec5 2) (((cfg5.win 2).blk t).view.emb y) = _
  obtain ⟨e0, e1⟩ := idx2 t
  refine congrArg (V c (Pipeline.arrRef spec5 2)) (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- Window 3 is a whole array at every point. -/
theorem blk3 (c : Dev nD) (t : Fin cfg5.N) (y : S128x128.Idx) :
    iblk5 V c 3 t y = a3 V c y := by
  show V c (Pipeline.arrRef spec5 3) (((cfg5.win 3).blk t).view.emb y) = _
  obtain ⟨e0, e1⟩ := idx3 t
  refine congrArg (V c (Pipeline.arrRef spec5 3)) (funext fun a => Fin.ext ?_)
  match a with
  | ⟨0, _⟩ => show win5_3.index t (0 : Fin 2) * 128 + 1 * (y 0).val = (y 0).val; omega
  | ⟨1, _⟩ => show win5_3.index t (1 : Fin 2) * 128 + 1 * (y 1).val = (y 1).val; omega

/-- Window 4 is a whole array at every point. -/
theorem blk4 (c : Dev nD) (t : Fin cfg5.N) (y : S1x128.Idx) :
    iblk5 V c 4 t y = a4 V c y := by
  show V c (Pipeline.arrRef spec5 4) (((cfg5.win 4).blk t).view.emb y) = _
  obtain ⟨e0, e1⟩ := idx4 t
  refine congrArg (V c (Pipeline.arrRef spec5 4)) (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- Entry (p, q) of point t's output block sits at (5000·t + p, q) of the output array. -/
theorem out_emb (t : Fin cfg5.N) (p : Fin 5000) (q : Fin 128) :
    ((cfg5.win 5).blk t).view.emb (ix2 p q) = (ix2 ⟨t.val * 5000 + p.val, row_lt t p⟩ q : S50000x128.Idx) := by
  obtain ⟨e0, e1⟩ := idx_out t
  funext a
  apply Fin.ext
  match a with
  | ⟨0, _⟩ => show win5_5.index t (0 : Fin 2) * 5000 + 1 * p.val = t.val * 5000 + p.val; omega
  | ⟨1, _⟩ => show win5_5.index t (1 : Fin 2) * 128 + 1 * q.val = q.val; omega

/-! ## The output array -/

/-- What the layer's output array holds: the node rows through the perceptron, rectified. -/
def arr (c : Dev nD) : S50000x128.Idx → EReal :=
  Gin.outerArr (n := 50000) (K := 128) (H := 128) (d := 128)
    (a0 V c) (a1 V c) (a3 V c) (fun j => a2 V c (ix2 o1 j)) (fun j => a4 V c (ix2 o1 j))

/-- What point t writes back is block t of that array. -/
theorem flushed_eq (c : Dev nD) (t : Fin cfg5.N) :
    (dat5 V c).flushed 5 t = ((cfg5.win 5).blk t).view.read (Elt Ideal) (arr V c) := by
  show (cfg5.win 5).cut (grid5.coords t) ((dat5 V c).after 5 t) = _
  rw [after5_5]
  unfold out5_5
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k5_pay1 (iblk5 V c 0 t) (iblk5 V c 1 t) (iblk5 V c 2 t) (iblk5 V c 3 t) (iblk5 V c 4 t) (ix2 p q)
      = arr V c (((cfg5.win 5).blk t).view.emb (ix2 p q))
  rw [out_emb t p q]
  refine (pay_outer (iblk5 V c 0 t) (iblk5 V c 1 t) (iblk5 V c 2 t) (iblk5 V c 3 t) (iblk5 V c 4 t) p q).trans ?_
  rw [Gin.mlp_congr (x' := fun k => a0 V c (ix2 ⟨t.val * 5000 + p.val, row_lt t p⟩ k)) (w1' := a1 V c)
      (b1' := fun a => a2 V c (ix2 o1 a)) (w2' := a3 V c) (b2' := fun a => a4 V c (ix2 o1 a)) q (fun k => blk0 V c t p k)
      (fun a k => blk1 V c t (ix2 a k)) (fun a => blk2 V c t (ix2 o1 a))
      (fun k => blk3 V c t (ix2 q k)) (blk4 V c t (ix2 o1 q))]
  rfl

/-- The ten row blocks tile the output array. -/
theorem cover (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ : ∃ t : Fin cfg5.N, t.val = (i 0).val / 5000 :=
    (by decide +kernel : ∀ n : Fin 10, ∃ t : Fin grid5.N, t.val = n.val) ⟨(i 0).val / 5000, by omega⟩
  obtain ⟨e0, e1⟩ := idx_out t
  refine ⟨t, flush5_5 t, ?_⟩
  show i ∈ ((View.whole (Pipeline.arrRef spec5 5)).slice (win5_5.rect t)).set
  rw [View.set_slice_whole, Rect.mem_set_unit]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- The output array after the region. -/
theorem final (c : Dev nD) : (dat5 V c).arrAt 5 cfg5.N = arr V c :=
  (dat5 V c).arrAt_eq_of_cover 5 (arr V c) (fun t _ => flushed_eq V c t) (cover)

end Cert.KernelIdeal.Reg5

end
-- ==== Proof.KC7.lean ====
/-
  The output layer: the buffers walked back to the first boundary, its windows' contents, and what it leaves.
-/
import proofs.«135258_j66949950210693_1_alg».proof.Proof.KC6
import proofs.«135258_j66949950210693_1_alg».proof.Proof.KReg5

set_option maxRecDepth 16384
set_option maxHeartbeats 2000000

noncomputable section

namespace Cert.KernelIdeal.Chain

open Idealize.ShloMosaic Idealize.ShloMosaic.ValueIdx Idealize.ShloMosaic.TcCoe Idealize.SL.Sem Idealize.ShloMosaic.StableHlo
open Cert.KernelIdeal Cert.KernelIdeal.Gen Cert.KernelIdeal.Body

variable (m : (ℓ : Loc nD τ sig) → Buf (Elt Ideal) ℓ) (ρ : Dev nD → PrngReg) (c : Dev nD)

/-! ## The output layer: its entry (boundary 11) and what it leaves -/

theorem src10 : W10 m ρ c (Proc.devRef .tc main_v1) = src m c :=
  ((W10_of_ne m ρ c main_v1 (by decide)).trans ((keepH4 (W8 m ρ c) main_v1 (by decide)).trans ((W8_of_ne m ρ c main_v1 (by decide)).trans ((keepH3 (W6 m ρ c) main_v1 (by decide)).trans ((W6_of_ne m ρ c main_v1 (by decide)).trans ((keepH2 (W4 m ρ c) main_v1 (by decide)).trans ((W4_of_ne m ρ c main_v1 (by decide)).trans ((keepH1 (W2 m ρ c) main_v1 (by decide)).trans ((W2_of_ne m ρ c main_v1 (by decide)).trans rfl))))))))).trans (b1_src m ρ c)

theorem dst10 : W10 m ρ c (Proc.devRef .tc main_v3) = dst m c :=
  ((W10_of_ne m ρ c main_v3 (by decide)).trans ((keepH4 (W8 m ρ c) main_v3 (by decide)).trans ((W8_of_ne m ρ c main_v3 (by decide)).trans ((keepH3 (W6 m ρ c) main_v3 (by decide)).trans ((W6_of_ne m ρ c main_v3 (by decide)).trans ((keepH2 (W4 m ρ c) main_v3 (by decide)).trans ((W4_of_ne m ρ c main_v3 (by decide)).trans ((keepH1 (W2 m ρ c) main_v3 (by decide)).trans ((W2_of_ne m ρ c main_v3 (by decide)).trans rfl))))))))).trans (b1_dst m ρ c)

theorem arg13_10 : W10 m ρ c (Proc.devRef .tc main_arg13) = (m ((c : Thread nD τ).loc main_arg13)) :=
  (((W10_of_ne m ρ c main_arg13 (by decide)).trans ((keepH4 (W8 m ρ c) main_arg13 (by decide)).trans ((W8_of_ne m ρ c main_arg13 (by decide)).trans ((keepH3 (W6 m ρ c) main_arg13 (by decide)).trans ((W6_of_ne m ρ c main_arg13 (by decide)).trans ((keepH2 (W4 m ρ c) main_arg13 (by decide)).trans ((W4_of_ne m ρ c main_arg13 (by decide)).trans ((keepH1 (W2 m ρ c) main_arg13 (by decide)).trans ((W2_of_ne m ρ c main_arg13 (by decide)).trans rfl))))))))).trans ((keepH0 (W0 m ρ c) main_arg13 (by decide)).trans rfl))

theorem arg15_10 : W10 m ρ c (Proc.devRef .tc main_arg15) = (m ((c : Thread nD τ).loc main_arg15)) :=
  (((W10_of_ne m ρ c main_arg15 (by decide)).trans ((keepH4 (W8 m ρ c) main_arg15 (by decide)).trans ((W8_of_ne m ρ c main_arg15 (by decide)).trans ((keepH3 (W6 m ρ c) main_arg15 (by decide)).trans ((W6_of_ne m ρ c main_arg15 (by decide)).trans ((keepH2 (W4 m ρ c) main_arg15 (by decide)).trans ((W4_of_ne m ρ c main_arg15 (by decide)).trans ((keepH1 (W2 m ρ c) main_arg15 (by decide)).trans ((W2_of_ne m ρ c main_arg15 (by decide)).trans rfl))))))))).trans ((keepH0 (W0 m ρ c) main_arg15 (by decide)).trans rfl))

theorem in5_x : W11 m ρ c (Proc.devRef .tc main_v117) = agg m c (W10 m ρ c (Proc.devRef .tc main_v106) : FVec Ideal S50000x128 .f32) := by
  show StableHlo.after hostOps5 (W10 m ρ c) (Proc.devRef .tc main_v117) = _
  simp only [hostOps5]
  after_results_simp
  all_goals rw [src10, dst10]
  all_goals rfl

theorem in5_w1 : W11 m ρ c (Proc.devRef .tc main_v6) = truncf (F := Ideal) .bf16 (m ((c : Thread nD τ).loc main_arg12)) bitsLt_bf16_f32 :=
  ((keepH5 (W10 m ρ c) main_v6 (by decide)).trans ((W10_of_ne m ρ c main_v6 (by decide)).trans ((keepH4 (W8 m ρ c) main_v6 (by decide)).trans ((W8_of_ne m ρ c main_v6 (by decide)).trans ((keepH3 (W6 m ρ c) main_v6 (by decide)).trans ((W6_of_ne m ρ c main_v6 (by decide)).trans ((keepH2 (W4 m ρ c) main_v6 (by decide)).trans ((W4_of_ne m ρ c main_v6 (by decide)).trans ((keepH1 (W2 m ρ c) main_v6 (by decide)).trans ((W2_of_ne m ρ c main_v6 (by decide)).trans rfl)))))))))).trans (b1_main_v6 m ρ c)

theorem in5_w2 : W11 m ρ c (Proc.devRef .tc main_v7) = truncf (F := Ideal) .bf16 (m ((c : Thread nD τ).loc main_arg14)) bitsLt_bf16_f32 :=
  ((keepH5 (W10 m ρ c) main_v7 (by decide)).trans ((W10_of_ne m ρ c main_v7 (by decide)).trans ((keepH4 (W8 m ρ c) main_v7 (by decide)).trans ((W8_of_ne m ρ c main_v7 (by decide)).trans ((keepH3 (W6 m ρ c) main_v7 (by decide)).trans ((W6_of_ne m ρ c main_v7 (by decide)).trans ((keepH2 (W4 m ρ c) main_v7 (by decide)).trans ((W4_of_ne m ρ c main_v7 (by decide)).trans ((keepH1 (W2 m ρ c) main_v7 (by decide)).trans ((W2_of_ne m ρ c main_v7 (by decide)).trans rfl)))))))))).trans (b1_main_v7 m ρ c)

theorem in5_r2 : W11 m ρ c (Proc.devRef .tc main_v118) = shapeCast S1x128 (m ((c : Thread nD τ).loc main_arg13)) shapeCasts_S128_S1x128 := by
  show StableHlo.after hostOps5 (W10 m ρ c) (Proc.devRef .tc main_v118) = _
  simp only [hostOps5]
  after_results_simp
  all_goals rw [arg13_10]
  all_goals rfl

theorem in5_r4 : W11 m ρ c (Proc.devRef .tc main_v119) = shapeCast S1x128 (m ((c : Thread nD τ).loc main_arg15)) shapeCasts_S128_S1x128 := by
  show StableHlo.after hostOps5 (W10 m ρ c) (Proc.devRef .tc main_v119) = _
  simp only [hostOps5]
  after_results_simp
  all_goals rw [arg15_10]
  all_goals rfl

theorem out5 : (W12 m ρ c (Proc.devRef .tc main_v120) : FVec Ideal S50000x128 .f32) = outLayer m c (W10 m ρ c (Proc.devRef .tc main_v106) : FVec Ideal S50000x128 .f32) := by
  refine (W12_arr m ρ c 5).trans ((Reg5.final (V11 m ρ) c).trans ?_)
  show Gin.outerArr (n := 50000) (K := 128) (H := 128) (d := 128) (W11 m ρ c (Proc.devRef .tc main_v117) : FVec Ideal S50000x128 .f32) (W11 m ρ c (Proc.devRef .tc main_v6) : FVec Ideal S128x128 .f32) (W11 m ρ c (Proc.devRef .tc main_v7) : FVec Ideal S128x128 .f32)
      (fun q => (W11 m ρ c (Proc.devRef .tc main_v118) : FVec Ideal S1x128 .f32) (ix2 o1 q)) (fun q => (W11 m ρ c (Proc.devRef .tc main_v119) : FVec Ideal S1x128 .f32) (ix2 o1 q)) = _
  rw [in5_x, in5_w1, in5_w2, in5_r2, in5_r4]
  rfl

end Cert.KernelIdeal.Chain

end
-- ==== Proof.KReg6.lean ====
/-
  The head: one grid point whose every window is a whole array.

  The pooled rows, the two weight matrices and the two bias rows are staged whole; the one point's body writes the
  whole 128-by-41 output, the perceptron of each pooled row.
-/
import proofs.«135258_j66949950210693_1_alg».proof.Proof.Gen.KernelIdeal.Frame
import proofs.«135258_j66949950210693_1_alg».proof.Proof.KBody
import proofs.«135258_j66949950210693_1_alg».proof.Proof.Arrays

set_option maxRecDepth 16384

noncomputable section

namespace Cert.KernelIdeal.Reg6

open Idealize.ShloMosaic Idealize.ShloMosaic.ValueIdx Idealize.ShloMosaic.TcCoe Idealize.SL.Sem
open Cert.KernelIdeal Cert.KernelIdeal.Gen Cert.KernelIdeal.Body
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem idx0 : ∀ t : Fin cfg6.N, win6_0.index t (0 : Fin 2) = 0 ∧ win6_0.index t (1 : Fin 2) = 0 :=
  (by decide +kernel : ∀ t : Fin grid6.N, _)

theorem idx1 : ∀ t : Fin cfg6.N, win6_1.index t (0 : Fin 2) = 0 ∧ win6_1.index t (1 : Fin 2) = 0 :=
  (by decide +kernel : ∀ t : Fin grid6.N, _)

theorem idx2 : ∀ t : Fin cfg6.N, win6_2.index t (0 : Fin 2) = 0 ∧ win6_2.index t (1 : Fin 2) = 0 :=
  (by decide +kernel : ∀ t : Fin grid6.N, _)

theorem idx3 : ∀ t : Fin cfg6.N, win6_3.index t (0 : Fin 2) = 0 ∧ win6_3.index t (1 : Fin 2) = 0 :=
  (by decide +kernel : ∀ t : Fin grid6.N, _)

theorem idx4 : ∀ t : Fin cfg6.N, win6_4.index t (0 : Fin 2) = 0 ∧ win6_4.index t (1 : Fin 2) = 0 :=
  (by decide +kernel : ∀ t : Fin grid6.N, _)

theorem idx_out : ∀ t : Fin cfg6.N, win6_5.index t (0 : Fin 2) = 0 ∧ win6_5.index t (1 : Fin 2) = 0 :=
  (by decide +kernel : ∀ t : Fin grid6.N, _)

/-! ## The arrays the region finds, at their literal types -/

abbrev a0 (c : Dev nD) : S128x128.Idx → EReal := V c (Pipeline.arrRef spec6 0)
abbrev a1 (c : Dev nD) : S128x128.Idx → EReal := V c (Pipeline.arrRef spec6 1)
abbrev a2 (c : Dev nD) : S1x128.Idx → EReal := V c (Pipeline.arrRef spec6 2)
abbrev a3 (c : Dev nD) : S41x128.Idx → EReal := V c (Pipeline.arrRef spec6 3)
abbrev a4 (c : Dev nD) : S1x41.Idx → EReal := V c (Pipeline.arrRef spec6 4)

/-! ## Each window's block, read off the array the region finds -/

/-- Window 0 is a whole array at every point. -/
theorem blk0 (c : Dev nD) (t : Fin cfg6.N) (y : S128x128.Idx) :
    iblk6 V c 0 t y = a0 V c y := by
  show V c (Pipeline.arrRef spec6 0) (((cfg6.win 0).blk t).view.emb y) = _
  obtain ⟨e0, e1⟩ := idx0 t
  refine congrArg (V c (Pipeline.arrRef spec6 0)) (funext fun a => Fin.ext ?_)
  match a with
  | ⟨0, _⟩ => show win6_0.index t (0 : Fin 2) * 128 + 1 * (y 0).val = (y 0).val; omega
  | ⟨1, _⟩ => show win6_0.index t (1 : Fin 2) * 128 + 1 * (y 1).val = (y 1).val; omega

/-- Window 1 is a whole array at every point. -/
theorem blk1 (c : Dev nD) (t : Fin cfg6.N) (y : S128x128.Idx) :
    iblk6 V c 1 t y = a1 V c y := by
  show V c (Pipeline.arrRef spec6 1) (((cfg6.win 1).blk t).view.emb y) = _
  obtain ⟨e0, e1⟩ := idx1 t
  refine congrArg (V c (Pipeline.arrRef spec6 1)) (funext fun a => Fin.ext ?_)
  match a with
  | ⟨0, _⟩ => show win6_1.index t (0 : Fin 2) * 128 + 1 * (y 0).val = (y 0).val; omega
  | ⟨1, _⟩ => show win6_1.index t (1 : Fin 2) * 128 + 1 * (y 1).val = (y 1).val; omega

/-- Window 2 is a whole array at every point. -/
theorem blk2 (c : Dev nD) (t : Fin cfg6.N) (y : S1x128.Idx) :
    iblk6 V c 2 t y = a2 V c y := by
  show V c (Pipeline.arrRef spec6 2) (((cfg6.win 2).blk t).view.emb y) = _
  obtain ⟨e0, e1⟩ := idx2 t
  refine congrArg (V c (Pipeline.arrRef spec6 2)) (funext fun a => Fin.ext ?_)
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- Window 3 is a whole array at every point. -/
theorem blk3 (c : Dev nD) (t : Fin cfg6.N) (y : S41x128.Idx) :
    iblk6 V c 3 t y = a3 V c y := by
  show V c (Pipeline.arrRef spec6 3) (((cfg6.win 3).blk t).view.emb y) = _
  obtain ⟨e0, e1⟩ := idx3 t
  refine congrArg (V c (Pipeline.arrRef spec6 3)) (funext fun a => Fin.ext ?_)
  match a with
  | ⟨0, _⟩ => show win6_3.index t (0 : Fin 2) * 41 + 1 * (y 0).val = (y 0).val; omega
  | ⟨1, _⟩ => show win6_3.index t (1 : Fin 2) * 128 + 1 * (y 1).val = (y 1).val; omega

/-- Window 4 is a whole array at every point. -/
theorem blk4 (c : Dev nD) (t : Fin cfg6.N) (y : S1x41.Idx) :
    iblk6 V c 4 t y = a4 V c y := by
  show V c (Pipeline.arrRef spec6 4) (((cfg6.win 4).blk t).view.emb y) = _
  obtain ⟨e0, e1⟩ := idx4 t
  refine congrArg (V c (Pipeline.arrRef spec6 4)) (funext fun a => Fin.ext ?_)
  match a with
  | ⟨0, _⟩ => show win6_4.index t (0 : Fin 2) * 1 + 1 * (y 0).val = (y 0).val; omega
  | ⟨1, _⟩ => show win6_4.index t (1 : Fin 2) * 41 + 1 * (y 1).val = (y 1).val; omega

/-- The output block is the whole output array. -/
theorem out_emb (t : Fin cfg6.N) (y : S128x41.Idx) : ((cfg6.win 5).blk t).view.emb y = y := by
  obtain ⟨e0, e1⟩ := idx_out t
  funext a
  apply Fin.ext
  match a with
  | ⟨0, _⟩ => show win6_5.index t (0 : Fin 2) * 128 + 1 * (y 0).val = (y 0).val; omega
  | ⟨1, _⟩ => show win6_5.index t (1 : Fin 2) * 41 + 1 * (y 1).val = (y 1).val; omega

/-! ## The output array -/

/-- What the head's output array holds: the perceptron of each pooled row. -/
def arr (c : Dev nD) : S128x41.Idx → EReal :=
  Gin.headArr (n := 128) (K := 128) (H := 128) (d := 41)
    (a0 V c) (a1 V c) (a3 V c) (fun j => a2 V c (ix2 o1 j)) (fun j => a4 V c (ix2 o1 j))

/-- What the one point writes back is that array. -/
theorem flushed_eq (c : Dev nD) (t : Fin cfg6.N) :
    (dat6 V c).flushed 5 t = ((cfg6.win 5).blk t).view.read (Elt Ideal) (arr V c) := by
  show (cfg6.win 5).cut (grid6.coords t) ((dat6 V c).after 5 t) = _
  rw [after6_5]
  unfold out6_5
  rw [View.canon_unit_zero hz]
  simp only [View.ld_unit_zero (S := S128x128) hz, View.ld_unit_zero (S := S1x128) hz, View.ld_unit_zero (S := S41x128) hz,
    View.ld_unit_zero (S := S1x41) hz]
  funext y
  obtain ⟨p, q, rfl⟩ : ∃ (p : Fin 128) (q : Fin 41), y = ix2 p q := ⟨y 0, y 1, eq_ix2 y⟩
  show k6_pay1 (iblk6 V c 0 t) (iblk6 V c 1 t) (iblk6 V c 2 t) (iblk6 V c 3 t) (iblk6 V c 4 t) (ix2 p q)
      = arr V c (((cfg6.win 5).blk t).view.emb (ix2 p q))
  rw [out_emb t (ix2 p q)]
  refine (pay_head (iblk6 V c 0 t) (iblk6 V c 1 t) (iblk6 V c 2 t) (iblk6 V c 3 t) (iblk6 V c 4 t) p q).trans ?_
  rw [Gin.mlp_congr (x' := fun k => a0 V c (ix2 p k)) (w1' := a1 V c)
      (b1' := fun a => a2 V c (ix2 o1 a)) (w2' := a3 V c) (b2' := fun a => a4 V c (ix2 o1 a)) q (fun k => blk0 V c t (ix2 p k))
      (fun a k => blk1 V c t (ix2 a k)) (fun a => blk2 V c t (ix2 o1 a))
      (fun k => blk3 V c t (ix2 q k)) (blk4 V c t (ix2 o1 q))]
  rfl

/-- The one block is the whole output array. -/
theorem cover (i : S128x41.Idx) :
    ∃ t : Fin cfg6.N, (cfg6.win 5).flush t = true ∧ i ∈ ((cfg6.win 5).blk t).view.set := by
  have hi0 : (i 0).val < 128 := (i 0).isLt
  have hi1 : (i 1).val < 41 := (i 1).isLt
  obtain ⟨t, -⟩ : ∃ t : Fin cfg6.N, t.val = 0 := (by decide +kernel : ∃ t : Fin grid6.N, t.val = 0)
  obtain ⟨e0, e1⟩ := idx_out t
  refine ⟨t, flush6_5 t, ?_⟩
  show i ∈ ((View.whole (Pipeline.arrRef spec6 5)).slice (win6_5.rect t)).set
  rw [View.set_slice_whole, Rect.mem_set_unit]
  intro a
  match a with
  | ⟨0, _⟩ => show win6_5.index t (0 : Fin 2) * 128 ≤ (i 0).val ∧ (i 0).val < win6_5.index t (0 : Fin 2) * 128 + 128; omega
  | ⟨1, _⟩ => show win6_5.index t (1 : Fin 2) * 41 ≤ (i 1).val ∧ (i 1).val < win6_5.index t (1 : Fin 2) * 41 + 41; omega

/-- The output array after the region. -/
theorem final (c : Dev nD) : (dat6 V c).arrAt 5 cfg6.N = arr V c :=
  (dat6 V c).arrAt_eq_of_cover 5 (arr V c) (fun t _ => flushed_eq V c t) (cover)

end Cert.KernelIdeal.Reg6

end
-- ==== Proof.KC8.lean ====
/-
  The head and the result: the pooled rows, the head's windows, what it leaves, and the result buffer at the last
  boundary as the network's function of the argument arrays.
-/
import proofs.«135258_j66949950210693_1_alg».proof.Proof.KC7
import proofs.«135258_j66949950210693_1_alg».proof.Proof.KReg6

set_option maxRecDepth 16384
set_option maxHeartbeats 2000000

noncomputable section

namespace Cert.KernelIdeal.Chain

open Idealize.ShloMosaic Idealize.ShloMosaic.ValueIdx Idealize.ShloMosaic.TcCoe Idealize.SL.Sem Idealize.ShloMosaic.StableHlo
open Cert.KernelIdeal Cert.KernelIdeal.Gen Cert.KernelIdeal.Body

variable (m : (ℓ : Loc nD τ sig) → Buf (Elt Ideal) ℓ) (ρ : Dev nD → PrngReg) (c : Dev nD)

/-! ## The head: its entry (boundary 13) and what it leaves -/

theorem arg2_12 : W12 m ρ c (Proc.devRef .tc main_arg2) = (m ((c : Thread nD τ).loc main_arg2)) :=
  (((W12_of_ne m ρ c main_arg2 (by decide)).trans ((keepH5 (W10 m ρ c) main_arg2 (by decide)).trans ((W10_of_ne m ρ c main_arg2 (by decide)).trans ((keepH4 (W8 m ρ c) main_arg2 (by decide)).trans ((W8_of_ne m ρ c main_arg2 (by decide)).trans ((keepH3 (W6 m ρ c) main_arg2 (by decide)).trans ((W6_of_ne m ρ c main_arg2 (by decide)).trans ((keepH2 (W4 m ρ c) main_arg2 (by decide)).trans ((W4_of_ne m ρ c main_arg2 (by decide)).trans ((keepH1 (W2 m ρ c) main_arg2 (by decide)).trans ((W2_of_ne m ρ c main_arg2 (by decide)).trans rfl))))))))))).trans ((keepH0 (W0 m ρ c) main_arg2 (by decide)).trans rfl))

theorem arg17_12 : W12 m ρ c (Proc.devRef .tc main_arg17) = (m ((c : Thread nD τ).loc main_arg17)) :=
  (((W12_of_ne m ρ c main_arg17 (by decide)).trans ((keepH5 (W10 m ρ c) main_arg17 (by decide)).trans ((W10_of_ne m ρ c main_arg17 (by decide)).trans ((keepH4 (W8 m ρ c) main_arg17 (by decide)).trans ((W8_of_ne m ρ c main_arg17 (by decide)).trans ((keepH3 (W6 m ρ c) main_arg17 (by decide)).trans ((W6_of_ne m ρ c main_arg17 (by decide)).trans ((keepH2 (W4 m ρ c) main_arg17 (by decide)).trans ((W4_of_ne m ρ c main_arg17 (by decide)).trans ((keepH1 (W2 m ρ c) main_arg17 (by decide)).trans ((W2_of_ne m ρ c main_arg17 (by decide)).trans rfl))))))))))).trans ((keepH0 (W0 m ρ c) main_arg17 (by decide)).trans rfl))

theorem arg19_12 : W12 m ρ c (Proc.devRef .tc main_arg19) = (m ((c : Thread nD τ).loc main_arg19)) :=
  (((W12_of_ne m ρ c main_arg19 (by decide)).trans ((keepH5 (W10 m ρ c) main_arg19 (by decide)).trans ((W10_of_ne m ρ c main_arg19 (by decide)).trans ((keepH4 (W8 m ρ c) main_arg19 (by decide)).trans ((W8_of_ne m ρ c main_arg19 (by decide)).trans ((keepH3 (W6 m ρ c) main_arg19 (by decide)).trans ((W6_of_ne m ρ c main_arg19 (by decide)).trans ((keepH2 (W4 m ρ c) main_arg19 (by decide)).trans ((W4_of_ne m ρ c main_arg19 (by decide)).trans ((keepH1 (W2 m ρ c) main_arg19 (by decide)).trans ((W2_of_ne m ρ c main_arg19 (by decide)).trans rfl))))))))))).trans ((keepH0 (W0 m ρ c) main_arg19 (by decide)).trans rfl))

theorem in6_x : W13 m ρ c (Proc.devRef .tc main_v123) = pool m c (W12 m ρ c (Proc.devRef .tc main_v120) : FVec Ideal S50000x128 .f32) := by
  show StableHlo.after hostOps6 (W12 m ρ c) (Proc.devRef .tc main_v123) = _
  simp only [hostOps6]
  after_results_simp
  all_goals rw [arg2_12]
  all_goals rfl

theorem in6_w1 : W13 m ρ c (Proc.devRef .tc main_v8) = truncf (F := Ideal) .bf16 (m ((c : Thread nD τ).loc main_arg16)) bitsLt_bf16_f32 :=
  ((keepH6 (W12 m ρ c) main_v8 (by decide)).trans ((W12_of_ne m ρ c main_v8 (by decide)).trans ((keepH5 (W10 m ρ c) main_v8 (by decide)).trans ((W10_of_ne m ρ c main_v8 (by decide)).trans ((keepH4 (W8 m ρ c) main_v8 (by decide)).trans ((W8_of_ne m ρ c main_v8 (by decide)).trans ((keepH3 (W6 m ρ c) main_v8 (by decide)).trans ((W6_of_ne m ρ c main_v8 (by decide)).trans ((keepH2 (W4 m ρ c) main_v8 (by decide)).trans ((W4_of_ne m ρ c main_v8 (by decide)).trans ((keepH1 (W2 m ρ c) main_v8 (by decide)).trans ((W2_of_ne m ρ c main_v8 (by decide)).trans rfl)))))))))))).trans (b1_main_v8 m ρ c)

theorem in6_w2 : W13 m ρ c (Proc.devRef .tc main_v9) = truncf (F := Ideal) .bf16 (m ((c : Thread nD τ).loc main_arg18)) bitsLt_bf16_f32 :=
  ((keepH6 (W12 m ρ c) main_v9 (by decide)).trans ((W12_of_ne m ρ c main_v9 (by decide)).trans ((keepH5 (W10 m ρ c) main_v9 (by decide)).trans ((W10_of_ne m ρ c main_v9 (by decide)).trans ((keepH4 (W8 m ρ c) main_v9 (by decide)).trans ((W8_of_ne m ρ c main_v9 (by decide)).trans ((keepH3 (W6 m ρ c) main_v9 (by decide)).trans ((W6_of_ne m ρ c main_v9 (by decide)).trans ((keepH2 (W4 m ρ c) main_v9 (by decide)).trans ((W4_of_ne m ρ c main_v9 (by decide)).trans ((keepH1 (W2 m ρ c) main_v9 (by decide)).trans ((W2_of_ne m ρ c main_v9 (by decide)).trans rfl)))))))))))).trans (b1_main_v9 m ρ c)

theorem in6_r2 : W13 m ρ c (Proc.devRef .tc main_v124) = shapeCast S1x128 (m ((c : Thread nD τ).loc main_arg17)) shapeCasts_S128_S1x128 := by
  show StableHlo.after hostOps6 (W12 m ρ c) (Proc.devRef .tc main_v124) = _
  simp only [hostOps6]
  after_results_simp
  all_goals rw [arg17_12]
  all_goals rfl

theorem in6_r4 : W13 m ρ c (Proc.devRef .tc main_v125) = shapeCast S1x41 (m ((c : Thread nD τ).loc main_arg19)) shapeCasts_S41_S1x41 := by
  show StableHlo.after hostOps6 (W12 m ρ c) (Proc.devRef .tc main_v125) = _
  simp only [hostOps6]
  after_results_simp
  all_goals rw [arg19_12]
  all_goals rfl

theorem out6 : (W14 m ρ c (Proc.devRef .tc main_v126) : FVec Ideal S128x41 .f32) = headOf m c (pool m c (W12 m ρ c (Proc.devRef .tc main_v120) : FVec Ideal S50000x128 .f32)) := by
  refine (W14_arr m ρ c 5).trans ((Reg6.final (V13 m ρ) c).trans ?_)
  show Gin.headArr (n := 128) (K := 128) (H := 128) (d := 41) (W13 m ρ c (Proc.devRef .tc main_v123) : FVec Ideal S128x128 .f32) (W13 m ρ c (Proc.devRef .tc main_v8) : FVec Ideal S128x128 .f32) (W13 m ρ c (Proc.devRef .tc main_v9) : FVec Ideal S41x128 .f32)
      (fun q => (W13 m ρ c (Proc.devRef .tc main_v124) : FVec Ideal S1x128 .f32) (ix2 o1 q)) (fun q => (W13 m ρ c (Proc.devRef .tc main_v125) : FVec Ideal S1x41 .f32) (ix2 o1 q)) = _
  rw [in6_x, in6_w1, in6_w2, in6_r2, in6_r4]
  rfl

/-! ## The result -/

/-- The result buffer at the last boundary is the network's function of the argument arrays. -/
theorem result_eq : (W14 m ρ c (Proc.devRef .tc main_v126) : FVec Ideal S128x41 .f32) = net m c := by
  rw [out6, out5, out4, out3, out2, out1, out0]
  rfl

end Cert.KernelIdeal.Chain

end
-- ==== Proof.RLayer.lean ====
/-
  The reference's three kinds of layer, each the row-form array function.

  The reference spells a dense map as a transpose of the weights, a product contracting the row with the transposed
  matrix, and a bias vector laid out as a row and broadcast down the rows; the rectifier as a maximum against a
  broadcast zero; the normalisation's scale as gamma divided by the square root of the variance plus the offset. At
  the exact values each of these read at an entry is the row form's. For a variance entry v ≥ 0 the offset makes the
  radicand positive, and there gamma divided by its square root is gamma times its reciprocal square root: the one
  place a hypothesis is used.
-/
import proofs.«135258_j66949950210693_1_alg».proof.Proof.Gen.ReferenceIdeal
import proofs.«135258_j66949950210693_1_alg».proof.Proof.Arrays

set_option maxRecDepth 16384

noncomputable section

namespace Cert.ReferenceIdeal.Net

open Idealize.ShloMosaic Idealize.ShloMosaic.ValueIdx Cert.ReferenceIdeal
open Cert.ReferenceIdeal.Facts₀ Cert.ReferenceIdeal.Facts

/-! ## The reference's operation chains, with their inputs as variables -/

/-- The neighbourhood sum added to the features: x plus, at each node, the rows of x gathered along the edges'
    sources and summed at the edges' destinations. -/
def agg (src dst : IVec S800000 32) (X : FVec Ideal S50000x128 .f32) : FVec Ideal S50000x128 .f32 :=
  addf X (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 X (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))

/-- An inner layer as the reference spells it. -/
def inner (X : FVec Ideal S50000x128 .f32) (W1 : FVec Ideal S128x128 .f32) (b1 : FVec Ideal S128 .f32) (W2 : FVec Ideal S128x128 .f32)
    (b2 g be mu var : FVec Ideal S128 .f32) : FVec Ideal S50000x128 .f32 :=
  addf (mulf (subf (maximumf (addf (Host.dotGeneral dot_S50000x128_S128x128_S50000x128_1_0_0_1_n_n none (maximumf (addf (Host.dotGeneral dot_S50000x128_S128x128_S50000x128_1_0_0_1_n_n none X (transpose S128x128 [1, 0] W1 transposes_S128x128_S128x128_1_0)) (broadcastInDim S50000x128 ![0, 1] bcast_S1x128_S50000x128_0_1 (broadcastInDim S1x128 ![1] bcast_S128_S1x128_1 b1))) (broadcastInDim S50000x128 ![] bcast_S_S50000x128 (constant S_ .f32 0x00000000#32))) (transpose S128x128 [1, 0] W2 transposes_S128x128_S128x128_1_0)) (broadcastInDim S50000x128 ![0, 1] bcast_S1x128_S50000x128_0_1 (broadcastInDim S1x128 ![1] bcast_S128_S1x128_1 b2))) (broadcastInDim S50000x128 ![] bcast_S_S50000x128 (constant S_ .f32 0x00000000#32))) (broadcastInDim S50000x128 ![0, 1] bcast_S1x128_S50000x128_0_1 (broadcastInDim S1x128 ![1] bcast_S128_S1x128_1 mu))) (broadcastInDim S50000x128 ![0, 1] bcast_S1x128_S50000x128_0_1 (broadcastInDim S1x128 ![1] bcast_S128_S1x128_1 (Host.divf g (Host.sqrt (addf var (broadcastInDim S128 ![] bcast_S_S128 (constant S_ .f32 0x3727C5AC#32)))))))) (broadcastInDim S50000x128 ![0, 1] bcast_S1x128_S50000x128_0_1 (broadcastInDim S1x128 ![1] bcast_S128_S1x128_1 be))

/-- The output layer as the reference spells it. -/
def outer (X : FVec Ideal S50000x128 .f32) (W1 : FVec Ideal S128x128 .f32) (b1 : FVec Ideal S128 .f32) (W2 : FVec Ideal S128x128 .f32)
    (b2 : FVec Ideal S128 .f32) : FVec Ideal S50000x128 .f32 :=
  maximumf (addf (Host.dotGeneral dot_S50000x128_S128x128_S50000x128_1_0_0_1_n_n none (maximumf (addf (Host.dotGeneral dot_S50000x128_S128x128_S50000x128_1_0_0_1_n_n none X (transpose S128x128 [1, 0] W1 transposes_S128x128_S128x128_1_0)) (broadcastInDim S50000x128 ![0, 1] bcast_S1x128_S50000x128_0_1 (broadcastInDim S1x128 ![1] bcast_S128_S1x128_1 b1))) (broadcastInDim S50000x128 ![] bcast_S_S50000x128 (constant S_ .f32 0x00000000#32))) (transpose S128x128 [1, 0] W2 transposes_S128x128_S128x128_1_0)) (broadcastInDim S50000x128 ![0, 1] bcast_S1x128_S50000x128_0_1 (broadcastInDim S1x128 ![1] bcast_S128_S1x128_1 b2))) (broadcastInDim S50000x128 ![] bcast_S_S50000x128 (constant S_ .f32 0x00000000#32))

/-- The per-graph sum of the node rows. -/
def pool (B : IVec S50000 32) (Y : FVec Ideal S50000x128 .f32) : FVec Ideal S128x128 .f32 :=
  Host.scatterAdd scatter_S128x128_S50000x1_S50000x128_1_0_0_1 (broadcastInDim S128x128 ![] bcast_S_S128x128 (constant S_ .f32 0x00000000#32)) (broadcastInDim S50000x1 ![0] bcast_S50000_S50000x1_0 B) Y

/-- The head as the reference spells it. -/
def head (Pl : FVec Ideal S128x128 .f32) (W1 : FVec Ideal S128x128 .f32) (b1 : FVec Ideal S128 .f32) (W2 : FVec Ideal S41x128 .f32)
    (b2 : FVec Ideal S41 .f32) : FVec Ideal S128x41 .f32 :=
  addf (Host.dotGeneral dot_S128x128_S128x41_S128x41_1_0_0_1_n_n none (maximumf (addf (Host.dotGeneral dot_S128x128_S128x128_S128x128_1_0_0_1_n_n none Pl (transpose S128x128 [1, 0] W1 transposes_S128x128_S128x128_1_0)) (broadcastInDim S128x128 ![0, 1] bcast_S1x128_S128x128_0_1 (broadcastInDim S1x128 ![1] bcast_S128_S1x128_1 b1))) (broadcastInDim S128x128 ![] bcast_S_S128x128 (constant S_ .f32 0x00000000#32))) (transpose S128x41 [1, 0] W2 transposes_S41x128_S128x41_1_0)) (broadcastInDim S128x41 ![0, 1] bcast_S1x41_S128x41_0_1 (broadcastInDim S1x41 ![1] bcast_S41_S1x41_1 b2))

/-! ## The pieces at an entry -/

theorem dense_rows (x : FVec Ideal S50000x128 .f32) (w : FVec Ideal S128x128 .f32) (b : FVec Ideal S128 .f32) (r : Fin 50000) (j : Fin 128) :
    addf (Host.dotGeneral dot_S50000x128_S128x128_S50000x128_1_0_0_1_n_n none x (transpose S128x128 [1, 0] w transposes_S128x128_S128x128_1_0))
        (broadcastInDim S50000x128 ![0, 1] bcast_S1x128_S50000x128_0_1 (broadcastInDim S1x128 ![1] bcast_S128_S1x128_1 b)) (ix2 r j)
      = Gin.dense (fun k => x (ix2 r k)) w (fun j => b (ix1 j)) j :=
  Gin.host_dense _ rfl _ x w _ b _ _ r j

theorem dense_pool (x : FVec Ideal S128x128 .f32) (w : FVec Ideal S128x128 .f32) (b : FVec Ideal S128 .f32) (r : Fin 128) (j : Fin 128) :
    addf (Host.dotGeneral dot_S128x128_S128x128_S128x128_1_0_0_1_n_n none x (transpose S128x128 [1, 0] w transposes_S128x128_S128x128_1_0))
        (broadcastInDim S128x128 ![0, 1] bcast_S1x128_S128x128_0_1 (broadcastInDim S1x128 ![1] bcast_S128_S1x128_1 b)) (ix2 r j)
      = Gin.dense (fun k => x (ix2 r k)) w (fun j => b (ix1 j)) j :=
  Gin.host_dense _ rfl _ x w _ b _ _ r j

theorem dense_cls (x : FVec Ideal S128x128 .f32) (w : FVec Ideal S41x128 .f32) (b : FVec Ideal S41 .f32) (r : Fin 128) (j : Fin 41) :
    addf (Host.dotGeneral dot_S128x128_S128x41_S128x41_1_0_0_1_n_n none x (transpose S128x41 [1, 0] w transposes_S41x128_S128x41_1_0))
        (broadcastInDim S128x41 ![0, 1] bcast_S1x41_S128x41_0_1 (broadcastInDim S1x41 ![1] bcast_S41_S1x41_1 b)) (ix2 r j)
      = Gin.dense (fun k => x (ix2 r k)) w (fun j => b (ix1 j)) j :=
  Gin.host_dense _ rfl _ x w _ b _ _ r j

/-- A vector laid out as a row and broadcast down the node rows, at an entry. -/
theorem row_apply (b : FVec Ideal S128 .f32) (r : Fin 50000) (j : Fin 128) :
    broadcastInDim S50000x128 ![0, 1] bcast_S1x128_S50000x128_0_1 (broadcastInDim S1x128 ![1] bcast_S128_S1x128_1 b) (ix2 r j) = b (ix1 j) :=
  Gin.host_bias b _ _ r j

/-- The zero scalar broadcast over the node rows, at an entry. -/
theorem zeros_apply (i : S50000x128.Idx) :
    broadcastInDim S50000x128 ![] bcast_S_S50000x128 (constant (F := Ideal) S_ .f32 0x00000000#32) i = Ideal.ofBits .f32 0x00000000#32 := by
  rw [broadcastInDim_apply _ _ _ i ix0 (fun a => a.elim0)]
  rfl

/-- The zero scalar broadcast over the pooled rows, at an entry. -/
theorem zeros_pool_apply (i : S128x128.Idx) :
    broadcastInDim S128x128 ![] bcast_S_S128x128 (constant (F := Ideal) S_ .f32 0x00000000#32) i = Ideal.ofBits .f32 0x00000000#32 := by
  rw [broadcastInDim_apply _ _ _ i ix0 (fun a => a.elim0)]
  rfl

/-- The reference's scale at column j: gamma over the square root of the variance plus the offset. -/
theorem scale_apply (g var : FVec Ideal S128 .f32) (j : Fin 128) :
    Host.divf g (Host.sqrt (addf var (broadcastInDim S128 ![] bcast_S_S128 (constant (F := Ideal) S_ .f32 0x3727C5AC#32)))) (ix1 j)
      = Ideal.div (g (ix1 j)) (Ideal.sqrt (var (ix1 j) + Ideal.ofBits .f32 0x3727C5AC#32)) := by
  show Ideal.div (g (ix1 j)) (Ideal.sqrt (var (ix1 j)
      + broadcastInDim S128 ![] bcast_S_S128 (constant (F := Ideal) S_ .f32 0x3727C5AC#32) (ix1 j))) = _
  rw [broadcastInDim_apply _ _ _ (ix1 j) ix0 (fun a => a.elim0)]
  rfl

/-! ## The scale, for a variance entry that is at least zero -/

/-- For x ≥ 0 on the extended reals a factor times the reciprocal square root of x plus the offset is the factor
    divided by the square root of x plus the offset: at a real x by the law for reals, at +∞ both are the factor
    times zero. -/
theorem scale_nonneg (g x : EReal) (hx : 0 ≤ x) :
    g * Ideal.rsqrt (x + Ideal.ofBits .f32 0x3727C5AC#32) = Ideal.div g (Ideal.sqrt (x + Ideal.ofBits .f32 0x3727C5AC#32)) := by
  induction x using EReal.rec with
  | bot => exact absurd hx (by simp)
  | coe v => exact Gin.scale_var g (by exact_mod_cast hx)
  | top =>
    obtain ⟨e, -, hE⟩ := Gin.eps_pos
    rw [hE, EReal.top_add_coe]
    show g * 0 = Ideal.div g ⊤
    rw [Ideal.div, if_neg EReal.top_ne_zero, EReal.inv_top]

/-! ## The layers -/

/-- An inner layer, for a variance whose entries are at least zero, is the row-form layer with the scale
    gamma · rsqrt (var + offset). -/
theorem inner_eq (X : FVec Ideal S50000x128 .f32) (W1 : FVec Ideal S128x128 .f32) (b1 : FVec Ideal S128 .f32) (W2 : FVec Ideal S128x128 .f32)
    (b2 g be mu var : FVec Ideal S128 .f32) (hvar : ∀ j : Fin 128, (0 : EReal) ≤ var (ix1 j)) :
    inner X W1 b1 W2 b2 g be mu var
      = Gin.innerArr (n := 50000) (K := 128) (H := 128) (d := 128) X W1 W2 (fun j => b1 (ix1 j)) (fun j => b2 (ix1 j))
          (fun j => g (ix1 j) * Ideal.rsqrt (var (ix1 j) + Ideal.ofBits .f32 0x3727C5AC#32))
          (fun j => be (ix1 j)) (fun j => mu (ix1 j)) := by
  funext i
  obtain ⟨r, j, rfl⟩ : ∃ (r : Fin 50000) (j : Fin 128), i = ix2 r j := ⟨i 0, i 1, eq_ix2 i⟩
  have hid : ∀ k : Fin 128, maximumf (addf (Host.dotGeneral dot_S50000x128_S128x128_S50000x128_1_0_0_1_n_n none X (transpose S128x128 [1, 0] W1 transposes_S128x128_S128x128_1_0))
          (broadcastInDim S50000x128 ![0, 1] bcast_S1x128_S50000x128_0_1 (broadcastInDim S1x128 ![1] bcast_S128_S1x128_1 b1)))
        (broadcastInDim S50000x128 ![] bcast_S_S50000x128 (constant (F := Ideal) S_ .f32 0x00000000#32)) (ix2 r k)
      = Gin.relu (Gin.dense (fun l => X (ix2 r l)) W1 (fun j => b1 (ix1 j)) k) := by
    intro k
    rw [maximumf_apply, dense_rows, zeros_apply]
    rfl
  unfold inner
  rw [addf_apply, mulf_apply, subf_apply, maximumf_apply, dense_rows, zeros_apply, row_apply, row_apply, row_apply, scale_apply,
    Gin.dense_congr (w' := W2) (b' := fun j => b2 (ix1 j)) j hid (fun _ => rfl) rfl, ← scale_nonneg _ _ (hvar j)]
  rfl

/-- The output layer is the row-form layer. -/
theorem outer_eq (X : FVec Ideal S50000x128 .f32) (W1 : FVec Ideal S128x128 .f32) (b1 : FVec Ideal S128 .f32) (W2 : FVec Ideal S128x128 .f32)
    (b2 : FVec Ideal S128 .f32) :
    outer X W1 b1 W2 b2
      = Gin.outerArr (n := 50000) (K := 128) (H := 128) (d := 128) X W1 W2 (fun j => b1 (ix1 j)) (fun j => b2 (ix1 j)) := by
  funext i
  obtain ⟨r, j, rfl⟩ : ∃ (r : Fin 50000) (j : Fin 128), i = ix2 r j := ⟨i 0, i 1, eq_ix2 i⟩
  have hid : ∀ k : Fin 128, maximumf (addf (Host.dotGeneral dot_S50000x128_S128x128_S50000x128_1_0_0_1_n_n none X (transpose S128x128 [1, 0] W1 transposes_S128x128_S128x128_1_0))
          (broadcastInDim S50000x128 ![0, 1] bcast_S1x128_S50000x128_0_1 (broadcastInDim S1x128 ![1] bcast_S128_S1x128_1 b1)))
        (broadcastInDim S50000x128 ![] bcast_S_S50000x128 (constant (F := Ideal) S_ .f32 0x00000000#32)) (ix2 r k)
      = Gin.relu (Gin.dense (fun l => X (ix2 r l)) W1 (fun j => b1 (ix1 j)) k) := by
    intro k
    rw [maximumf_apply, dense_rows, zeros_apply]
    rfl
  unfold outer
  rw [maximumf_apply, dense_rows, zeros_apply,
    Gin.dense_congr (w' := W2) (b' := fun j => b2 (ix1 j)) j hid (fun _ => rfl) rfl]
  rfl

/-- The head is the row-form perceptron of each pooled row. -/
theorem head_eq (Pl : FVec Ideal S128x128 .f32) (W1 : FVec Ideal S128x128 .f32) (b1 : FVec Ideal S128 .f32) (W2 : FVec Ideal S41x128 .f32)
    (b2 : FVec Ideal S41 .f32) :
    head Pl W1 b1 W2 b2
      = Gin.headArr (n := 128) (K := 128) (H := 128) (d := 41) Pl W1 W2 (fun j => b1 (ix1 j)) (fun j => b2 (ix1 j)) := by
  funext i
  obtain ⟨r, j, rfl⟩ : ∃ (r : Fin 128) (j : Fin 41), i = ix2 r j := ⟨i 0, i 1, eq_ix2 i⟩
  have hid : ∀ k : Fin 128, maximumf (addf (Host.dotGeneral dot_S128x128_S128x128_S128x128_1_0_0_1_n_n none Pl (transpose S128x128 [1, 0] W1 transposes_S128x128_S128x128_1_0))
          (broadcastInDim S128x128 ![0, 1] bcast_S1x128_S128x128_0_1 (broadcastInDim S1x128 ![1] bcast_S128_S1x128_1 b1)))
        (broadcastInDim S128x128 ![] bcast_S_S128x128 (constant (F := Ideal) S_ .f32 0x00000000#32)) (ix2 r k)
      = Gin.relu (Gin.dense (fun l => Pl (ix2 r l)) W1 (fun j => b1 (ix1 j)) k) := by
    intro k
    rw [maximumf_apply, dense_pool, zeros_pool_apply]
    rfl
  unfold head
  rw [dense_cls, Gin.dense_congr (w' := W2) (b' := fun j => b2 (ix1 j)) j hid (fun _ => rfl) rfl]
  rfl

end Cert.ReferenceIdeal.Net

end
-- ==== Proof.RNet.lean ====
/-
  The reference's run as one function of its twenty argument arrays.

  The reference embeds the node ids, applies five inner layers with shared weights, the output layer, the per-graph
  pooling and the head; every layer first adds to the features their neighbourhood sum along the edge list. With
  each layer replaced by its row-form array function (the inner layers' needs the variance entries to be at least
  zero) the result is the network function below.
-/
import proofs.«135258_j66949950210693_1_alg».proof.Proof.Gen.ReferenceIdeal.Run
import proofs.«135258_j66949950210693_1_alg».proof.Proof.RLayer

set_option maxRecDepth 16384
set_option maxHeartbeats 4000000

noncomputable section

namespace Cert.ReferenceIdeal.Net

open Idealize.ShloMosaic Idealize.ShloMosaic.ValueIdx Idealize.ShloMosaic.TcCoe Idealize.SL.Sem Cert.ReferenceIdeal Cert.ReferenceIdeal.Value
open Cert.ReferenceIdeal.Facts₀ Cert.ReferenceIdeal.Facts

/-! ## The network, from the argument arrays -/

/-- The edges' sources. -/
def srcOf (A1 : IVec S2x800000 32) : IVec S800000 32 :=
  shapeCast _ (extractStridedSlice S1x800000 ![0, 0] A1 slices_S2x800000_S1x800000_0_0) shapeCasts_S1x800000_S800000

/-- The edges' destinations. -/
def dstOf (A1 : IVec S2x800000 32) : IVec S800000 32 :=
  shapeCast _ (extractStridedSlice S1x800000 ![1, 0] A1 slices_S2x800000_S1x800000_1_0) shapeCasts_S1x800000_S800000

/-- The embedded node features. -/
def x0Of (A0 : IVec S50000 32) (A3 : FVec Ideal S1340x128 .f32) : FVec Ideal S50000x128 .f32 :=
  Host.gather gather_S1340x128_S50000x1_S50000x128_1_0_n_n_0_1_1128 A3 (broadcastInDim S50000x1 ![0] bcast_S50000_S50000x1_0 (select (cmpi .slt A0 (broadcastInDim S50000 ![] bcast_S_S50000 (constantI S_ 32 0#32))) (addi A0 (broadcastInDim S50000 ![] bcast_S_S50000 (constantI S_ 32 1340#32))) A0))

/-- An inner layer on the features, in row form. -/
def layerSpec (A1 : IVec S2x800000 32) (A4 : FVec Ideal S128x128 .f32) (A5 : FVec Ideal S128 .f32) (A6 : FVec Ideal S128x128 .f32) (A7 : FVec Ideal S128 .f32) (A8 : FVec Ideal S128 .f32) (A9 : FVec Ideal S128 .f32) (A10 : FVec Ideal S128 .f32) (A11 : FVec Ideal S128 .f32) (X : FVec Ideal S50000x128 .f32) : FVec Ideal S50000x128 .f32 :=
  Gin.innerArr (n := 50000) (K := 128) (H := 128) (d := 128) (agg (srcOf A1) (dstOf A1) X) A4 A6
    (fun j => A5 (ix1 j)) (fun j => A7 (ix1 j))
    (fun j => A8 (ix1 j) * Ideal.rsqrt (A11 (ix1 j) + Ideal.ofBits .f32 0x3727C5AC#32))
    (fun j => A9 (ix1 j)) (fun j => A10 (ix1 j))

/-- The output layer on the features, in row form. -/
def outSpec (A1 : IVec S2x800000 32) (A12 : FVec Ideal S128x128 .f32) (A13 : FVec Ideal S128 .f32) (A14 : FVec Ideal S128x128 .f32) (A15 : FVec Ideal S128 .f32) (X : FVec Ideal S50000x128 .f32) : FVec Ideal S50000x128 .f32 :=
  Gin.outerArr (n := 50000) (K := 128) (H := 128) (d := 128) (agg (srcOf A1) (dstOf A1) X) A12 A14
    (fun j => A13 (ix1 j)) (fun j => A15 (ix1 j))

/-- The head on the pooled rows, in row form. -/
def headSpec (A16 : FVec Ideal S128x128 .f32) (A17 : FVec Ideal S128 .f32) (A18 : FVec Ideal S41x128 .f32) (A19 : FVec Ideal S41 .f32) (Pl : FVec Ideal S128x128 .f32) : FVec Ideal S128x41 .f32 :=
  Gin.headArr (n := 128) (K := 128) (H := 128) (d := 41) Pl A16 A18 (fun j => A17 (ix1 j)) (fun j => A19 (ix1 j))

/-- The whole network. -/
def netSpec (A0 : IVec S50000 32) (A1 : IVec S2x800000 32) (A2 : IVec S50000 32) (A3 : FVec Ideal S1340x128 .f32) (A4 : FVec Ideal S128x128 .f32) (A5 : FVec Ideal S128 .f32) (A6 : FVec Ideal S128x128 .f32) (A7 : FVec Ideal S128 .f32) (A8 : FVec Ideal S128 .f32) (A9 : FVec Ideal S128 .f32) (A10 : FVec Ideal S128 .f32) (A11 : FVec Ideal S128 .f32) (A12 : FVec Ideal S128x128 .f32) (A13 : FVec Ideal S128 .f32) (A14 : FVec Ideal S128x128 .f32) (A15 : FVec Ideal S128 .f32) (A16 : FVec Ideal S128x128 .f32) (A17 : FVec Ideal S128 .f32) (A18 : FVec Ideal S41x128 .f32) (A19 : FVec Ideal S41 .f32) : FVec Ideal S128x41 .f32 :=
  headSpec A16 A17 A18 A19 (pool A2 (outSpec A1 A12 A13 A14 A15 (layerSpec A1 A4 A5 A6 A7 A8 A9 A10 A11 (layerSpec A1 A4 A5 A6 A7 A8 A9 A10 A11 (layerSpec A1 A4 A5 A6 A7 A8 A9 A10 A11 (layerSpec A1 A4 A5 A6 A7 A8 A9 A10 A11
    (layerSpec A1 A4 A5 A6 A7 A8 A9 A10 A11 (x0Of A0 A3))))))))

/-! ## The generated run's result is the network -/

/-- The result buffer after the reference's operations, from any contents whose argument buffers are the given arrays with a
    variance at least zero, is the network's function of those arrays. -/
theorem run_term_eq (V0 : Valuation τ sig (Elt Ideal)) (A0 : IVec S50000 32) (A1 : IVec S2x800000 32) (A2 : IVec S50000 32) (A3 : FVec Ideal S1340x128 .f32) (A4 : FVec Ideal S128x128 .f32) (A5 : FVec Ideal S128 .f32) (A6 : FVec Ideal S128x128 .f32) (A7 : FVec Ideal S128 .f32) (A8 : FVec Ideal S128 .f32) (A9 : FVec Ideal S128 .f32) (A10 : FVec Ideal S128 .f32) (A11 : FVec Ideal S128 .f32) (A12 : FVec Ideal S128x128 .f32) (A13 : FVec Ideal S128 .f32) (A14 : FVec Ideal S128x128 .f32) (A15 : FVec Ideal S128 .f32) (A16 : FVec Ideal S128x128 .f32) (A17 : FVec Ideal S128 .f32) (A18 : FVec Ideal S41x128 .f32) (A19 : FVec Ideal S41 .f32)
    (h0 : V0 (Proc.devRef .tc main_arg0) = A0) (h1 : V0 (Proc.devRef .tc main_arg1) = A1) (h2 : V0 (Proc.devRef .tc main_arg2) = A2) (h3 : V0 (Proc.devRef .tc main_arg3) = A3) (h4 : V0 (Proc.devRef .tc main_arg4) = A4) (h5 : V0 (Proc.devRef .tc main_arg5) = A5) (h6 : V0 (Proc.devRef .tc main_arg6) = A6) (h7 : V0 (Proc.devRef .tc main_arg7) = A7) (h8 : V0 (Proc.devRef .tc main_arg8) = A8) (h9 : V0 (Proc.devRef .tc main_arg9) = A9) (h10 : V0 (Proc.devRef .tc main_arg10) = A10) (h11 : V0 (Proc.devRef .tc main_arg11) = A11) (h12 : V0 (Proc.devRef .tc main_arg12) = A12) (h13 : V0 (Proc.devRef .tc main_arg13) = A13) (h14 : V0 (Proc.devRef .tc main_arg14) = A14) (h15 : V0 (Proc.devRef .tc main_arg15) = A15) (h16 : V0 (Proc.devRef .tc main_arg16) = A16) (h17 : V0 (Proc.devRef .tc main_arg17) = A17) (h18 : V0 (Proc.devRef .tc main_arg18) = A18) (h19 : V0 (Proc.devRef .tc main_arg19) = A19)
    (hvar : ∀ j : Fin 128, (0 : EReal) ≤ A11 (ix1 j)) :
    val5 V0 (Proc.devRef .tc main_v240) = netSpec A0 A1 A2 A3 A4 A5 A6 A7 A8 A9 A10 A11 A12 A13 A14 A15 A16 A17 A18 A19 := by
  refine (val5_main_v240 V0).trans ?_
  subst h0 h1 h2 h3 h4 h5 h6 h7 h8 h9 h10 h11 h12 h13 h14 h15 h16 h17 h18 h19
  have e0 : res_main_v10 V0 = x0Of (V0 (Proc.devRef .tc main_arg0)) (V0 (Proc.devRef .tc main_arg3)) := rfl
  have e1 : res_main_v48 V0 = layerSpec (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (res_main_v10 V0) := by
    show inner (agg (srcOf (V0 (Proc.devRef .tc main_arg1))) (dstOf (V0 (Proc.devRef .tc main_arg1))) (res_main_v10 V0)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) = _
    rw [inner_eq _ _ _ _ _ _ _ _ _ hvar]
    rfl
  have e2 : res_main_v86 V0 = layerSpec (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (res_main_v48 V0) := by
    show inner (agg (srcOf (V0 (Proc.devRef .tc main_arg1))) (dstOf (V0 (Proc.devRef .tc main_arg1))) (res_main_v48 V0)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) = _
    rw [inner_eq _ _ _ _ _ _ _ _ _ hvar]
    rfl
  have e3 : res_main_v124 V0 = layerSpec (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (res_main_v86 V0) := by
    show inner (agg (srcOf (V0 (Proc.devRef .tc main_arg1))) (dstOf (V0 (Proc.devRef .tc main_arg1))) (res_main_v86 V0)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) = _
    rw [inner_eq _ _ _ _ _ _ _ _ _ hvar]
    rfl
  have e4 : res_main_v162 V0 = layerSpec (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (res_main_v124 V0) := by
    show inner (agg (srcOf (V0 (Proc.devRef .tc main_arg1))) (dstOf (V0 (Proc.devRef .tc main_arg1))) (res_main_v124 V0)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) = _
    rw [inner_eq _ _ _ _ _ _ _ _ _ hvar]
    rfl
  have e5 : res_main_v200 V0 = layerSpec (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (res_main_v162 V0) := by
    show inner (agg (srcOf (V0 (Proc.devRef .tc main_arg1))) (dstOf (V0 (Proc.devRef .tc main_arg1))) (res_main_v162 V0)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) = _
    rw [inner_eq _ _ _ _ _ _ _ _ _ hvar]
    rfl
  show head (pool (V0 (Proc.devRef .tc main_arg2)) (outer (agg (srcOf (V0 (Proc.devRef .tc main_arg1))) (dstOf (V0 (Proc.devRef .tc main_arg1))) (res_main_v200 V0)) (V0 (Proc.devRef .tc main_arg12)) (V0 (Proc.devRef .tc main_arg13)) (V0 (Proc.devRef .tc main_arg14)) (V0 (Proc.devRef .tc main_arg15))))
      (V0 (Proc.devRef .tc main_arg16)) (V0 (Proc.devRef .tc main_arg17)) (V0 (Proc.devRef .tc main_arg18)) (V0 (Proc.devRef .tc main_arg19)) = _
  rw [head_eq, outer_eq, e5, e4, e3, e2, e1, e0]
  rfl

end Cert.ReferenceIdeal.Net

end
-- ==== Proof.Bridge.lean ====
/-
  The kernel's network and the reference's are one function of the argument arrays.

  Both programs embed, aggregate, pool with the same gather and scatter records; the kernel's weight casts are the
  identity at the exact values; and where the kernel lays a bias or normalisation vector out as a one-row array and
  reads its row, the reference reads the vector. So layer by layer the two row-form descriptions have equal
  operands, and the compositions agree.
-/
import proofs.«135258_j66949950210693_1_alg».proof.Proof.KC8
import proofs.«135258_j66949950210693_1_alg».proof.Proof.RNet

set_option maxRecDepth 16384
set_option maxHeartbeats 4000000

noncomputable section

namespace Cert.Gin

open Idealize.ShloMosaic Idealize.ShloMosaic.ValueIdx

/-- Equal operands give equal inner layers; the vectors are compared entry by entry. -/
theorem innerArr_ext {n K H d : ℕ} {x x' : (⟨2, ![n, K]⟩ : Shape).Idx → EReal} {w1 w1' : (⟨2, ![H, K]⟩ : Shape).Idx → EReal}
    {w2 w2' : (⟨2, ![d, H]⟩ : Shape).Idx → EReal} {b1 b1' : Fin H → EReal} {b2 b2' sc sc' be be' mu mu' : Fin d → EReal}
    (hx : x = x') (hw1 : w1 = w1') (hw2 : w2 = w2') (hb1 : ∀ j, b1 j = b1' j) (hb2 : ∀ j, b2 j = b2' j)
    (hsc : ∀ j, sc j = sc' j) (hbe : ∀ j, be j = be' j) (hmu : ∀ j, mu j = mu' j) :
    innerArr x w1 w2 b1 b2 sc be mu = innerArr x' w1' w2' b1' b2' sc' be' mu' := by
  obtain rfl := hx
  obtain rfl := hw1
  obtain rfl := hw2
  obtain rfl : b1 = b1' := funext hb1
  obtain rfl : b2 = b2' := funext hb2
  obtain rfl : sc = sc' := funext hsc
  obtain rfl : be = be' := funext hbe
  obtain rfl : mu = mu' := funext hmu
  rfl

theorem outerArr_ext {n K H d : ℕ} {x x' : (⟨2, ![n, K]⟩ : Shape).Idx → EReal} {w1 w1' : (⟨2, ![H, K]⟩ : Shape).Idx → EReal}
    {w2 w2' : (⟨2, ![d, H]⟩ : Shape).Idx → EReal} {b1 b1' : Fin H → EReal} {b2 b2' : Fin d → EReal}
    (hx : x = x') (hw1 : w1 = w1') (hw2 : w2 = w2') (hb1 : ∀ j, b1 j = b1' j) (hb2 : ∀ j, b2 j = b2' j) :
    outerArr x w1 w2 b1 b2 = outerArr x' w1' w2' b1' b2' := by
  obtain rfl := hx
  obtain rfl := hw1
  obtain rfl := hw2
  obtain rfl : b1 = b1' := funext hb1
  obtain rfl : b2 = b2' := funext hb2
  rfl

theorem headArr_ext {n K H d : ℕ} {x x' : (⟨2, ![n, K]⟩ : Shape).Idx → EReal} {w1 w1' : (⟨2, ![H, K]⟩ : Shape).Idx → EReal}
    {w2 w2' : (⟨2, ![d, H]⟩ : Shape).Idx → EReal} {b1 b1' : Fin H → EReal} {b2 b2' : Fin d → EReal}
    (hx : x = x') (hw1 : w1 = w1') (hw2 : w2 = w2') (hb1 : ∀ j, b1 j = b1' j) (hb2 : ∀ j, b2 j = b2' j) :
    headArr x w1 w2 b1 b2 = headArr x' w1' w2' b1' b2' := by
  obtain rfl := hx
  obtain rfl := hw1
  obtain rfl := hw2
  obtain rfl : b1 = b1' := funext hb1
  obtain rfl : b2 = b2' := funext hb2
  rfl

end Cert.Gin

namespace Cert.Bridge

open Idealize.ShloMosaic Idealize.ShloMosaic.ValueIdx Idealize.ShloMosaic.TcCoe Idealize.SL.Sem

variable (m : (ℓ : Loc Cert.KernelIdeal.nD Cert.KernelIdeal.τ Cert.KernelIdeal.sig) → Buf (Elt Ideal) ℓ) (c : Dev Cert.KernelIdeal.nD)

theorem x0_eq : Cert.KernelIdeal.Chain.x0 m c = Cert.ReferenceIdeal.Net.x0Of (m ((c : Thread Cert.KernelIdeal.nD Cert.KernelIdeal.τ).loc Cert.KernelIdeal.main_arg0)) (m ((c : Thread Cert.KernelIdeal.nD Cert.KernelIdeal.τ).loc Cert.KernelIdeal.main_arg3)) := rfl

theorem pool_eq (Y : FVec Ideal Cert.ReferenceIdeal.S50000x128 .f32) :
    Cert.KernelIdeal.Chain.pool m c Y = Cert.ReferenceIdeal.Net.pool (m ((c : Thread Cert.KernelIdeal.nD Cert.KernelIdeal.τ).loc Cert.KernelIdeal.main_arg2)) Y := rfl

theorem layer_eq (X : FVec Ideal Cert.ReferenceIdeal.S50000x128 .f32) :
    Cert.KernelIdeal.Chain.layer m c X
      = Cert.ReferenceIdeal.Net.layerSpec (m ((c : Thread Cert.KernelIdeal.nD Cert.KernelIdeal.τ).loc Cert.KernelIdeal.main_arg1)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) X := by
  unfold Cert.KernelIdeal.Chain.layer Cert.ReferenceIdeal.Net.layerSpec
  exact Gin.innerArr_ext rfl rfl rfl (fun j => LibBiasRows.row_of_vector _ _ j) (fun j => LibBiasRows.row_of_vector _ _ j)
    (fun j => by beta_reduce; rw [LibBiasRows.row_of_vector, LibBiasRows.row_of_vector])
    (fun j => LibBiasRows.row_of_vector _ _ j) (fun j => LibBiasRows.row_of_vector _ _ j)

theorem outLayer_eq (X : FVec Ideal Cert.ReferenceIdeal.S50000x128 .f32) :
    Cert.KernelIdeal.Chain.outLayer m c X
      = Cert.ReferenceIdeal.Net.outSpec (m ((c : Thread Cert.KernelIdeal.nD Cert.KernelIdeal.τ).loc Cert.KernelIdeal.main_arg1)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) X := by
  unfold Cert.KernelIdeal.Chain.outLayer Cert.ReferenceIdeal.Net.outSpec
  exact Gin.outerArr_ext rfl rfl rfl (fun j => LibBiasRows.row_of_vector _ _ j) (fun j => LibBiasRows.row_of_vector _ _ j)

theorem headOf_eq (Pl : FVec Ideal Cert.ReferenceIdeal.S128x128 .f32) :
    Cert.KernelIdeal.Chain.headOf m c Pl
      = Cert.ReferenceIdeal.Net.headSpec (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) Pl := by
  unfold Cert.KernelIdeal.Chain.headOf Cert.ReferenceIdeal.Net.headSpec
  exact Gin.headArr_ext rfl rfl rfl (fun j => LibBiasRows.row_of_vector _ _ j) (fun j => LibBiasRows.row_of_vector _ _ j)

/-- The kernel's network is the reference's network of the same arrays. -/
theorem net_eq : Cert.KernelIdeal.Chain.net m c
      = Cert.ReferenceIdeal.Net.netSpec (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) := by
  unfold Cert.KernelIdeal.Chain.net Cert.ReferenceIdeal.Net.netSpec
  rw [headOf_eq, pool_eq, outLayer_eq, layer_eq, layer_eq, layer_eq, layer_eq, layer_eq, x0_eq]

end Cert.Bridge

end
-- ==== Proof.PreVar.lean ====
/-
  What the precondition says of the variance vector: every entry is at least zero.

  The precondition is one conjunction evaluated to a single truth value; its last conjunct is the conjunction over
  the 128 entries of "the variance entry is at least the zero word's value". A conjunction that holds has every
  conjunct holding, so each entry is at least zero on the extended reals. (The entry may still be +∞ as far as this
  conjunct goes; the layer's scale law holds there too.)
-/
import proofs.«135258_j66949950210693_1_alg».proof.Proof.Gen.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

set_option maxRecDepth 16384

noncomputable section

namespace Cert.Pre_finite_inputs.Decode

open Idealize.ShloMosaic Idealize.ShloMosaic.ValueIdx Cert.Pre_finite_inputs
open Cert.Pre_finite_inputs.Facts

/-- Under the precondition every entry of the variance vector is at least zero. -/
theorem var_nonneg (a0 : IVec S50000 32) (a1 : IVec S2x800000 32) (a2 : IVec S50000 32) (a3 : FVec Ideal S1340x128 .f32) (a4 : FVec Ideal S128x128 .f32) (a5 : FVec Ideal S128 .f32) (a6 : FVec Ideal S128x128 .f32) (a7 : FVec Ideal S128 .f32) (a8 : FVec Ideal S128 .f32) (a9 : FVec Ideal S128 .f32) (a10 : FVec Ideal S128 .f32) (a11 : FVec Ideal S128 .f32) (a12 : FVec Ideal S128x128 .f32) (a13 : FVec Ideal S128 .f32) (a14 : FVec Ideal S128x128 .f32) (a15 : FVec Ideal S128 .f32) (a16 : FVec Ideal S128x128 .f32) (a17 : FVec Ideal S128 .f32) (a18 : FVec Ideal S41x128 .f32) (a19 : FVec Ideal S41 .f32)
    (h : fn (F := Ideal) a0 a1 a2 a3 a4 a5 a6 a7 a8 a9 a10 a11 a12 a13 a14 a15 a16 a17 a18 a19 = fun _ => 1#1) (j : Fin 128) :
    (0 : EReal) ≤ a11 (ix1 j) := by
  obtain ⟨X, hX⟩ : ∃ X : IVec S_ 1, andi X (Host.reduce IntOp.andi
      (cmpf .oge a11 (broadcastInDim S128 ![] bcast_S_S128 (constant (F := Ideal) S_ .f32 0x00000000#32)))
      (constantI S_ 1 1#1) reducesTo_S128_S_d0 h_S_) ix0 = 1#1 := ⟨_, congrFun h ix0⟩
  haveI : Subsingleton S_.Idx := ⟨fun a b => funext fun d => d.elim0⟩
  have h2 : cmpf .oge a11 (broadcastInDim S128 ![] bcast_S_S128 (constant (F := Ideal) S_ .f32 0x00000000#32)) (ix1 j) = 1#1 :=
    Host.reduce_andi_all _ _ _ _ ix0 (IntOp.andi_eq_one.mp hX).2 (ix1 j)
  have e : broadcastInDim S128 ![] bcast_S_S128 (constant (F := Ideal) S_ .f32 0x00000000#32) (ix1 j)
      = Ideal.ofBits .f32 0x00000000#32 := by
    rw [broadcastInDim_apply _ _ _ (ix1 j) ix0 (fun a => a.elim0)]
    rfl
  have h3 : Ideal.cmp .oge (a11 (ix1 j)) (Ideal.ofBits .f32 0x00000000#32) = 1#1 := by
    rw [← e]
    exact h2
  rw [Ideal.ofBits_zero_f32] at h3
  by_contra hn
  simp [Ideal.cmp, hn] at h3

end Cert.Pre_finite_inputs.Decode

end
-- ==== Proof.lean ====
/-
  The certificate: the kernel and the reference compute one function of their arguments on the extended reals.

  The kernel runs a graph network as seven pipelined regions among stretches of host operations: five inner layers
  with shared weights, an output layer, a per-graph pooling and a two-layer head, each layer first adding to the node
  features their sum over incoming edges. The reference is the same network as host operations only. The two differ
  in spelling: the kernel contracts each block of rows against a weight matrix's rows where the reference transposes
  and multiplies; it lays vectors out as one-row arrays; it casts weights to a narrower format, which is the identity
  at the exact values; and it scales the normalisation by gamma times the reciprocal square root of the variance plus
  an offset where the reference divides gamma by the square root. The last agree exactly when the radicand is
  positive (or +∞), which the precondition's "the variance is at least zero" gives; everything else is a
  rearrangement of finite sums in a commutative monoid and holds for all extended reals.

  Each program's frame (it terminates, nothing faults, the arguments end as launched) is the generated one; the
  ideal pass recorded no rewrite, so the kernel's idealization claim is trivial.
-/
import proofs.«135258_j66949950210693_1_alg».proof.Defs
import proofs.«135258_j66949950210693_1_alg».proof.Proof.Gen.Kernel
import proofs.«135258_j66949950210693_1_alg».proof.Proof.Gen.Kernel.Frame
import proofs.«135258_j66949950210693_1_alg».proof.Proof.Gen.KernelIdeal
import proofs.«135258_j66949950210693_1_alg».proof.Proof.Gen.KernelIdeal.Frame
import proofs.«135258_j66949950210693_1_alg».proof.Proof.Gen.ReferenceIdeal
import proofs.«135258_j66949950210693_1_alg».proof.Proof.Gen.Pre_finite_inputs
import proofs.«135258_j66949950210693_1_alg».proof.Proof.Gen.ReferenceIdeal.Run
import proofs.«135258_j66949950210693_1_alg».proof.Proof.KRun
import proofs.«135258_j66949950210693_1_alg».proof.Proof.KC8
import proofs.«135258_j66949950210693_1_alg».proof.Proof.RNet
import proofs.«135258_j66949950210693_1_alg».proof.Proof.Bridge
import proofs.«135258_j66949950210693_1_alg».proof.Proof.PreVar
import Idealize.ShloMosaic.Adequacy
import Idealize.ShloMosaic.Init

set_option maxRecDepth 16384
set_option maxHeartbeats 4000000

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with the variance at least zero, both programs end with the network's
    function of the arguments in their result buffers. -/
theorem algebraic : Cert.algebraic_KernelIdeal_ReferenceIdeal := by
  intro m ρ m' ρ' hpre hagree
  refine ⟨fun c => Cert.KernelIdeal.Chain.net m c, ?_, ?_⟩
  · exact (θ_run Cert.KernelIdeal.defs _ _).mono
      (fun r h c => ⟨(h c).1.trans (Cert.KernelIdeal.Chain.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19⟩ := hagree c
    have hv : ∀ j : Fin 128, (0 : EReal) ≤ (m ((c.tc : Thread Cert.KernelIdeal.nD Cert.KernelIdeal.τ).loc Cert.KernelIdeal.main_arg11) : FVec Ideal Cert.ReferenceIdeal.S128 .f32) (ix1 j) :=
      fun j => Cert.Pre_finite_inputs.Decode.var_nonneg _ _ _ _ _ _ _ _ _ _ _ _ _ _ _ _ _ _ _ _ (hpre c) j
    exact ((Cert.ReferenceIdeal.Value.val5_main_v240 (StableHlo.launchContents m' c)).symm.trans
      (Cert.ReferenceIdeal.Net.run_term_eq (StableHlo.launchContents m' c)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))
      h0 h1 h2 h3 h4 h5 h6 h7 h8 h9 h10 h11 h12 h13 h14 h15 h16 h17 h18 h19 hv)).trans (Cert.Bridge.net_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
